-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32x128 : Shape := ⟨5, ![8, 16, 32, 32, 128]⟩
abbrev S128x1536 : Shape := ⟨2, ![128, 1536]⟩
abbrev S512x128 : Shape := ⟨2, ![512, 128]⟩
abbrev S128 : Shape := ⟨1, ![128]⟩
abbrev S_ : Shape := ⟨0, ![]⟩

class Facts : Prop where
  bcast_S_S8x16x32x32x128 : S_.BroadcastsInDim S8x16x32x32x128 (![] : Fin 0 → Fin S8x16x32x32x128.rank)
  reducesTo_S8x16x32x32x128_S_d0_1_2_3_4 : S8x16x32x32x128.ReducesTo [0, 1, 2, 3, 4] S_
  h_S_ : 0 < S_.numel
  bcast_S_S128x1536 : S_.BroadcastsInDim S128x1536 (![] : Fin 0 → Fin S128x1536.rank)
  reducesTo_S128x1536_S_d0_1 : S128x1536.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x16x32x32x128 .f32) (main_arg1 : FVec F S128x1536 .f32) (main_arg2 : FVec F S512x128 .f32) (main_arg3 : FVec F S128 .f32) (main_arg4 : FVec F S128 .f32) (main_arg5 : FVec F S128 .f32) : IVec S_ 1 :=
  let main_v0 : FVec F S8x16x32x32x128 .f32 := Host.absf main_arg0
  let main_cst : FVec F S_ .f32 := constant S_ .f32 0x7F800000#32
  let main_v1 : FVec F S8x16x32x32x128 .f32 := broadcastInDim S8x16x32x32x128 ![] bcast_S_S8x16x32x32x128 main_cst
  let main_v2 : IVec S8x16x32x32x128 1 := cmpf .olt main_v0 main_v1
  let main_c : IVec S_ 1 := constantI S_ 1 1#1
  let main_v3 : IVec S_ 1 := (fun x v => Host.reduce IntOp.andi x v reducesTo_S8x16x32x32x128_S_d0_1_2_3_4 h_S_) main_v2 main_c
  let main_v4 : FVec F S128x1536 .f32 := Host.absf main_arg1
  let main_cst_0 : FVec F S_ .f32 := constant S_ .f32 0x7F800000#32
  let main_v5 : FVec F S128x1536 .f32 := broadcastInDim S128x1536 ![] bcast_S_S128x1536 main_cst_0
  let main_v6 : IVec S128x1536 1 := cmpf .olt main_v4 main_v5
  let main_c_1 : IVec S_ 1 := constantI S_ 1 1#1
  let main_v7 : IVec S_ 1 := (fun x v => Host.reduce IntOp.andi x v reducesTo_S128x1536_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8x16x32x32x128 : Shape := ⟨5, ![8, 16, 32, 32, 128]⟩
abbrev S128x1536 : Shape := ⟨2, ![128, 1536]⟩
abbrev S512x128 : Shape := ⟨2, ![512, 128]⟩
abbrev S128 : Shape := ⟨1, ![128]⟩
abbrev S131072x128 : Shape := ⟨2, ![131072, 128]⟩
abbrev S131072x512 : Shape := ⟨2, ![131072, 512]⟩
abbrev S2048x128 : Shape := ⟨2, ![2048, 128]⟩
abbrev S2048x512 : Shape := ⟨2, ![2048, 512]⟩
abbrev S2048x1536 : Shape := ⟨2, ![2048, 1536]⟩
abbrev S8x8x16384x64 : Shape := ⟨4, ![8, 8, 16384, 64]⟩
abbrev S64x16384x64 : Shape := ⟨3, ![64, 16384, 64]⟩
abbrev S1x16384x64 : Shape := ⟨3, ![1, 16384, 64]⟩
abbrev S16384x64 : Shape := ⟨2, ![16384, 64]⟩
abbrev S16384 : Shape := ⟨1, ![16384]⟩
abbrev S16384x1 : Shape := ⟨2, ![16384, 1]⟩
abbrev S64x64 : Shape := ⟨2, ![64, 64]⟩
abbrev S8x16x32x32x512 : Shape := ⟨5, ![8, 16, 32, 32, 512]⟩
abbrev S1x128 : Shape := ⟨2, ![1, 128]⟩
abbrev S4096x512 : Shape := ⟨2, ![4096, 512]⟩
abbrev S4096x128 : Shape := ⟨2, ![4096, 128]⟩
abbrev S4096 : Shape := ⟨1, ![4096]⟩
abbrev S4096x1 : Shape := ⟨2, ![4096, 1]⟩

abbrev nBuf : Space → Nat
  | .hbm => 25
  | .vmem => 25
  | .smem => 0
  | _ => 0

abbrev bufTy : (tb : Table) → Fin (tcTables nBuf tb) → BufTy
  | .hbm, ⟨0, _⟩ => ⟨S8x16x32x32x128, .f32⟩
  | .hbm, ⟨1, _⟩ => ⟨S128x1536, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S131072x128, .f32⟩
  | .hbm, ⟨7, _⟩ => ⟨S131072x512, .bf16⟩
  | .hbm, ⟨8, _⟩ => ⟨S131072x512, .bf16⟩
  | .hbm, ⟨9, _⟩ => ⟨S131072x512, .bf16⟩
  | .hbm, ⟨10, _⟩ => ⟨S8x8x16384x64, .bf16⟩
  | .hbm, ⟨11, _⟩ => ⟨S64x16384x64, .bf16⟩
  | .hbm, ⟨12, _⟩ => ⟨S8x8x16384x64, .bf16⟩
  | .hbm, ⟨13, _⟩ => ⟨S64x16384x64, .bf16⟩
  | .hbm, ⟨14, _⟩ => ⟨S8x8x16384x64, .bf16⟩
  | .hbm, ⟨15, _⟩ => ⟨S64x16384x64, .bf16⟩
  | .hbm, ⟨16, _⟩ => ⟨S64x16384x64, .bf16⟩
  | .hbm, ⟨17, _⟩ => ⟨S8x8x16384x64, .bf16⟩
  | .hbm, ⟨18, _⟩ => ⟨S8x16x32x32x512, .bf16⟩
  | .hbm, ⟨19, _⟩ => ⟨S131072x512, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S131072x128, .f32⟩
  | .hbm, ⟨24, _⟩ => ⟨S8x16x32x32x128, .f32⟩
  | .local _ .vmem, ⟨0, _⟩ => ⟨S2048x128, .f32⟩
  | .local _ .vmem, ⟨1, _⟩ => ⟨S2048x128, .f32⟩
  | .local _ .vmem, ⟨2, _⟩ => ⟨S128x1536, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x16384x64, .bf16⟩
  | .local _ .vmem, ⟨10, _⟩ => ⟨S1x16384x64, .bf16⟩
  | .local _ .vmem, ⟨11, _⟩ => ⟨S1x16384x64, .bf16⟩
  | .local _ .vmem, ⟨12, _⟩ => ⟨S1x16384x64, .bf16⟩
  | .local _ .vmem, ⟨13, _⟩ => ⟨S1x16384x64, .bf16⟩
  | .local _ .vmem, ⟨14, _⟩ => ⟨S1x16384x64, .bf16⟩
  | .local _ .vmem, ⟨15, _⟩ => ⟨S1x16384x64, .bf16⟩
  | .local _ .vmem, ⟨16, _⟩ => ⟨S1x16384x64, .bf16⟩
  | .local _ .vmem, ⟨17, _⟩ => ⟨S4096x512, .bf16⟩
  | .local _ .vmem, ⟨18, _⟩ => ⟨S4096x512, .bf16⟩
  | .local _ .vmem, ⟨19, _⟩ => ⟨S512x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S4096x128, .f32⟩
  | .local _ .vmem, ⟨24, _⟩ => ⟨S4096x128, .f32⟩
  | _, _ => ⟨S8x16x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16384x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16384x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16384x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S8x16x32x32x128_S131072x128 : S8x16x32x32x128.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x1536_S128x1536_0_0 : ∀ a, (![0, 0] : Fin 2 → Nat) a + S128x1536.size a ≤ S128x1536.size a
  h_S128x1536 : 0 < S128x1536.numel
  slices_S2048x1536_o0_0_S2048x512 : S2048x1536.Slices ![0, 0] S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  slices_S2048x1536_o0_512_S2048x512 : S2048x1536.Slices ![0, 512] S2048x512
  slices_S2048x1536_o0_1024_S2048x512 : S2048x1536.Slices ![0, 1024] S2048x512
  shapeCasts_S131072x512_S8x8x16384x64 : S131072x512.ShapeCasts S8x8x16384x64
  shapeCasts_S8x8x16384x64_S64x16384x64 : S8x8x16384x64.ShapeCasts S64x16384x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  reduces_S16384x64_S16384 : S16384x64.Reduces [1] S16384
  shapeCasts_S16384_S16384x1 : S16384.ShapeCasts S16384x1
  broadcasts_S16384x1_S16384x64 : S16384x1.Broadcasts S16384x64
  shapeCasts_S16384x64_S1x16384x64 : S16384x64.ShapeCasts S1x16384x64
  packedbf16_S1x16384x64_S1x16384x64_0_0_0 : (Rect.unit (s := S1x16384x64) ![0, 0, 0] S1x16384x64.size inb_S1x16384x64_S1x16384x64_0_0_0).PackedRows (EltTy.packing .bf16)
  shapeCasts_S64x16384x64_S8x8x16384x64 : S64x16384x64.ShapeCasts S8x8x16384x64
  shapeCasts_S8x8x16384x64_S8x16x32x32x512 : S8x8x16384x64.ShapeCasts S8x16x32x32x512
  shapeCasts_S8x16x32x32x512_S131072x512 : S8x16x32x32x512.ShapeCasts S131072x512
  shapeCasts_S128_S1x128 : S128.ShapeCasts S1x128
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  shapeCasts_S131072x128_S8x16x32x32x128 : S131072x128.ShapeCasts S8x16x32x32x128
  dot_S2048x128_S128x1536_S2048x1536_1_0_0_1_n_n_wf : DotDims.WF S2048x128 S128x1536 S2048x1536 [1] [0] [0] [1] [] []
  dot_S16384x64_S16384x64_S64x64_0_0_1_1_n_n_wf : DotDims.WF S16384x64 S16384x64 S64x64 [0] [0] [1] [1] [] []
  dot_S16384x64_S64x64_S16384x64_1_0_0_1_n_n_wf : DotDims.WF S16384x64 S64x64 S16384x64 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1536.size a ≤ S128x1536.size a
  hwx0_1 : ∀ i : grid0.Coords, EltTy.bits .f32 = 32 ∨ (Rect.block (s := S128x1536) S128x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S131072x512.size a
  hwx0_2 : ∀ i : grid0.Coords, EltTy.bits .bf16 = 32 ∨ (Rect.block (s := S131072x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .bf16 = 32 ∨ (Rect.block (s := S131072x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .bf16 = 32 ∨ (Rect.block (s := S131072x512) S2048x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16384x64.size a ≤ S64x16384x64.size a
  hwx1_0 : ∀ i : grid1.Coords, EltTy.bits .bf16 = 32 ∨ (Rect.block (s := S64x16384x64) S1x16384x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16384x64.size a ≤ S64x16384x64.size a
  hwx1_1 : ∀ i : grid1.Coords, EltTy.bits .bf16 = 32 ∨ (Rect.block (s := S64x16384x64) S1x16384x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384x64.size a ≤ S64x16384x64.size a
  hwx1_2 : ∀ i : grid1.Coords, EltTy.bits .bf16 = 32 ∨ (Rect.block (s := S64x16384x64) S1x16384x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16384x64.size a ≤ S64x16384x64.size a
  hwx1_3 : ∀ i : grid1.Coords, EltTy.bits .bf16 = 32 ∨ (Rect.block (s := S64x16384x64) S1x16384x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S131072x512.size a
  hwx2_0 : ∀ i : grid2.Coords, EltTy.bits .bf16 = 32 ∨ (Rect.block (s := S131072x512) S4096x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S131072x128.size a
  hwx2_5 : ∀ i : grid2.Coords, EltTy.bits .f32 = 32 ∨ (Rect.block (s := S131072x128) S4096x128.size (cc2_transform_5 i) (hinb2_5 i)).WholeWords (EltTy.packing .f32)

variable [Facts₀]

def dot_S2048x128_S128x1536_S2048x1536_1_0_0_1_n_n : DotDims S2048x128 S128x1536 S2048x1536 where
  lhsContracting := [1]
  rhsContracting := [0]
  lhsNonContracting := [0]
  rhsNonContracting := [1]
  lhsBatch := []
  rhsBatch := []
  wf := dot_S2048x128_S128x1536_S2048x1536_1_0_0_1_n_n_wf
def dot_S16384x64_S16384x64_S64x64_0_0_1_1_n_n : DotDims S16384x64 S16384x64 S64x64 where
  lhsContracting := [0]
  rhsContracting := [0]
  lhsNonContracting := [1]
  rhsNonContracting := [1]
  lhsBatch := []
  rhsBatch := []
  wf := dot_S16384x64_S16384x64_S64x64_0_0_1_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x16384x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x16384x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S4096x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x16x32x32x128 : Shape := ⟨5, ![8, 16, 32, 32, 128]⟩
abbrev S128x1536 : Shape := ⟨2, ![128, 1536]⟩
abbrev S512x128 : Shape := ⟨2, ![512, 128]⟩
abbrev S128 : Shape := ⟨1, ![128]⟩
abbrev S8x16x32x32x1536 : Shape := ⟨5, ![8, 16, 32, 32, 1536]⟩
abbrev S8x16x32x32x512 : Shape := ⟨5, ![8, 16, 32, 32, 512]⟩
abbrev S8x8x16384x64 : Shape := ⟨4, ![8, 8, 16384, 64]⟩
abbrev S_ : Shape := ⟨0, ![]⟩
abbrev S8x8x16384 : Shape := ⟨3, ![8, 8, 16384]⟩
abbrev S8x8x16384x1 : Shape := ⟨4, ![8, 8, 16384, 1]⟩
abbrev S8x8x64x64 : Shape := ⟨4, ![8, 8, 64, 64]⟩
abbrev S1x1x1x1x128 : Shape := ⟨5, ![1, 1, 1, 1, 128]⟩
abbrev S8x16x32x32 : Shape := ⟨4, ![8, 16, 32, 32]⟩
abbrev S8x16x32x32x1 : Shape := ⟨5, ![8, 16, 32, 32, 1]⟩

abbrev nBuf : Space → Nat
  | .hbm => 95
  | .vmem => 0
  | .smem => 0
  | _ => 0

abbrev bufTy : (tb : Table) → Fin (tcTables nBuf tb) → BufTy
  | .hbm, ⟨0, _⟩ => ⟨S8x16x32x32x128, .f32⟩
  | .hbm, ⟨1, _⟩ => ⟨S128x1536, .f32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S8x16x32x32x1536, .f32⟩
  | .hbm, ⟨7, _⟩ => ⟨S8x16x32x32x512, .f32⟩
  | .hbm, ⟨8, _⟩ => ⟨S8x16x32x32x512, .f32⟩
  | .hbm, ⟨9, _⟩ => ⟨S8x16x32x32x512, .f32⟩
  | .hbm, ⟨10, _⟩ => ⟨S8x8x16384x64, .f32⟩
  | .hbm, ⟨11, _⟩ => ⟨S8x8x16384x64, .f32⟩
  | .hbm, ⟨12, _⟩ => ⟨S8x8x16384x64, .f32⟩
  | .hbm, ⟨13, _⟩ => ⟨S_, .f32⟩
  | .hbm, ⟨14, _⟩ => ⟨S8x8x16384, .f32⟩
  | .hbm, ⟨15, _⟩ => ⟨S_, .f32⟩
  | .hbm, ⟨16, _⟩ => ⟨S8x8x16384, .f32⟩
  | .hbm, ⟨17, _⟩ => ⟨S8x8x16384, .f32⟩
  | .hbm, ⟨18, _⟩ => ⟨S8x8x16384x1, .f32⟩
  | .hbm, ⟨19, _⟩ => ⟨S8x8x16384x64, .f32⟩
  | .hbm, ⟨20, _⟩ => ⟨S8x8x16384x64, .f32⟩
  | .hbm, ⟨21, _⟩ => ⟨S8x8x16384x64, .f32⟩
  | .hbm, ⟨22, _⟩ => ⟨S_, .f32⟩
  | .hbm, ⟨23, _⟩ => ⟨S8x8x16384, .f32⟩
  | .hbm, ⟨24, _⟩ => ⟨S8x8x16384x1, .f32⟩
  | .hbm, ⟨25, _⟩ => ⟨S8x8x16384x64, .f32⟩
  | .hbm, ⟨26, _⟩ => ⟨S8x8x16384x64, .f32⟩
  | .hbm, ⟨27, _⟩ => ⟨S_, .f32⟩
  | .hbm, ⟨28, _⟩ => ⟨S8x8x16384x64, .f32⟩
  | .hbm, ⟨29, _⟩ => ⟨S8x8x16384x64, .f32⟩
  | .hbm, ⟨30, _⟩ => ⟨S_, .f32⟩
  | .hbm, ⟨31, _⟩ => ⟨S8x8x16384, .f32⟩
  | .hbm, ⟨32, _⟩ => ⟨S_, .f32⟩
  | .hbm, ⟨33, _⟩ => ⟨S8x8x16384, .f32⟩
  | .hbm, ⟨34, _⟩ => ⟨S8x8x16384, .f32⟩
  | .hbm, ⟨35, _⟩ => ⟨S8x8x16384x1, .f32⟩
  | .hbm, ⟨36, _⟩ => ⟨S8x8x16384x64, .f32⟩
  | .hbm, ⟨37, _⟩ => ⟨S8x8x16384x64, .f32⟩
  | .hbm, ⟨38, _⟩ => ⟨S8x8x16384x64, .f32⟩
  | .hbm, ⟨39, _⟩ => ⟨S_, .f32⟩
  | .hbm, ⟨40, _⟩ => ⟨S8x8x16384, .f32⟩
  | .hbm, ⟨41, _⟩ => ⟨S8x8x16384x1, .f32⟩
  | .hbm, ⟨42, _⟩ => ⟨S8x8x16384x64, .f32⟩
  | .hbm, ⟨43, _⟩ => ⟨S8x8x16384x64, .f32⟩
  | .hbm, ⟨44, _⟩ => ⟨S8x8x64x64, .f32⟩
  | .hbm, ⟨45, _⟩ => ⟨S8x8x16384x64, .f32⟩
  | .hbm, ⟨46, _⟩ => ⟨S8x16x32x32x512, .f32⟩
  | .hbm, ⟨47, _⟩ => ⟨S8x16x32x32x128, .f32⟩
  | .hbm, ⟨48, _⟩ => ⟨S1x1x1x1x128, .f32⟩
  | .hbm, ⟨49, _⟩ => ⟨S8x16x32x32x128, .f32⟩
  | .hbm, ⟨50, _⟩ => ⟨S8x16x32x32x128, .f32⟩
  | .hbm, ⟨51, _⟩ => ⟨S_, .f32⟩
  | .hbm, ⟨52, _⟩ => ⟨S8x16x32x32, .f32⟩
  | .hbm, ⟨53, _⟩ => ⟨S8x16x32x32x1, .f32⟩
  | .hbm, ⟨54, _⟩ => ⟨S_, .f32⟩
  | .hbm, ⟨55, _⟩ => ⟨S8x16x32x32x1, .f32⟩
  | .hbm, ⟨56, _⟩ => ⟨S8x16x32x32x1, .f32⟩
  | .hbm, ⟨57, _⟩ => ⟨S_, .i32⟩
  | .hbm, ⟨58, _⟩ => ⟨S_, .f32⟩
  | .hbm, ⟨59, _⟩ => ⟨S8x16x32x32, .f32⟩
  | .hbm, ⟨60, _⟩ => ⟨S8x16x32x32x1, .f32⟩
  | .hbm, ⟨61, _⟩ => ⟨S_, .f32⟩
  | .hbm, ⟨62, _⟩ => ⟨S8x16x32x32x1, .f32⟩
  | .hbm, ⟨63, _⟩ => ⟨S8x16x32x32x1, .f32⟩
  | .hbm, ⟨64, _⟩ => ⟨S8x16x32x32x128, .f32⟩
  | .hbm, ⟨65, _⟩ => ⟨S8x16x32x32x128, .f32⟩
  | .hbm, ⟨66, _⟩ => ⟨S8x16x32x32x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x16x32x32, .f32⟩
  | .hbm, ⟨72, _⟩ => ⟨S8x16x32x32x1, .f32⟩
  | .hbm, ⟨73, _⟩ => ⟨S8x16x32x32x1, .f32⟩
  | .hbm, ⟨74, _⟩ => ⟨S8x16x32x32x1, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S8x16x32x32x1, .f32⟩
  | .hbm, ⟨80, _⟩ => ⟨S8x16x32x32x1, .f32⟩
  | .hbm, ⟨81, _⟩ => ⟨S8x16x32x32x128, .f32⟩
  | .hbm, ⟨82, _⟩ => ⟨S8x16x32x32x128, .f32⟩
  | .hbm, ⟨83, _⟩ => ⟨S1x1x1x1x128, .f32⟩
  | .hbm, ⟨84, _⟩ => ⟨S8x16x32x32x128, .f32⟩
  | .hbm, ⟨85, _⟩ => ⟨S8x16x32x32x128, .f32⟩
  | .hbm, ⟨86, _⟩ => ⟨S_, .f32⟩
  | .hbm, ⟨87, _⟩ => ⟨S8x16x32x32x1, .f32⟩
  | .hbm, ⟨88, _⟩ => ⟨S8x16x32x32x1, .f32⟩
  | .hbm, ⟨89, _⟩ => ⟨S8x16x32x32x1, .f32⟩
  | .hbm, ⟨90, _⟩ => ⟨S8x16x32x32x128, .f32⟩
  | .hbm, ⟨91, _⟩ => ⟨S8x16x32x32x128, .f32⟩
  | .hbm, ⟨92, _⟩ => ⟨S1x1x1x1x128, .f32⟩
  | .hbm, ⟨93, _⟩ => ⟨S8x16x32x32x128, .f32⟩
  | .hbm, ⟨94, _⟩ => ⟨S8x16x32x32x128, .f32⟩
  | _, _ => ⟨S8x16x32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_call0_cst_3 : Ref sig .tc := ⟨.hbm, 75, rfl⟩
abbrev main_call0_v13 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]

class Facts₀ : Prop where
  slices_S8x16x32x32x1536_S8x16x32x32x512_0_0_0_0_0 : S8x16x32x32x1536.Slices ![0, 0, 0, 0, 0] S8x16x32x32x512
  slices_S8x16x32x32x1536_S8x16x32x32x512_0_0_0_0_512 : S8x16x32x32x1536.Slices ![0, 0, 0, 0, 512] S8x16x32x32x512
  slices_S8x16x32x32x1536_S8x16x32x32x512_0_0_0_0_1024 : S8x16x32x32x1536.Slices ![0, 0, 0, 0, 1024] S8x16x32x32x512
  shapeCasts_S8x16x32x32x512_S8x8x16384x64 : S8x16x32x32x512.ShapeCasts S8x8x16384x64
  reducesTo_S8x8x16384x64_S8x8x16384_d3 : S8x8x16384x64.ReducesTo [3] S8x8x16384
  h_S_ : 0 < S_.numel
  bcast_S_S8x8x16384 : S_.BroadcastsInDim S8x8x16384 (![] : Fin 0 → Fin S8x8x16384.rank)
  bcast_S8x8x16384_S8x8x16384x1_0_1_2 : S8x8x16384.BroadcastsInDim S8x8x16384x1 (![0, 1, 2] : Fin 3 → Fin S8x8x16384x1.rank)
  bcast_S8x8x16384x1_S8x8x16384x64_0_1_2_3 : S8x8x16384x1.BroadcastsInDim S8x8x16384x64 (![0, 1, 2, 3] : Fin 4 → Fin S8x8x16384x64.rank)
  bcast_S_S8x8x16384x64 : S_.BroadcastsInDim S8x8x16384x64 (![] : Fin 0 → Fin S8x8x16384x64.rank)
  shapeCasts_S8x8x16384x64_S8x16x32x32x512 : S8x8x16384x64.ShapeCasts S8x16x32x32x512
  bcast_S128_S1x1x1x1x128_4 : S128.BroadcastsInDim S1x1x1x1x128 (![4] : Fin 1 → Fin S1x1x1x1x128.rank)
  bcast_S1x1x1x1x128_S8x16x32x32x128_0_1_2_3_4 : S1x1x1x1x128.BroadcastsInDim S8x16x32x32x128 (![0, 1, 2, 3, 4] : Fin 5 → Fin S8x16x32x32x128.rank)
  reducesTo_S8x16x32x32x128_S8x16x32x32_d4 : S8x16x32x32x128.ReducesTo [4] S8x16x32x32
  bcast_S8x16x32x32_S8x16x32x32x1_0_1_2_3 : S8x16x32x32.BroadcastsInDim S8x16x32x32x1 (![0, 1, 2, 3] : Fin 4 → Fin S8x16x32x32x1.rank)
  bcast_S_S8x16x32x32x1 : S_.BroadcastsInDim S8x16x32x32x1 (![] : Fin 0 → Fin S8x16x32x32x1.rank)
  bcast_S8x16x32x32x1_S8x16x32x32x128_0_1_2_3_4 : S8x16x32x32x1.BroadcastsInDim S8x16x32x32x128 (![0, 1, 2, 3, 4] : Fin 5 → Fin S8x16x32x32x128.rank)
  dot_S8x16x32x32x128_S128x1536_S8x16x32x32x1536_4_0_0123_1_n_n_wf : DotDims.WF S8x16x32x32x128 S128x1536 S8x16x32x32x1536 [4] [0] [0, 1, 2, 3] [1] [] []
  dot_S8x8x16384x64_S8x8x16384x64_S8x8x64x64_2_2_3_3_01_01_wf : DotDims.WF S8x8x16384x64 S8x8x16384x64 S8x8x64x64 [2] [2] [3] [3] [0, 1] [0, 1]
  dot_S8x8x16384x64_S8x8x64x64_S8x8x16384x64_3_2_2_3_01_01_wf : DotDims.WF S8x8x16384x64 S8x8x64x64 S8x8x16384x64 [3] [2] [2] [3] [0, 1] [0, 1]
  dot_S8x16x32x32x512_S512x128_S8x16x32x32x128_4_0_0123_1_n_n_wf : DotDims.WF S8x16x32x32x512 S512x128 S8x16x32x32x128 [4] [0] [0, 1, 2, 3] [1] [] []

variable [Facts₀]

def dot_S8x16x32x32x128_S128x1536_S8x16x32x32x1536_4_0_0123_1_n_n : DotDims S8x16x32x32x128 S128x1536 S8x16x32x32x1536 where
  lhsContracting := [4]
  rhsContracting := [0]
  lhsNonContracting := [0, 1, 2, 3]
  rhsNonContracting := [1]
  lhsBatch := []
  rhsBatch := []
  wf := dot_S8x16x32x32x128_S128x1536_S8x16x32x32x1536_4_0_0123_1_n_n_wf
def dot_S8x8x16384x64_S8x8x16384x64_S8x8x64x64_2_2_3_3_01_01 : DotDims S8x8x16384x64 S8x8x16384x64 S8x8x64x64 where
  lhsContracting := [2]
  rhsContracting := [2]
  lhsNonContracting := [3]
  rhsNonContracting := [3]
  lhsBatch := [0, 1]
  rhsBatch := [0, 1]
  wf := dot_S8x8x16384x64_S8x8x16384x64_S8x8x64x64_2_2_3_3_01_01_wf
def dot_S8x8x16384x64_S8x8x64x64_S8x8x16384x64_3_2_2_3_01_01 : DotDims S8x8x16384x64 S8x8x64x64 S8x8x16384x64 where
  lhsContracting := [3]
  rhsContracting := [2]
  lhsNonContracting := [2]
  rhsNonContracting := [3]
  lhsBatch := [0, 1]
  rhsBatch := [0, 1]
  wf := dot_S8x8x16384x64_S8x8x64x64_S8x8x16384x64_3_2_2_3_01_01_wf
def dot_S8x16x32x32x512_S512x128_S8x16x32x32x128_4_0_0123_1_n_n : DotDims S8x16x32x32x512 S512x128 S8x16x32x32x128 where
  lhsContracting := [4]
  rhsContracting := [0]
  lhsNonContracting := [0, 1, 2, 3]
  rhsNonContracting := [1]
  lhsBatch := []
  rhsBatch := []
  wf := dot_S8x16x32x32x512_S512x128_S8x16x32x32x128_4_0_0123_1_n_n_wf

class Facts : Prop extends Facts₀ where

variable [Facts]
-- ==== Proof.Spec.lean ====
/-
  The function both programs compute, stated once over the extended reals.

  A voxel row `r` (of 131072 = 8·16·32·32) with 128 channels is projected by a 128 × 1536 matrix; the three
  512-wide column bands of the product are the queries, keys and values. Each band, a 131072 × 512 array, is then
  re-read row-major as 64 heads of 16384 × 64. Within a head the queries and the keys are normalised along the 64
  entries of a row by softmax (the queries also scaled by one eighth), the 64 × 64 context is the sum over the 16384
  rows of key-weight times value, and a row of the head's result is the query-weights applied to the context. The 64
  heads, read row-major again as 131072 × 512, are projected by a 512 × 128 matrix plus a bias, and each row of 128
  is normalised: centred at its mean, scaled by the reciprocal square root of its (biased) variance plus 1e-3, then
  by gamma, and shifted by beta.
-/
import Idealize.ShloMosaic.PureOps.Ideal
import Idealize.ShloMosaic.Lib.ValueIdx

noncomputable section

namespace Cert.Spec

open Idealize.ShloMosaic Idealize.ShloMosaic.ValueIdx

/-! ## Shapes -/

abbrev Sx5 : Shape := ⟨5, ![8, 16, 32, 32, 128]⟩
abbrev Sh5 : Shape := ⟨5, ![8, 16, 32, 32, 512]⟩
abbrev Sx2 : Shape := ⟨2, ![131072, 128]⟩
abbrev Sw : Shape := ⟨2, ![128, 1536]⟩
abbrev Sh2 : Shape := ⟨2, ![131072, 512]⟩
abbrev Sh4 : Shape := ⟨4, ![8, 8, 16384, 64]⟩
abbrev Sh3 : Shape := ⟨3, ![64, 16384, 64]⟩
abbrev Swo : Shape := ⟨2, ![512, 128]⟩
abbrev Sv : Shape := ⟨1, ![128]⟩
abbrev Sv2 : Shape := ⟨2, ![1, 128]⟩

/-! ## The three literals both programs carry (never evaluated: the same word on both sides) -/

/-- The attention scale 1/8. -/
abbrev eighth : EReal := Ideal.ofBits .f32 0x3E000000#32
/-- The row length 128, the divisor of the mean and of the variance. -/
abbrev len : EReal := Ideal.ofBits .f32 0x43000000#32
/-- The variance's guard 1e-3. -/
abbrev eps : EReal := Ideal.ofBits .f32 0x3A83126F#32

/-! ## Rows -/

/-- The largest of a row's 64 entries (from −∞). -/
def rowMax (a : Fin 64 → EReal) : EReal := Finset.univ.fold max ⊥ a

/-- Softmax along a row of 64: `exp (a c − max a)` over the sum of those. -/
def softmax (a : Fin 64 → EReal) (c : Fin 64) : EReal :=
  Ideal.div (Ideal.exp (a c - rowMax a)) (∑ c' : Fin 64, Ideal.exp (a c' - rowMax a))

/-- The mean of a row of 128. -/
def mean (z : Fin 128 → EReal) : EReal := Ideal.div (∑ f : Fin 128, z f) len

/-- The biased variance of a row of 128. -/
def variance (z : Fin 128 → EReal) : EReal :=
  Ideal.div (∑ f : Fin 128, (z f - mean z) * (z f - mean z)) len

/-- A row of 128 normalised, scaled by `g` and shifted by `b`. -/
def layerNorm (z g b : Fin 128 → EReal) (f : Fin 128) : EReal :=
  g f * (z f - mean z) * Ideal.rsqrt (variance z + eps) + b f

/-! ## One head: 16384 rows of 64 -/

/-- The context: entry (c, e) sums, over the head's rows, the key's softmax weight at `c` times the value at `e`. -/
def context (K V : Fin 16384 → Fin 64 → EReal) (c e : Fin 64) : EReal :=
  ∑ n : Fin 16384, softmax (K n) c * V n e

/-- The head's result at row `n`, entry `e`: the row's scaled query weights applied to the context. -/
def head (Q K V : Fin 16384 → Fin 64 → EReal) (n : Fin 16384) (e : Fin 64) : EReal :=
  ∑ c : Fin 64, (softmax (Q n) c * eighth) * context K V c e

/-! ## The three stages as whole arrays -/

/-- Band `o` (columns `o … o + 511`) of the projection of the 131072 rows. -/
def band (o : Nat) (ho : o + 512 ≤ 1536) (X : Sx2.Idx → EReal) (W : Sw.Idx → EReal) : Sh2.Idx → EReal :=
  fun j => ∑ c : Fin 128, X (ix2 (j 0) c) * W (ix2 c ⟨o + (j 1).val, by have h : (j 1).val < 512 := idx2_lt1 j; omega⟩)

/-- The 64 heads. -/
def heads (Q K V : Sh3.Idx → EReal) : Sh3.Idx → EReal :=
  fun j => head (fun n c => Q (ix3 (j 0) n c)) (fun n c => K (ix3 (j 0) n c)) (fun n c => V (ix3 (j 0) n c)) (j 1) (j 2)

/-- The output projection of a row of 512, plus the bias. -/
def project (H : Sh2.Idx → EReal) (Wo : Swo.Idx → EReal) (bo : Sv2.Idx → EReal) (r : Fin 131072) (f : Fin 128) : EReal :=
  (∑ k : Fin 512, H (ix2 r k) * Wo (ix2 k f)) + bo (ix2 0 f)

/-- Every row projected and normalised. -/
def normed (H : Sh2.Idx → EReal) (Wo : Swo.Idx → EReal) (bo g b : Sv2.Idx → EReal) : Sx2.Idx → EReal :=
  fun j => layerNorm (project H Wo bo (j 0)) (fun f => g (ix2 0 f)) (fun f => b (ix2 0 f)) (j 1)

/-! ## The whole function -/

/-- A band re-read row-major as 64 heads (through the 8 × 8 × 16384 × 64 arrangement, as both programs do). -/
def toHeads (A : Sh2.Idx → EReal) : Sh3.Idx → EReal :=
  shapeCast Sh3 (shapeCast Sh4 A (by decide)) (by decide)

/-- The 64 heads re-read row-major as 131072 rows of 512 (through 8 × 8 × 16384 × 64 and 8 × 16 × 32 × 32 × 512). -/
def toRows (A : Sh3.Idx → EReal) : Sh2.Idx → EReal :=
  shapeCast Sh2 (shapeCast Sh5 (shapeCast Sh4 A (by decide)) (by decide)) (by decide)

/-- The result array as one function of the six argument arrays. -/
def result (x : Sx5.Idx → EReal) (wqkv : Sw.Idx → EReal) (wout : Swo.Idx → EReal) (bout gamma beta : Sv.Idx → EReal) :
    Sx5.Idx → EReal :=
  let X := shapeCast Sx2 x (by decide)
  let O := heads (toHeads (band 0 (by decide) X wqkv)) (toHeads (band 512 (by decide) X wqkv))
    (toHeads (band 1024 (by decide) X wqkv))
  shapeCast Sx5 (normed (toRows O) wout (shapeCast Sv2 bout (by decide)) (shapeCast Sv2 gamma (by decide))
    (shapeCast Sv2 beta (by decide))) (by decide)

end Cert.Spec

end
-- ==== Proof.RefOps.lean ====
/-
  The reference's host operations, grouped into the three stages the specification has: a 512-wide column band of
  the projection re-read as heads (`bandAt`), the attention of all heads (`softmaxRows`, `attend`), and the output
  projection with its row normalisation (`rowVariance`, `normalise`). Each definition is the composition of the
  reference's operations in the order the program applies them, on whole arrays; `whole` composes the three.
  The variance is the program's outlined helper: the mean again, the squared deviations summed and divided by
  `128 − 0` (the delta degrees of freedom converted from the integer 0), guarded by a select on `128 − 0 > 0`.
-/
import proofs.«133711_j26079041421695_2_alg».proof.Proof.Gen.ReferenceIdeal

noncomputable section

namespace Cert.ReferenceIdeal.Ops

open Idealize.ShloMosaic Cert.ReferenceIdeal Cert.ReferenceIdeal.Facts₀

variable {F : FTy → Type} [FloatOps F]

/-- The projection of every voxel row by the 128 × 1536 matrix. -/
def projectAll (x : FVec F S8x16x32x32x128 .f32) (w : FVec F S128x1536 .f32) : FVec F S8x16x32x32x1536 .f32 :=
  Host.dotGeneral dot_S8x16x32x32x128_S128x1536_S8x16x32x32x1536_4_0_0123_1_n_n none x w

/-- The queries: columns 0 … 511 of the projection, re-read row-major as 8 × 8 heads of 16384 × 64. -/
def bandQ (x : FVec F S8x16x32x32x128 .f32) (w : FVec F S128x1536 .f32) : FVec F S8x8x16384x64 .f32 :=
  shapeCast S8x8x16384x64 (extractStridedSlice S8x16x32x32x512 ![0, 0, 0, 0, 0] (projectAll x w)
    slices_S8x16x32x32x1536_S8x16x32x32x512_0_0_0_0_0) shapeCasts_S8x16x32x32x512_S8x8x16384x64

/-- The keys: columns 512 … 1023. -/
def bandK (x : FVec F S8x16x32x32x128 .f32) (w : FVec F S128x1536 .f32) : FVec F S8x8x16384x64 .f32 :=
  shapeCast S8x8x16384x64 (extractStridedSlice S8x16x32x32x512 ![0, 0, 0, 0, 512] (projectAll x w)
    slices_S8x16x32x32x1536_S8x16x32x32x512_0_0_0_0_512) shapeCasts_S8x16x32x32x512_S8x8x16384x64

/-- The values: columns 1024 … 1535. -/
def bandV (x : FVec F S8x16x32x32x128 .f32) (w : FVec F S128x1536 .f32) : FVec F S8x8x16384x64 .f32 :=
  shapeCast S8x8x16384x64 (extractStridedSlice S8x16x32x32x512 ![0, 0, 0, 0, 1024] (projectAll x w)
    slices_S8x16x32x32x1536_S8x16x32x32x512_0_0_0_0_1024) shapeCasts_S8x16x32x32x512_S8x8x16384x64

/-- A row statistic (one value per row of 64) spread back over the row. -/
def spread (r : FVec F S8x8x16384 .f32) : FVec F S8x8x16384x64 .f32 :=
  broadcastInDim S8x8x16384x64 ![0, 1, 2, 3] bcast_S8x8x16384x1_S8x8x16384x64_0_1_2_3
    (broadcastInDim S8x8x16384x1 ![0, 1, 2] bcast_S8x8x16384_S8x8x16384x1_0_1_2 r)

/-- `exp (a − max a)` along the last axis, the maximum taken from −∞ and once more against −∞. -/
def expShifted (a : FVec F S8x8x16384x64 .f32) : FVec F S8x8x16384x64 .f32 :=
  Host.exp (subf a (spread (maximumf
    (broadcastInDim S8x8x16384 ![] bcast_S_S8x8x16384 (constant S_ .f32 0xFF800000#32))
    (Host.reduce FloatOps.maximumf a (constant S_ .f32 0xFF800000#32) reducesTo_S8x8x16384x64_S8x8x16384_d3 h_S_))))

/-- Softmax along the last axis. -/
def softmaxRows (a : FVec F S8x8x16384x64 .f32) : FVec F S8x8x16384x64 .f32 :=
  Host.divf (expShifted a) (spread
    (Host.reduceAdd (expShifted a) (constant S_ .f32 0x00000000#32) reducesTo_S8x8x16384x64_S8x8x16384_d3 h_S_))

/-- The attention of every head: the keys' weights against the values give the contexts, the queries' weights
    scaled by one eighth are applied to them. -/
def attend (q k v : FVec F S8x8x16384x64 .f32) : FVec F S8x8x16384x64 .f32 :=
  Host.dotGeneral dot_S8x8x16384x64_S8x8x64x64_S8x8x16384x64_3_2_2_3_01_01 none
    (mulf (softmaxRows q) (broadcastInDim S8x8x16384x64 ![] bcast_S_S8x8x16384x64 (constant S_ .f32 0x3E000000#32)))
    (Host.dotGeneral dot_S8x8x16384x64_S8x8x16384x64_S8x8x64x64_2_2_3_3_01_01 none (softmaxRows k) v)

/-- A vector of 128 spread over every voxel row. -/
def spreadVec (b : FVec F S128 .f32) : FVec F S8x16x32x32x128 .f32 :=
  broadcastInDim S8x16x32x32x128 ![0, 1, 2, 3, 4] bcast_S1x1x1x1x128_S8x16x32x32x128_0_1_2_3_4
    (broadcastInDim S1x1x1x1x128 ![4] bcast_S128_S1x1x1x1x128_4 b)

/-- A row's sum of 128 entries over 128, kept as a unit last axis. -/
def rowMean (y : FVec F S8x16x32x32x128 .f32) : FVec F S8x16x32x32x1 .f32 :=
  Host.divf
    (broadcastInDim S8x16x32x32x1 ![0, 1, 2, 3] bcast_S8x16x32x32_S8x16x32x32x1_0_1_2_3
      (Host.reduceAdd y (constant S_ .f32 0x00000000#32) reducesTo_S8x16x32x32x128_S8x16x32x32_d4 h_S_))
    (broadcastInDim S8x16x32x32x1 ![] bcast_S_S8x16x32x32x1 (constant S_ .f32 0x43000000#32))

/-- A unit-last-axis column spread over the 128 entries of its row. -/
def spreadCol (m : FVec F S8x16x32x32x1 .f32) : FVec F S8x16x32x32x128 .f32 :=
  broadcastInDim S8x16x32x32x128 ![0, 1, 2, 3, 4] bcast_S8x16x32x32x1_S8x16x32x32x128_0_1_2_3_4 m

/-- The divisor of the variance: 128 minus the integer 0 converted. -/
def varDivisor : FVec F S_ .f32 :=
  subf (constant S_ .f32 0x43000000#32) (sitofp .f32 (constantI S_ 32 0#32))

/-- The biased variance of each row, as the outlined helper computes it. -/
def rowVariance (y : FVec F S8x16x32x32x128 .f32) : FVec F S8x16x32x32x1 .f32 :=
  select (broadcastInDim S8x16x32x32x1 ![] bcast_S_S8x16x32x32x1 (cmpf .ogt (varDivisor (F := F)) (constant S_ .f32 0x00000000#32)))
    (Host.divf
      (broadcastInDim S8x16x32x32x1 ![0, 1, 2, 3] bcast_S8x16x32x32_S8x16x32x32x1_0_1_2_3
        (Host.reduceAdd (mulf (subf y (spreadCol (rowMean y))) (subf y (spreadCol (rowMean y))))
          (constant S_ .f32 0x00000000#32) reducesTo_S8x16x32x32x128_S8x16x32x32_d4 h_S_))
      (broadcastInDim S8x16x32x32x1 ![] bcast_S_S8x16x32x32x1 (varDivisor (F := F))))
    (broadcastInDim S8x16x32x32x1 ![] bcast_S_S8x16x32x32x1 (id (constant S_ .f32 0x7FC00000#32)))

/-- The heads re-read row-major as voxel rows of 512, projected by the 512 × 128 matrix plus the bias. -/
def projectOut (h : FVec F S8x8x16384x64 .f32) (wo : FVec F S512x128 .f32) (b : FVec F S128 .f32) : FVec F S8x16x32x32x128 .f32 :=
  addf (Host.dotGeneral dot_S8x16x32x32x512_S512x128_S8x16x32x32x128_4_0_0123_1_n_n none
    (shapeCast S8x16x32x32x512 h shapeCasts_S8x8x16384x64_S8x16x32x32x512) wo) (spreadVec b)

/-- Every row normalised: gamma · (y − mean) · rsqrt (variance + 1e-3) + beta. -/
def normaliseRows (y : FVec F S8x16x32x32x128 .f32) (g be : FVec F S128 .f32) : FVec F S8x16x32x32x128 .f32 :=
  addf (mulf (mulf (spreadVec g) (subf y (spreadCol (rowMean y))))
    (spreadCol (Host.rsqrt (addf (rowVariance y)
      (broadcastInDim S8x16x32x32x1 ![] bcast_S_S8x16x32x32x1 (constant S_ .f32 0x3A83126F#32))))))
    (spreadVec be)

/-- The reference's result as one term of its six argument arrays. -/
def whole (x : FVec F S8x16x32x32x128 .f32) (w : FVec F S128x1536 .f32) (wo : FVec F S512x128 .f32)
    (b g be : FVec F S128 .f32) : FVec F S8x16x32x32x128 .f32 :=
  normaliseRows (projectOut (attend (bandQ x w) (bandK x w) (bandV x w)) wo b) g be

end Cert.ReferenceIdeal.Ops

end
-- ==== Proof.KRun.lean ====
/-
  The idealized kernel's run with its result named. @main is seven segments — a stretch of host reshapes, the
  projection's region, reshapes, the attention's region, reshapes, the normalisation's region, one last reshape — and
  the buffer contents at each boundary are a fold from the launch memory (the generated `W0 … W7`). Every weakly fair
  execution terminates without a fault in a state whose unscoped buffers hold the last boundary's contents; so the
  result buffer holds `W7` at its reference, and each argument its launch contents.
-/
import proofs.«133711_j26079041421695_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last boundary's contents and the six arguments as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.KValue.lean ====
/-
  The contents of the kernel's result buffer at the last boundary, as one function of the six argument arrays.
  Walking @main's segments from the launch: the voxel array is re-read as 131072 rows; the projection's region leaves
  the three column bands of the projected rows; each band is re-read row-major as 64 heads; the attention's region
  leaves the heads' results; these are re-read row-major as 131072 rows of 512, the three vectors of 128 as single
  rows; the normalisation's region leaves the normalised rows; the last reshape gives them the voxel arrangement.
  What each region leaves in its output arrays, for any entry contents, is taken as a hypothesis here (one per
  output array) and supplied where the claims are assembled. No argument array is written on the way, so each is
  read at its launch contents wherever a region or a reshape reads it.
-/
import proofs.«133711_j26079041421695_2_alg».proof.Proof.Gen.KernelIdeal.Frame
import proofs.«133711_j26079041421695_2_alg».proof.Proof.Spec
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

abbrev Entry := (c : Dev nD) → (b : Ref sig .tc) → Buf (Elt Ideal) ((c : Thread nD τ).loc b)

variable (hq : ∀ (V : Entry) (c : Dev nD), (dat0 (F := Ideal) V c).arrAt 2 cfg0.N = Cert.Spec.band 0 (by decide) (V c main_v0) (V c main_arg1))
variable (hk : ∀ (V : Entry) (c : Dev nD), (dat0 (F := Ideal) V c).arrAt 3 cfg0.N = Cert.Spec.band 512 (by decide) (V c main_v0) (V c main_arg1))
variable (hv : ∀ (V : Entry) (c : Dev nD), (dat0 (F := Ideal) V c).arrAt 4 cfg0.N = Cert.Spec.band 1024 (by decide) (V c main_v0) (V c main_arg1))
variable (hh : ∀ (V : Entry) (c : Dev nD), (dat1 (F := Ideal) V c).arrAt 3 cfg1.N = Cert.Spec.heads (V c main_v3) (V c main_v5) (V c main_v7))
variable (hn : ∀ (V : Entry) (c : Dev nD), (dat2 (F := Ideal) V c).arrAt 5 cfg2.N = Cert.Spec.normed (V c main_v11) (V c main_arg2) (V c main_v12) (V c main_v13) (V c main_v14))

variable (m : (ℓ : Loc nD τ sig) → Buf (Elt Ideal) ℓ) (ρ : Dev nD → PrngReg)

/-! ## Entering the projection's region -/

theorem V1_v0 (c : Dev nD) : (V1 m ρ c main_v0 : S131072x128.Idx → EReal)
    = shapeCast S131072x128 (m ((c.tc : Thread nD τ).loc main_arg0)) shapeCasts_S8x16x32x32x128_S131072x128 := by
  dsimp only [V1, W1, hostOps0]; after_results; rfl

theorem V1_arg1 (c : Dev nD) : V1 m ρ c main_arg1 = m ((c.tc : Thread nD τ).loc main_arg1) := by
  dsimp only [V1, W1, hostOps0]; after_results

/-! ## Entering the attention's region -/

theorem V3_v3 (c : Dev nD) : (V3 m ρ c main_v3 : S64x16384x64.Idx → EReal)
    = Cert.Spec.toHeads (W2 m ρ c (Proc.devRef .tc main_v1_0)) := by
  dsimp only [V3, W3, hostOps1]; after_results; rfl

theorem V3_v5 (c : Dev nD) : (V3 m ρ c main_v5 : S64x16384x64.Idx → EReal)
    = Cert.Spec.toHeads (W2 m ρ c (Proc.devRef .tc main_v1_1)) := by
  dsimp only [V3, W3, hostOps1]; after_results; rfl

theorem V3_v7 (c : Dev nD) : (V3 m ρ c main_v7 : S64x16384x64.Idx → EReal)
    = Cert.Spec.toHeads (W2 m ρ c (Proc.devRef .tc main_v1_2)) := by
  dsimp only [V3, W3, hostOps1]; after_results; rfl

/-- An argument array no region writes and no reshape overwrites is, when the attention's region has run, still the
    launch contents. -/
theorem W4_arg2 (c : Dev nD) : W4 m ρ c (Proc.devRef .tc main_arg2) = m ((c.tc : Thread nD τ).loc main_arg2) := by
  rw [W4_of_ne m ρ c main_arg2 (by decide)]
  dsimp only [W3, hostOps1]; after_results
  rw [W2_of_ne m ρ c main_arg2 (by decide)]
  dsimp only [W1, hostOps0]; after_results

theorem W4_arg3 (c : Dev nD) : W4 m ρ c (Proc.devRef .tc main_arg3) = m ((c.tc : Thread nD τ).loc main_arg3) := by
  rw [W4_of_ne m ρ c main_arg3 (by decide)]
  dsimp only [W3, hostOps1]; after_results
  rw [W2_of_ne m ρ c main_arg3 (by decide)]
  dsimp only [W1, hostOps0]; after_results

theorem W4_arg4 (c : Dev nD) : W4 m ρ c (Proc.devRef .tc main_arg4) = m ((c.tc : Thread nD τ).loc main_arg4) := by
  rw [W4_of_ne m ρ c main_arg4 (by decide)]
  dsimp only [W3, hostOps1]; after_results
  rw [W2_of_ne m ρ c main_arg4 (by decide)]
  dsimp only [W1, hostOps0]; after_results

theorem W4_arg5 (c : Dev nD) : W4 m ρ c (Proc.devRef .tc main_arg5) = m ((c.tc : Thread nD τ).loc main_arg5) := by
  rw [W4_of_ne m ρ c main_arg5 (by decide)]
  dsimp only [W3, hostOps1]; after_results
  rw [W2_of_ne m ρ c main_arg5 (by decide)]
  dsimp only [W1, hostOps0]; after_results

/-! ## Entering the normalisation's region -/

theorem V5_v11 (c : Dev nD) : (V5 m ρ c main_v11 : S131072x512.Idx → EReal)
    = Cert.Spec.toRows (W4 m ρ c (Proc.devRef .tc main_v8)) := by
  dsimp only [V5, W5, hostOps2]; after_results; rfl

theorem V5_arg2 (c : Dev nD) : V5 m ρ c main_arg2 = m ((c.tc : Thread nD τ).loc main_arg2) := by
  dsimp only [V5, W5, hostOps2]; after_results; exact W4_arg2 m ρ c

theorem V5_v12 (c : Dev nD) : (V5 m ρ c main_v12 : S1x128.Idx → EReal)
    = shapeCast S1x128 (m ((c.tc : Thread nD τ).loc main_arg3)) shapeCasts_S128_S1x128 := by
  dsimp only [V5, W5, hostOps2]; after_results; rw [W4_arg3 m ρ c]; rfl

theorem V5_v13 (c : Dev nD) : (V5 m ρ c main_v13 : S1x128.Idx → EReal)
    = shapeCast S1x128 (m ((c.tc : Thread nD τ).loc main_arg4)) shapeCasts_S128_S1x128 := by
  dsimp only [V5, W5, hostOps2]; after_results; rw [W4_arg4 m ρ c]; rfl

theorem V5_v14 (c : Dev nD) : (V5 m ρ c main_v14 : S1x128.Idx → EReal)
    = shapeCast S1x128 (m ((c.tc : Thread nD τ).loc main_arg5)) shapeCasts_S128_S1x128 := by
  dsimp only [V5, W5, hostOps2]; after_results; rw [W4_arg5 m ρ c]; rfl

/-! ## The result buffer at the last boundary -/

include hq hk hv hh hn in
theorem W7_v16 (c : Dev nD) : (W7 m ρ c (Proc.devRef .tc main_v16) : S8x16x32x32x128.Idx → EReal)
    = Cert.Spec.result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  have eq : W2 m ρ c (Proc.devRef .tc main_v1_0) = Cert.Spec.band 0 (by decide)
      (shapeCast S131072x128 (m ((c.tc : Thread nD τ).loc main_arg0)) shapeCasts_S8x16x32x32x128_S131072x128)
      (m ((c.tc : Thread nD τ).loc main_arg1)) := by
    rw [show W2 m ρ c (Proc.devRef .tc main_v1_0) = (dat0 (V1 m ρ) c).arrAt 2 cfg0.N from W2_arr m ρ c 2, hq, V1_v0, V1_arg1]
  have ek : W2 m ρ c (Proc.devRef .tc main_v1_1) = Cert.Spec.band 512 (by decide)
      (shapeCast S131072x128 (m ((c.tc : Thread nD τ).loc main_arg0)) shapeCasts_S8x16x32x32x128_S131072x128)
      (m ((c.tc : Thread nD τ).loc main_arg1)) := by
    rw [show W2 m ρ c (Proc.devRef .tc main_v1_1) = (dat0 (V1 m ρ) c).arrAt 3 cfg0.N from W2_arr m ρ c 3, hk, V1_v0, V1_arg1]
  have ev : W2 m ρ c (Proc.devRef .tc main_v1_2) = Cert.Spec.band 1024 (by decide)
      (shapeCast S131072x128 (m ((c.tc : Thread nD τ).loc main_arg0)) shapeCasts_S8x16x32x32x128_S131072x128)
      (m ((c.tc : Thread nD τ).loc main_arg1)) := by
    rw [show W2 m ρ c (Proc.devRef .tc main_v1_2) = (dat0 (V1 m ρ) c).arrAt 4 cfg0.N from W2_arr m ρ c 4, hv, V1_v0, V1_arg1]
  have eh : W4 m ρ c (Proc.devRef .tc main_v8) = Cert.Spec.heads (V3 m ρ c main_v3) (V3 m ρ c main_v5) (V3 m ρ c main_v7) := by
    rw [show W4 m ρ c (Proc.devRef .tc main_v8) = (dat1 (V3 m ρ) c).arrAt 3 cfg1.N from W4_arr m ρ c 3, hh]
  have en : W6 m ρ c (Proc.devRef .tc main_v15) = Cert.Spec.normed (V5 m ρ c main_v11) (V5 m ρ c main_arg2)
      (V5 m ρ c main_v12) (V5 m ρ c main_v13) (V5 m ρ c main_v14) := by
    rw [show W6 m ρ c (Proc.devRef .tc main_v15) = (dat2 (V5 m ρ) c).arrAt 5 cfg2.N from W6_arr m ρ c 5, hn]
  dsimp only [W7, hostOps3]; after_results
  rw [en, V5_v11, V5_arg2, V5_v12, V5_v13, V5_v14, eh, V3_v3, V3_v5, V3_v7, eq, ek, ev]
  rfl

end Cert.KernelIdeal.KValue
end
-- ==== Proof.BandsPay.lean ====
/-
  Region 0's arithmetic at one entry. The body multiplies a 2048 × 128 block of rows by the whole 128 × 1536 matrix
  into a zero accumulator, and keeps three 512-wide column bands of the product. Over the extended reals a change of
  float format is the identity and the product's entry (p, f) is the sum over the 128 shared coordinates of
  block(p, c) · matrix(c, f); band `o` at (p, f) is the product at (p, o + f).
-/
import proofs.«133711_j26079041421695_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Bands

open Idealize.ShloMosaic Idealize.ShloMosaic.ValueIdx
open Cert.KernelIdeal Cert.KernelIdeal.Gen

/-- The product's dimension numbers: rows × shared times shared × columns. -/
abbrev D0 : DotDims S2048x128 S128x1536 S2048x1536 := dot_S2048x128_S128x1536_S2048x1536_1_0_0_1_n_n

/-- The left operand's index at output entry (p, f) and shared coordinate c is (p, c). -/
theorem lhs_at (p : Fin 2048) (f : Fin 1536) (c : Fin 128) :
    D0.lhsIdx (ix2 p f) ((contrEquiv1 D0 128 rfl rfl).symm c) = ix2 p c := by
  have c2 := contrEquiv1_symm_val D0 128 rfl rfl c
  funext ax; apply Fin.ext
  match ax with
  | ⟨0, _⟩ => simp [DotDims.lhsIdx, D0, dot_S2048x128_S128x1536_S2048x1536_1_0_0_1_n_n]; rfl
  | ⟨1, _⟩ => simp [DotDims.lhsIdx, D0, dot_S2048x128_S128x1536_S2048x1536_1_0_0_1_n_n]; exact c2

/-- The right operand's index at output entry (p, f) and shared coordinate c is (c, f). -/
theorem rhs_at (p : Fin 2048) (f : Fin 1536) (c : Fin 128) :
    D0.rhsIdx (ix2 p f) ((contrEquiv1 D0 128 rfl rfl).symm c) = ix2 c f := by
  have c2 := contrEquiv1_symm_val D0 128 rfl rfl c
  funext ax; apply Fin.ext
  match ax with
  | ⟨0, _⟩ => simp [DotDims.rhsIdx, D0, dot_S2048x128_S128x1536_S2048x1536_1_0_0_1_n_n]; exact c2
  | ⟨1, _⟩ => simp [DotDims.rhsIdx, D0, dot_S2048x128_S128x1536_S2048x1536_1_0_0_1_n_n]; rfl

/-- The block product at entry (p, f): the sum over the shared coordinate. -/
theorem prod_apply (x0 : Vec Ideal S2048x128 .f32) (x1 : Vec Ideal S128x1536 .f32) (p : Fin 2048) (f : Fin 1536) :
    k0_pay1 (F := Ideal) x0 x1 (ix2 p f) = ∑ c : Fin 128, x0 (ix2 p c) * x1 (ix2 c f) := by
  unfold k0_pay1
  refine (Ideal.matmul_constant_zero_apply D0 none _ _ (ix2 p f)).trans ?_
  rw [← Equiv.sum_comp (contrEquiv1 D0 128 rfl rfl).symm]
  refine Finset.sum_congr rfl fun c _ => ?_
  rw [lhs_at, rhs_at, truncf_apply, truncf_apply, shapeCast_self]

/-- A 512-wide band of a row of the product, starting at column `o`. -/
theorem band_apply (o : Nat) (ho : o + 512 ≤ 1536) (z : Vec Ideal S2048x1536 .f32)
    (h : S2048x1536.Slices ![0, o] S2048x512) (p : Fin 2048) (f : Fin 512) :
    (truncf .bf16 (extractStridedSlice S2048x512 ![0, o] z h) bitsLt_bf16_f32 : FVec Ideal S2048x512 .bf16) (ix2 p f)
      = z (ix2 p ⟨o + f.val, by have := f.isLt; omega⟩) := by
  rw [truncf_apply]
  refine extractStridedSlice_apply _ _ _ _ _ fun a => ?_
  match a with
  | ⟨0, _⟩ => show p.val = 0 + p.val; omega
  | ⟨1, _⟩ => rfl

/-- What the body stores for the first band, at entry (p, f). -/
theorem pay_q_apply (x0 : Vec Ideal S2048x128 .f32) (x1 : Vec Ideal S128x1536 .f32) (p : Fin 2048) (f : Fin 512) :
    k0_pay2 (F := Ideal) x0 x1 (ix2 p f)
      = ∑ c : Fin 128, x0 (ix2 p c) * x1 (ix2 c ⟨0 + f.val, by have := f.isLt; omega⟩) := by
  unfold k0_pay2
  exact (band_apply 0 (by decide) _ _ p f).trans (prod_apply x0 x1 p _)

/-- What the body stores for the second band, at entry (p, f). -/
theorem pay_k_apply (x0 : Vec Ideal S2048x128 .f32) (x1 : Vec Ideal S128x1536 .f32) (p : Fin 2048) (f : Fin 512) :
    k0_pay3 (F := Ideal) x0 x1 (ix2 p f)
      = ∑ c : Fin 128, x0 (ix2 p c) * x1 (ix2 c ⟨512 + f.val, by have := f.isLt; omega⟩) := by
  unfold k0_pay3
  exact (band_apply 512 (by decide) _ _ p f).trans (prod_apply x0 x1 p _)

/-- What the body stores for the third band, at entry (p, f). -/
theorem pay_v_apply (x0 : Vec Ideal S2048x128 .f32) (x1 : Vec Ideal S128x1536 .f32) (p : Fin 2048) (f : Fin 512) :
    k0_pay4 (F := Ideal) x0 x1 (ix2 p f)
      = ∑ c : Fin 128, x0 (ix2 p c) * x1 (ix2 c ⟨1024 + f.val, by have := f.isLt; omega⟩) := by
  unfold k0_pay4
  exact (band_apply 1024 (by decide) _ _ p f).trans (prod_apply x0 x1 p _)

end Cert.KernelIdeal.Bands

end
-- ==== Proof.BandsBlocks.lean ====
/-
  Region 0's windows at a grid point. The region has 64 points. At point t the row window's block is rows
  2048·t … 2048·t + 2047 of the 131072 × 128 array (all 128 columns), the matrix window's block is the whole
  128 × 1536 matrix, and each of the three output windows' blocks is rows 2048·t … of a 131072 × 512 array.
  An element of a block sits at block index × block extent + its coordinate inside the block, axis by axis.
-/
import proofs.«133711_j26079041421695_2_alg».proof.Proof.Gen.KernelIdeal.Frame
import Idealize.ShloMosaic.Lib.Pipeline.Value
import Idealize.ShloMosaic.Lib.ValueIdx

noncomputable section

namespace Cert.KernelIdeal.Bands

open Idealize.ShloMosaic Idealize.ShloMosaic.TcCoe Idealize.SL.Sem Idealize.ShloMosaic.Pipeline
open Idealize.ShloMosaic.ValueIdx
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The five windows' block indices at every point: the row window and the three outputs move down one block per
    point and stay in column block 0; the matrix window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The row window's block at point t, entry x, is the array at row 2048·t + x₀, column x₁. -/
theorem rows_apply (c : Dev nD) (t : Fin cfg0.N) (x : S2048x128.Idx) (k : S131072x128.Idx)
    (hk0 : (k 0).val = 2048 * t.val + (x 0).val) (hk1 : (k 1).val = (x 1).val) :
    (iblk0 (F := Ideal) V c 0 t : Vec Ideal S2048x128 .f32) x = (V c main_v0 : S131072x128.Idx → Elt Ideal .f32) k := by
  obtain ⟨e00, e01, -⟩ := idx_facts t
  unfold iblk0
  rw [View.read_apply]
  show (V c main_v0 : S131072x128.Idx → Elt Ideal .f32) _ = V c main_v0 _
  refine congrArg _ ?_
  funext a
  apply Fin.ext
  match a with
  | ⟨0, _⟩ => show win0_0.index t (0 : Fin 2) * 2048 + 1 * (x 0).val = (k 0).val; rw [e00, hk0]; omega
  | ⟨1, _⟩ => show win0_0.index t (1 : Fin 2) * 128 + 1 * (x 1).val = (k 1).val; rw [e01, hk1]; omega

/-- The matrix window's block at any point is the whole matrix. -/
theorem matrix_apply (c : Dev nD) (t : Fin cfg0.N) (x : S128x1536.Idx) (k : S128x1536.Idx)
    (hk0 : (k 0).val = (x 0).val) (hk1 : (k 1).val = (x 1).val) :
    (iblk0 (F := Ideal) V c 1 t : Vec Ideal S128x1536 .f32) x = (V c main_arg1 : S128x1536.Idx → Elt Ideal .f32) k := by
  obtain ⟨-, -, e10, e11, -⟩ := idx_facts t
  unfold iblk0
  rw [View.read_apply]
  show (V c main_arg1 : S128x1536.Idx → Elt Ideal .f32) _ = V c main_arg1 _
  refine congrArg _ ?_
  funext a
  apply Fin.ext
  match a with
  | ⟨0, _⟩ => show win0_1.index t (0 : Fin 2) * 128 + 1 * (x 0).val = (k 0).val; rw [e10, hk0]; omega
  | ⟨1, _⟩ => show win0_1.index t (1 : Fin 2) * 1536 + 1 * (x 1).val = (k 1).val; rw [e11, hk1]; omega

end Cert.KernelIdeal.Bands

end
-- ==== Proof.BandsValue.lean ====
/-
  What region 0 leaves in its three output arrays, for any contents of the arrays it reads. Row r of each 131072 × 512
  output lies in the block of point r / 2048; there the body stored the product of the row block by the matrix,
  restricted to one 512-wide band of columns; the block's row p is the input's row 2048·t + p. So the array is the
  band of the projection, entry by entry.
-/
import proofs.«133711_j26079041421695_2_alg».proof.Proof.Gen.KernelIdeal.Frame
import proofs.«133711_j26079041421695_2_alg».proof.Proof.Spec
import proofs.«133711_j26079041421695_2_alg».proof.Proof.BandsPay
import proofs.«133711_j26079041421695_2_alg».proof.Proof.BandsBlocks
import Idealize.ShloMosaic.Lib.Pipeline.Value
import Idealize.ShloMosaic.Lib.ValueIdx

noncomputable section

namespace Cert.KernelIdeal.Bands

open Idealize.ShloMosaic Idealize.ShloMosaic.TcCoe Idealize.SL.Sem Idealize.ShloMosaic.Pipeline
open Idealize.ShloMosaic.ValueIdx
open Cert.KernelIdeal Cert.KernelIdeal.Gen

variable (V : (c : Dev nD) → (b : Ref sig .tc) → Buf (Elt Ideal) ((c : Thread nD τ).loc b))

/-! ## Output window 2: the band starting at column 0 -/

/-- What point t writes back through window 2 is block t of the band. -/
theorem flushed_q (c : Dev nD) (t : Fin cfg0.N) :
    (dat0 (F := Ideal) V c).flushed 2 t
      = ((cfg0.win 2).blk t).view.read (Elt Ideal) (Cert.Spec.band 0 (by decide) (V c main_v0) (V c main_arg1)) := by
  show (cfg0.win 2).cut (grid0.coords t) ((dat0 (F := Ideal) V c).after 2 t) = _
  rw [after0_2]
  unfold out0_2
  rw [View.canon_unit_zero hz]
  simp only [View.ld_unit_zero (S := S2048x128) hz, View.ld_unit_zero (S := S128x1536) hz]
  obtain ⟨-, -, -, -, e20, e21, e30, e31, e40, e41⟩ := idx_facts t
  funext j
  obtain ⟨p, f, rfl⟩ : ∃ (p : Fin 2048) (f : Fin 512), j = ix2 p f := ⟨j 0, j 1, eq_ix2 j⟩
  have h0 : ((((cfg0.win 2).blk t).view.emb (ix2 p f)) 0).val = 2048 * t.val + p.val := by
    show win0_2.index t (0 : Fin 2) * 2048 + 1 * p.val = _; rw [e20]; omega
  have h1 : ((((cfg0.win 2).blk t).view.emb (ix2 p f)) 1).val = f.val := by
    show win0_2.index t (1 : Fin 2) * 512 + 1 * f.val = _; rw [e21]; omega
  show k0_pay2 (F := Ideal) (iblk0 V c 0 t) (iblk0 V c 1 t) (ix2 p f)
    = Cert.Spec.band 0 (by decide) (V c main_v0) (V c main_arg1) (((cfg0.win 2).blk t).view.emb (ix2 p f))
  refine (pay_q_apply (iblk0 V c 0 t) (iblk0 V c 1 t) p f).trans ?_
  unfold Cert.Spec.band
  refine Finset.sum_congr rfl fun k _ => ?_
  refine congrArg₂ (· * ·) (rows_apply V c t (ix2 p k) _ ?_ ?_) (matrix_apply V c t (ix2 k _) _ ?_ ?_)
  · exact h0
  · rfl
  · rfl
  · show 0 + (((((cfg0.win 2).blk t).view.emb (ix2 p f)) 1).val) = 0 + f.val; rw [h1]

/-- An index of the array lies in point t's block iff each coordinate lies in the block's range on its axis. -/
theorem mem_blk_q (t : Fin cfg0.N) (i : S131072x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v1_0).slice (win0_2.rect t)).set ↔ _
  rw [View.set_slice_whole, Rect.mem_set_unit]
  exact Iff.rfl

/-- Row r of the array lies in the block of point r / 2048. -/
theorem cover_q (i : S131072x512.Idx) :
    ∃ t : Fin cfg0.N, (cfg0.win 2).flush t = true ∧ i ∈ ((cfg0.win 2).blk t).view.set := by
  have hi0 : (i 0).val < 131072 := idx2_lt0 i
  have hi1 : (i 1).val < 512 := idx2_lt1 i
  have hN : cfg0.N = 64 := N_0
  have ht : (i 0).val / 2048 < cfg0.N := by rw [hN]; omega
  obtain ⟨-, -, -, -, e20, e21, e30, e31, e40, e41⟩ := idx_facts ⟨(i 0).val / 2048, ht⟩
  refine ⟨⟨(i 0).val / 2048, ht⟩, flush0_2 _, ?_⟩
  rw [mem_blk_q]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win0_2.index ⟨(i 0).val / 2048, ht⟩ (1 : Fin 2) * 512 ≤ (i 1).val
      ∧ (i 1).val < win0_2.index ⟨(i 0).val / 2048, ht⟩ (1 : Fin 2) * 512 + 512
    rw [e21]; omega

/-- The array window 2 writes ends holding the band starting at column 0 of the projected rows. -/
theorem final_q (c : Dev nD) :
    (dat0 (F := Ideal) V c).arrAt 2 cfg0.N = Cert.Spec.band 0 (by decide) (V c main_v0) (V c main_arg1) :=
  (dat0 (F := Ideal) V c).arrAt_eq_of_cover 2 (Cert.Spec.band 0 (by decide) (V c main_v0) (V c main_arg1))
    (fun t _ => flushed_q V c t) cover_q

/-! ## Output window 3: the band starting at column 512 -/

/-- What point t writes back through window 3 is block t of the band. -/
theorem flushed_k (c : Dev nD) (t : Fin cfg0.N) :
    (dat0 (F := Ideal) V c).flushed 3 t
      = ((cfg0.win 3).blk t).view.read (Elt Ideal) (Cert.Spec.band 512 (by decide) (V c main_v0) (V c main_arg1)) := by
  show (cfg0.win 3).cut (grid0.coords t) ((dat0 (F := Ideal) V c).after 3 t) = _
  rw [after0_3]
  unfold out0_3
  rw [View.canon_unit_zero hz]
  simp only [View.ld_unit_zero (S := S2048x128) hz, View.ld_unit_zero (S := S128x1536) hz]
  obtain ⟨-, -, -, -, e20, e21, e30, e31, e40, e41⟩ := idx_facts t
  funext j
  obtain ⟨p, f, rfl⟩ : ∃ (p : Fin 2048) (f : Fin 512), j = ix2 p f := ⟨j 0, j 1, eq_ix2 j⟩
  have h0 : ((((cfg0.win 3).blk t).view.emb (ix2 p f)) 0).val = 2048 * t.val + p.val := by
    show win0_3.index t (0 : Fin 2) * 2048 + 1 * p.val = _; rw [e30]; omega
  have h1 : ((((cfg0.win 3).blk t).view.emb (ix2 p f)) 1).val = f.val := by
    show win0_3.index t (1 : Fin 2) * 512 + 1 * f.val = _; rw [e31]; omega
  show k0_pay3 (F := Ideal) (iblk0 V c 0 t) (iblk0 V c 1 t) (ix2 p f)
    = Cert.Spec.band 512 (by decide) (V c main_v0) (V c main_arg1) (((cfg0.win 3).blk t).view.emb (ix2 p f))
  refine (pay_k_apply (iblk0 V c 0 t) (iblk0 V c 1 t) p f).trans ?_
  unfold Cert.Spec.band
  refine Finset.sum_congr rfl fun k _ => ?_
  refine congrArg₂ (· * ·) (rows_apply V c t (ix2 p k) _ ?_ ?_) (matrix_apply V c t (ix2 k _) _ ?_ ?_)
  · exact h0
  · rfl
  · rfl
  · show 512 + (((((cfg0.win 3).blk t).view.emb (ix2 p f)) 1).val) = 512 + f.val; rw [h1]

/-- An index of the array lies in point t's block iff each coordinate lies in the block's range on its axis. -/
theorem mem_blk_k (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1_1).slice (win0_3.rect t)).set ↔ _
  rw [View.set_slice_whole, Rect.mem_set_unit]
  exact Iff.rfl

/-- Row r of the array lies in the block of point r / 2048. -/
theorem cover_k (i : S131072x512.Idx) :
    ∃ t : Fin cfg0.N, (cfg0.win 3).flush t = true ∧ i ∈ ((cfg0.win 3).blk t).view.set := by
  have hi0 : (i 0).val < 131072 := idx2_lt0 i
  have hi1 : (i 1).val < 512 := idx2_lt1 i
  have hN : cfg0.N = 64 := N_0
  have ht : (i 0).val / 2048 < cfg0.N := by rw [hN]; omega
  obtain ⟨-, -, -, -, e20, e21, e30, e31, e40, e41⟩ := idx_facts ⟨(i 0).val / 2048, ht⟩
  refine ⟨⟨(i 0).val / 2048, ht⟩, flush0_3 _, ?_⟩
  rw [mem_blk_k]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e30]; show (i 0).val / 2048 * 2048 ≤ (i 0).val ∧ (i 0).val < (i 0).val / 2048 * 2048 + 2048; omega
  | ⟨1, _⟩ =>
    show win0_3.index ⟨(i 0).val / 2048, ht⟩ (1 : Fin 2) * 512 ≤ (i 1).val
      ∧ (i 1).val < win0_3.index ⟨(i 0).val / 2048, ht⟩ (1 : Fin 2) * 512 + 512
    rw [e31]; omega

/-- The array window 3 writes ends holding the band starting at column 512 of the projected rows. -/
theorem final_k (c : Dev nD) :
    (dat0 (F := Ideal) V c).arrAt 3 cfg0.N = Cert.Spec.band 512 (by decide) (V c main_v0) (V c main_arg1) :=
  (dat0 (F := Ideal) V c).arrAt_eq_of_cover 3 (Cert.Spec.band 512 (by decide) (V c main_v0) (V c main_arg1))
    (fun t _ => flushed_k V c t) cover_k

/-! ## Output window 4: the band starting at column 1024 -/

/-- What point t writes back through window 4 is block t of the band. -/
theorem flushed_v (c : Dev nD) (t : Fin cfg0.N) :
    (dat0 (F := Ideal) V c).flushed 4 t
      = ((cfg0.win 4).blk t).view.read (Elt Ideal) (Cert.Spec.band 1024 (by decide) (V c main_v0) (V c main_arg1)) := by
  show (cfg0.win 4).cut (grid0.coords t) ((dat0 (F := Ideal) V c).after 4 t) = _
  rw [after0_4]
  unfold out0_4
  rw [View.canon_unit_zero hz]
  simp only [View.ld_unit_zero (S := S2048x128) hz, View.ld_unit_zero (S := S128x1536) hz]
  obtain ⟨-, -, -, -, e20, e21, e30, e31, e40, e41⟩ := idx_facts t
  funext j
  obtain ⟨p, f, rfl⟩ : ∃ (p : Fin 2048) (f : Fin 512), j = ix2 p f := ⟨j 0, j 1, eq_ix2 j⟩
  have h0 : ((((cfg0.win 4).blk t).view.emb (ix2 p f)) 0).val = 2048 * t.val + p.val := by
    show win0_4.index t (0 : Fin 2) * 2048 + 1 * p.val = _; rw [e40]; omega
  have h1 : ((((cfg0.win 4).blk t).view.emb (ix2 p f)) 1).val = f.val := by
    show win0_4.index t (1 : Fin 2) * 512 + 1 * f.val = _; rw [e41]; omega
  show k0_pay4 (F := Ideal) (iblk0 V c 0 t) (iblk0 V c 1 t) (ix2 p f)
    = Cert.Spec.band 1024 (by decide) (V c main_v0) (V c main_arg1) (((cfg0.win 4).blk t).view.emb (ix2 p f))
  refine (pay_v_apply (iblk0 V c 0 t) (iblk0 V c 1 t) p f).trans ?_
  unfold Cert.Spec.band
  refine Finset.sum_congr rfl fun k _ => ?_
  refine congrArg₂ (· * ·) (rows_apply V c t (ix2 p k) _ ?_ ?_) (matrix_apply V c t (ix2 k _) _ ?_ ?_)
  · exact h0
  · rfl
  · rfl
  · show 1024 + (((((cfg0.win 4).blk t).view.emb (ix2 p f)) 1).val) = 1024 + f.val; rw [h1]

/-- An index of the array lies in point t's block iff each coordinate lies in the block's range on its axis. -/
theorem mem_blk_v (t : Fin cfg0.N) (i : S131072x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v1_2).slice (win0_4.rect t)).set ↔ _
  rw [View.set_slice_whole, Rect.mem_set_unit]
  exact Iff.rfl

/-- Row r of the array lies in the block of point r / 2048. -/
theorem cover_v (i : S131072x512.Idx) :
    ∃ t : Fin cfg0.N, (cfg0.win 4).flush t = true ∧ i ∈ ((cfg0.win 4).blk t).view.set := by
  have hi0 : (i 0).val < 131072 := idx2_lt0 i
  have hi1 : (i 1).val < 512 := idx2_lt1 i
  have hN : cfg0.N = 64 := N_0
  have ht : (i 0).val / 2048 < cfg0.N := by rw [hN]; omega
  obtain ⟨-, -, -, -, e20, e21, e30, e31, e40, e41⟩ := idx_facts ⟨(i 0).val / 2048, ht⟩
  refine ⟨⟨(i 0).val / 2048, ht⟩, flush0_4 _, ?_⟩
  rw [mem_blk_v]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e40]; show (i 0).val / 2048 * 2048 ≤ (i 0).val ∧ (i 0).val < (i 0).val / 2048 * 2048 + 2048; omega
  | ⟨1, _⟩ =>
    show win0_4.index ⟨(i 0).val / 2048, ht⟩ (1 : Fin 2) * 512 ≤ (i 1).val
      ∧ (i 1).val < win0_4.index ⟨(i 0).val / 2048, ht⟩ (1 : Fin 2) * 512 + 512
    rw [e41]; omega

/-- The array window 4 writes ends holding the band starting at column 1024 of the projected rows. -/
theorem final_v (c : Dev nD) :
    (dat0 (F := Ideal) V c).arrAt 4 cfg0.N = Cert.Spec.band 1024 (by decide) (V c main_v0) (V c main_arg1) :=
  (dat0 (F := Ideal) V c).arrAt_eq_of_cover 4 (Cert.Spec.band 1024 (by decide) (V c main_v0) (V c main_arg1))
    (fun t _ => flushed_v V c t) cover_v

end Cert.KernelIdeal.Bands

end
-- ==== Proof.HeadsSoftmax.lean ====
/-
  One row of a head. The body normalises each of a head's 16384 rows of 64 entries: the row's largest entry (a lane
  maximum started from −∞ and then compared with −∞ once more), the entries shifted by it and exponentiated, and each
  divided by the row's sum of those (a lane sum started from 0). Here that chain of vector operations, named
  `rowSoftmaxV`, is read at the entry (n, c): it is the specification's `softmax` of row n at c. The only algebra is
  `max ⊥ a = a`; a lane reduction over the second axis of (n, ·) ranges over the entries (n, k).
-/
import proofs.«133711_j26079041421695_2_alg».proof.Proof.Gen.KernelIdeal.Skeleton
import proofs.«133711_j26079041421695_2_alg».proof.Proof.Spec
import Idealize.ShloMosaic.PureOps.Ideal.Laws
import Idealize.ShloMosaic.Lib.ValueLayout

noncomputable section

namespace Cert.KernelIdeal.Heads

open Idealize.ShloMosaic Idealize.ShloMosaic.ValueIdx
open Cert.KernelIdeal Cert.KernelIdeal.Facts₀

/-! ## Two column forms of a row statistic -/

/-- A vector of `a` entries cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along rows of `b` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic `s` (one value per row) spread back over the row: column form, then broadcast. -/
theorem spread_apply (s : FVec Ideal S16384 .f32) (n : Fin 16384) (c : Fin 64) :
    broadcastTo S16384x64 (shapeCast S16384x1 s shapeCasts_S16384_S16384x1) broadcasts_S16384x1_S16384x64 (ix2 n c)
      = s (ix1 n) :=
  (broadcastTo_a1_ab_apply _ broadcasts_S16384x1_S16384x64 n c).trans
    (shapeCast_a_a1_apply s shapeCasts_S16384_S16384x1 n 0)

/-! ## The lane reductions of row n range over the entries (n, k) -/

/-- The entry of row `n` that a reduction over the second axis visits at step `k`. -/
theorem lift_row (n : Fin 16384) (k : Fin 64) :
    reduces_S16384x64_S16384.lift (ix1 n) k = ix2 n k :=
  funext fun a => Fin.ext (by match a with | ⟨0, _⟩ => rfl | ⟨1, _⟩ => rfl)

/-- The word 0xFF800000 is −∞. -/
theorem ofBits_neg_inf : Ideal.ofBits .f32 0xFF800000#32 = (⊥ : EReal) := by simp [Ideal.ofBits, Ideal.ieee]

/-- The lane maximum of row `n`, started from −∞: the specification's `rowMax` of the row. -/
theorem laneMax_apply (x : FVec Ideal S16384x64 .f32) (hφ : FKind.Formats .f32)
    (hacc : (0xFF800000#32 : BitVec 32) = 0xFF800000#32) (n : Fin 16384) :
    multiReduction .maximumf [1] S16384 x 0xFF800000#32 reduces_S16384x64_S16384 hφ hacc (ix1 n)
      = Cert.Spec.rowMax (fun k => x (ix2 n k)) := by
  refine (Ideal.multiReduction_maximumf_single x 0xFF800000#32 reduces_S16384x64_S16384 hφ hacc (ix1 n)).trans ?_
  show (Finset.univ : Finset (Fin 64)).fold max (Ideal.ofBits .f32 0xFF800000#32)
      (fun k => x (reduces_S16384x64_S16384.lift (ix1 n) k)) = Finset.univ.fold max ⊥ (fun k => x (ix2 n k))
  rw [ofBits_neg_inf]
  exact congrArg (fun f => (Finset.univ : Finset (Fin 64)).fold max (⊥ : EReal) f)
    (funext fun k => congrArg x (lift_row n k))

/-- The lane sum of row `n`, started from 0: the sum of the row's entries. -/
theorem laneSum_apply (x : FVec Ideal S16384x64 .f32) (hφ : FKind.Formats .f32)
    (hacc : (0x00000000#32 : BitVec 32) = 0x00000000#32) (n : Fin 16384) :
    multiReduction .add [1] S16384 x 0x00000000#32 reduces_S16384x64_S16384 hφ hacc (ix1 n)
      = ∑ k : Fin 64, x (ix2 n k) := by
  refine (Ideal.multiReduction_add_single x 0x00000000#32 reduces_S16384x64_S16384 hφ hacc (ix1 n)).trans ?_
  exact Finset.sum_congr rfl fun k _ => congrArg x (lift_row n k)

/-! ## The row softmax as the body writes it, one named step at a time -/

/-- An exponential read at an index is the exponential of the entry. -/
theorem exp_apply {s : Shape} {φ : FTy} (a : FVec Ideal s φ) (i : s.Idx) : exp a i = Ideal.exp (a i) := rfl

/-- Each row's largest entry, after the second comparison with −∞. -/
def rowMaxV (x : FVec Ideal S16384x64 .f32) : FVec Ideal S16384 .f32 :=
  maximumf (broadcast S16384 (Scalar.ofBits .f32 0xFF800000#32))
    (multiReduction .maximumf [1] S16384 x 0xFF800000#32 reduces_S16384x64_S16384 (.inl rfl) rfl)

theorem rowMaxV_apply (x : FVec Ideal S16384x64 .f32) (n : Fin 16384) :
    rowMaxV x (ix1 n) = Cert.Spec.rowMax (fun k => x (ix2 n k)) := by
  refine (maximumf_apply _ _ (ix1 n)).trans ?_
  refine (congrArg (max _) (laneMax_apply x (.inl rfl) rfl n)).trans ?_
  refine (congrArg (fun b => max b _) ofBits_neg_inf).trans ?_
  exact bot_sup_eq _

/-- A row statistic spread back over its row. -/
def spread (s : FVec Ideal S16384 .f32) : FVec Ideal S16384x64 .f32 :=
  broadcastTo S16384x64 (shapeCast S16384x1 s shapeCasts_S16384_S16384x1) broadcasts_S16384x1_S16384x64

theorem spread_def_apply (s : FVec Ideal S16384 .f32) (n : Fin 16384) (c : Fin 64) : spread s (ix2 n c) = s (ix1 n) :=
  spread_apply s n c

/-- Every entry shifted by its row's maximum and exponentiated. -/
def rowExpV (x : FVec Ideal S16384x64 .f32) : FVec Ideal S16384x64 .f32 := exp (subf x (spread (rowMaxV x)))

theorem rowExpV_apply (x : FVec Ideal S16384x64 .f32) (n : Fin 16384) (k : Fin 64) :
    rowExpV x (ix2 n k) = Ideal.exp (x (ix2 n k) - Cert.Spec.rowMax (fun k' => x (ix2 n k'))) := by
  refine (exp_apply _ (ix2 n k)).trans (congrArg Ideal.exp ?_)
  refine (subf_apply _ _ (ix2 n k)).trans (congrArg (x (ix2 n k) - ·) ?_)
  exact (spread_def_apply _ n k).trans (rowMaxV_apply x n)

/-- Each row's sum of those exponentials. -/
def rowSumV (x : FVec Ideal S16384x64 .f32) : FVec Ideal S16384 .f32 :=
  multiReduction .add [1] S16384 (rowExpV x) 0x00000000#32 reduces_S16384x64_S16384 (.inl rfl) rfl

theorem rowSumV_apply (x : FVec Ideal S16384x64 .f32) (n : Fin 16384) :
    rowSumV x (ix1 n) = ∑ k : Fin 64, Ideal.exp (x (ix2 n k) - Cert.Spec.rowMax (fun k' => x (ix2 n k'))) :=
  (laneSum_apply (rowExpV x) (.inl rfl) rfl n).trans (Finset.sum_congr rfl fun k _ => rowExpV_apply x n k)

/-- The body's normalisation of every row of a 16384 × 64 vector. -/
def rowSoftmaxV (x : FVec Ideal S16384x64 .f32) : FVec Ideal S16384x64 .f32 := divf (rowExpV x) (spread (rowSumV x))

/-- Read at the entry (n, c) it is the specification's softmax of row n at c. -/
theorem rowSoftmaxV_apply (x : FVec Ideal S16384x64 .f32) (n : Fin 16384) (c : Fin 64) :
    rowSoftmaxV x (ix2 n c) = Cert.Spec.softmax (fun k => x (ix2 n k)) c := by
  refine (divf_apply _ _ (ix2 n c)).trans ?_
  unfold Cert.Spec.softmax
  refine (congrArg (Ideal.div · _) (rowExpV_apply x n c)).trans (congrArg (Ideal.div _) ?_)
  exact (spread_def_apply _ n c).trans (rowSumV_apply x n)

end Cert.KernelIdeal.Heads

end
-- ==== Proof.HeadsMatmul.lean ====
/-
  The two products of a head. The context sums, over the head's 16384 rows, a left factor at (n, c) times a right
  factor at (n, e): both operands are contracted along their first axis. The result sums, over the 64 context
  rows, a left factor at (n, c) times the context at (c, e): the usual row-by-column product. Each is a matrix
  product into a zero accumulator, so at the extended reals it is the plain sum over the contraction index; here
  the contraction index is identified with its one coordinate and the operand indices are written by coordinates.
-/
import proofs.«133711_j26079041421695_2_alg».proof.Proof.Gen.KernelIdeal.Skeleton
import Idealize.ShloMosaic.PureOps.Ideal.Laws
import Idealize.ShloMosaic.Lib.ValueIdx

noncomputable section

namespace Cert.KernelIdeal.Heads

open Idealize.ShloMosaic Idealize.ShloMosaic.ValueIdx
open Cert.KernelIdeal

/-- The context's dimension numbers: first axis against first axis. -/
abbrev dotCtx : DotDims S16384x64 S16384x64 S64x64 := dot_S16384x64_S16384x64_S64x64_0_0_1_1_n_n
/-- The result's dimension numbers: second axis against first axis. -/
abbrev dotRes : DotDims S16384x64 S64x64 S16384x64 := dot_S16384x64_S64x64_S16384x64_1_0_0_1_n_n

/-! ## The context's operand indices, axis by axis -/

theorem ctx_lhs_0 (i : S64x64.Idx) (q : dotCtx.contr.Idx) :
    (dotCtx.lhsIdx i q 0).val = (q ⟨0, by decide⟩).val :=
  dotCtx.lhsIdx_val_of_single rfl i q
theorem ctx_lhs_1 (i : S64x64.Idx) (q : dotCtx.contr.Idx) :
    (dotCtx.lhsIdx i q 1).val = (i 0).val := by
  unfold DotDims.lhsIdx
  rw [dif_neg (show ¬(1 : Fin S16384x64.rank) ∈ dotCtx.lhsBatch by decide), dif_pos (show (1 : Fin S16384x64.rank) ∈ dotCtx.lhsNonContracting by decide)]
  rfl
theorem ctx_rhs_0 (i : S64x64.Idx) (q : dotCtx.contr.Idx) :
    (dotCtx.rhsIdx i q 0).val = (q ⟨0, by decide⟩).val :=
  dotCtx.rhsIdx_val_of_single rfl i q
theorem ctx_rhs_1 (i : S64x64.Idx) (q : dotCtx.contr.Idx) :
    (dotCtx.rhsIdx i q 1).val = (i 1).val := by
  unfold DotDims.rhsIdx
  rw [dif_neg (show ¬(1 : Fin S16384x64.rank) ∈ dotCtx.rhsBatch by decide), dif_pos (show (1 : Fin S16384x64.rank) ∈ dotCtx.rhsNonContracting by decide)]
  rfl

/-- The context at (c, e): the sum over the rows n of the left factor at (n, c) times the right at (n, e). -/
theorem context_apply {φ₁ φ₂ : FTy} (L : FVec Ideal S16384x64 φ₁) (R : FVec Ideal S16384x64 φ₂) (c e : Fin 64) :
    matmul dotCtx none L R (constant S64x64 .f32 0x00000000#32) (ix2 c e) = ∑ n : Fin 16384, L (ix2 n c) * R (ix2 n e) := by
  refine (Ideal.matmul_constant_zero_apply dotCtx none L R (ix2 c e)).trans ?_
  rw [← Equiv.sum_comp (contrEquiv1 dotCtx 16384 rfl rfl).symm]
  refine Finset.sum_congr rfl fun k _ => ?_
  have hk := contrEquiv1_symm_val dotCtx 16384 rfl rfl k
  have el : dotCtx.lhsIdx (ix2 c e) ((contrEquiv1 dotCtx 16384 rfl rfl).symm k) = ix2 k c := funext fun a => Fin.ext (by
    match a with
    | ⟨0, _⟩ => exact (ctx_lhs_0 _ _).trans hk
    | ⟨1, _⟩ => exact ctx_lhs_1 _ _)
  have er : dotCtx.rhsIdx (ix2 c e) ((contrEquiv1 dotCtx 16384 rfl rfl).symm k) = ix2 k e := funext fun a => Fin.ext (by
    match a with
    | ⟨0, _⟩ => exact (ctx_rhs_0 _ _).trans hk
    | ⟨1, _⟩ => exact ctx_rhs_1 _ _)
  rw [el, er]

/-! ## The result's operand indices, axis by axis -/

theorem res_lhs_0 (i : S16384x64.Idx) (q : dotRes.contr.Idx) :
    (dotRes.lhsIdx i q 0).val = (i 0).val := by
  unfold DotDims.lhsIdx
  rw [dif_neg (show ¬(0 : Fin S16384x64.rank) ∈ dotRes.lhsBatch by decide), dif_pos (show (0 : Fin S16384x64.rank) ∈ dotRes.lhsNonContracting by decide)]
  rfl
theorem res_lhs_1 (i : S16384x64.Idx) (q : dotRes.contr.Idx) :
    (dotRes.lhsIdx i q 1).val = (q ⟨0, by decide⟩).val :=
  dotRes.lhsIdx_val_of_single rfl i q
theorem res_rhs_0 (i : S16384x64.Idx) (q : dotRes.contr.Idx) :
    (dotRes.rhsIdx i q 0).val = (q ⟨0, by decide⟩).val :=
  dotRes.rhsIdx_val_of_single rfl i q
theorem res_rhs_1 (i : S16384x64.Idx) (q : dotRes.contr.Idx) :
    (dotRes.rhsIdx i q 1).val = (i 1).val := by
  unfold DotDims.rhsIdx
  rw [dif_neg (show ¬(1 : Fin S64x64.rank) ∈ dotRes.rhsBatch by decide), dif_pos (show (1 : Fin S64x64.rank) ∈ dotRes.rhsNonContracting by decide)]
  rfl

/-- The result at (n, e): the sum over the context rows c of the left factor at (n, c) times the right at (c, e). -/
theorem result_apply {φ₁ φ₂ : FTy} (L : FVec Ideal S16384x64 φ₁) (R : FVec Ideal S64x64 φ₂) (n : Fin 16384) (e : Fin 64) :
    matmul dotRes none L R (constant S16384x64 .f32 0x00000000#32) (ix2 n e) = ∑ c : Fin 64, L (ix2 n c) * R (ix2 c e) := by
  refine (Ideal.matmul_constant_zero_apply dotRes none L R (ix2 n e)).trans ?_
  rw [← Equiv.sum_comp (contrEquiv1 dotRes 64 rfl rfl).symm]
  refine Finset.sum_congr rfl fun k _ => ?_
  have hk := contrEquiv1_symm_val dotRes 64 rfl rfl k
  have el : dotRes.lhsIdx (ix2 n e) ((contrEquiv1 dotRes 64 rfl rfl).symm k) = ix2 n k := funext fun a => Fin.ext (by
    match a with
    | ⟨0, _⟩ => exact res_lhs_0 _ _
    | ⟨1, _⟩ => exact (res_lhs_1 _ _).trans hk)
  have er : dotRes.rhsIdx (ix2 n e) ((contrEquiv1 dotRes 64 rfl rfl).symm k) = ix2 k e := funext fun a => Fin.ext (by
    match a with
    | ⟨0, _⟩ => exact (res_rhs_0 _ _).trans hk
    | ⟨1, _⟩ => exact res_rhs_1 _ _)
  rw [el, er]

end Cert.KernelIdeal.Heads

end
-- ==== Proof.HeadsPayload.lean ====
/-
  What one head's body stores, read at an entry. The three loaded blocks (queries, keys, values) are 1 × 16384 × 64;
  the body drops the unit axis, normalises the rows of the keys and of the queries (the queries also times one
  eighth), contracts the keys' weights with the values over the 16384 rows into the 64 × 64 context, applies the
  scaled query weights to the context, and stores the product with the unit axis put back. At the extended reals a
  change of float format is the identity, so the stored value at (0, n, e) is the specification's `head` of the three
  blocks' rows at (n, e): a sum over the 64 context rows of (softmax of query row n, times one eighth) times the
  context, itself a sum over the 16384 rows of (softmax of key row) times value.
-/
import proofs.«133711_j26079041421695_2_alg».proof.Proof.HeadsSoftmax
import proofs.«133711_j26079041421695_2_alg».proof.Proof.HeadsMatmul
import Idealize.ShloMosaic.Lib.ValueLayout

noncomputable section

namespace Cert.KernelIdeal.Heads

open Idealize.ShloMosaic Idealize.ShloMosaic.ValueIdx
open Cert.KernelIdeal Cert.KernelIdeal.Facts₀

/-- A loaded block with its unit axis dropped. -/
def flat (v : Vec Ideal S1x16384x64 .bf16) : FVec Ideal S16384x64 .bf16 :=
  shapeCast S16384x64 v shapeCasts_S1x16384x64_S16384x64

theorem flat_apply (v : Vec Ideal S1x16384x64 .bf16) (n : Fin 16384) (c : Fin 64) :
    flat v (ix2 n c) = v (ix3 (0 : Fin 1) n c) :=
  shapeCast_1ab_ab_apply v shapeCasts_S1x16384x64_S16384x64 n c

/-- The same, widened (the identity on extended reals). -/
def wide (v : Vec Ideal S1x16384x64 .bf16) : FVec Ideal S16384x64 .f32 := extf .f32 (flat v) bitsLt_bf16_f32

theorem wide_apply (v : Vec Ideal S1x16384x64 .bf16) (n : Fin 16384) (c : Fin 64) :
    wide v (ix2 n c) = v (ix3 (0 : Fin 1) n c) :=
  (extf_apply (flat v) bitsLt_bf16_f32 (ix2 n c)).trans (flat_apply v n c)

/-- Row `n` of the widened block is row `n` of the block. -/
theorem wide_row (v : Vec Ideal S1x16384x64 .bf16) (n : Fin 16384) :
    (fun k : Fin 64 => wide v (ix2 n k)) = fun k => v (ix3 (0 : Fin 1) n k) :=
  funext fun k => wide_apply v n k

/-- The scaled query weights. -/
def qWeights (v0 : Vec Ideal S1x16384x64 .bf16) : FVec Ideal S16384x64 .bf16 :=
  truncf .bf16 (mulf (rowSoftmaxV (wide v0)) (broadcast S16384x64 (Scalar.ofBits .f32 0x3E000000#32))) bitsLt_bf16_f32

theorem qWeights_apply (v0 : Vec Ideal S1x16384x64 .bf16) (n : Fin 16384) (c : Fin 64) :
    qWeights v0 (ix2 n c) = Cert.Spec.softmax (fun k => v0 (ix3 (0 : Fin 1) n k)) c * Cert.Spec.eighth := by
  refine (truncf_apply _ bitsLt_bf16_f32 (ix2 n c)).trans ((mulf_apply _ _ (ix2 n c)).trans ?_)
  refine congrArg (· * Cert.Spec.eighth) ?_
  exact (rowSoftmaxV_apply (wide v0) n c).trans (congrArg (fun r => Cert.Spec.softmax r c) (wide_row v0 n))

/-- The key weights. -/
def kWeights (v3 : Vec Ideal S1x16384x64 .bf16) : FVec Ideal S16384x64 .bf16 :=
  truncf .bf16 (rowSoftmaxV (wide v3)) bitsLt_bf16_f32

theorem kWeights_apply (v3 : Vec Ideal S1x16384x64 .bf16) (n : Fin 16384) (c : Fin 64) :
    kWeights v3 (ix2 n c) = Cert.Spec.softmax (fun k => v3 (ix3 (0 : Fin 1) n k)) c :=
  (truncf_apply _ bitsLt_bf16_f32 (ix2 n c)).trans
    ((rowSoftmaxV_apply (wide v3) n c).trans (congrArg (fun r => Cert.Spec.softmax r c) (wide_row v3 n)))

/-- The context of the keys' weights and the values. -/
def ctxV (v3 v6 : Vec Ideal S1x16384x64 .bf16) : FVec Ideal S64x64 .bf16 :=
  truncf .bf16 (matmul dotCtx none (kWeights v3) (flat v6) (constant S64x64 .f32 0x00000000#32)) bitsLt_bf16_f32

theorem ctxV_apply (v3 v6 : Vec Ideal S1x16384x64 .bf16) (c e : Fin 64) :
    ctxV v3 v6 (ix2 c e)
      = Cert.Spec.context (fun n k => v3 (ix3 (0 : Fin 1) n k)) (fun n k => v6 (ix3 (0 : Fin 1) n k)) c e := by
  refine (truncf_apply _ bitsLt_bf16_f32 (ix2 c e)).trans ((context_apply (kWeights v3) (flat v6) c e).trans ?_)
  unfold Cert.Spec.context
  exact Finset.sum_congr rfl fun n _ => by rw [kWeights_apply, flat_apply]

/-- The body's stored value, before the unit axis is put back. -/
theorem pay2_eq (v0 v3 v6 : Vec Ideal S1x16384x64 .bf16) :
    Gen.k1_pay2 (F := Ideal) v0 v3 v6
      = truncf .bf16 (matmul dotRes none (qWeights v0) (ctxV v3 v6) (constant S16384x64 .f32 0x00000000#32)) bitsLt_bf16_f32 := rfl

/-- The stored block at (0, n, e) is the specification's head of the three blocks' rows at (n, e). -/
theorem pay_apply (v0 v3 v6 : Vec Ideal S1x16384x64 .bf16) (n : Fin 16384) (e : Fin 64) :
    Gen.k1_pay1 (Gen.k1_pay2 (F := Ideal) v0 v3 v6) (ix3 (0 : Fin 1) n e)
      = Cert.Spec.head (fun n k => v0 (ix3 (0 : Fin 1) n k)) (fun n k => v3 (ix3 (0 : Fin 1) n k))
          (fun n k => v6 (ix3 (0 : Fin 1) n k)) n e := by
  refine (shapeCast_ab_1ab_apply (Gen.k1_pay2 (F := Ideal) v0 v3 v6) shapeCasts_S16384x64_S1x16384x64 0 n e).trans ?_
  rw [pay2_eq]
  refine (truncf_apply _ bitsLt_bf16_f32 (ix2 n e)).trans ((result_apply (qWeights v0) (ctxV v3 v6) n e).trans ?_)
  unfold Cert.Spec.head
  exact Finset.sum_congr rfl fun c _ => by rw [qWeights_apply, ctxV_apply]

end Cert.KernelIdeal.Heads

end
-- ==== Proof.HeadsValue.lean ====
/-
  From the 64 blocks to the array. Point t of the grid reads, in each of the three input arrays, the slab with
  leading coordinate t — block index (t, 0, 0), block 1 × 16384 × 64 — and writes back the slab with leading coordinate
  t of the output array. What it writes is the head computed from the three slabs, so it is the slab t of the one
  whole-array function `heads` of the three input arrays; the 64 slabs cover the output array (the entry with
  leading coordinate g lies in point g's slab), so the array ends holding `heads`.
-/
import proofs.«133711_j26079041421695_2_alg».proof.Proof.Gen.KernelIdeal.Frame
import proofs.«133711_j26079041421695_2_alg».proof.Proof.HeadsPayload
import Idealize.ShloMosaic.Lib.Pipeline.Value

set_option maxRecDepth 16384

noncomputable section

namespace Cert.KernelIdeal.Heads

open Idealize.ShloMosaic Idealize.ShloMosaic.TcCoe Idealize.SL.Sem Idealize.ShloMosaic.Pipeline
open Idealize.ShloMosaic.ValueIdx
open Cert.KernelIdeal Cert.KernelIdeal.Gen

variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the grid: every window's block index at point t is (t, 0, 0). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- A point of the grid as a leading coordinate of the arrays. -/
def lead (t : Fin cfg1.N) : Fin 64 := ⟨t.val, Nat.lt_of_lt_of_eq t.isLt N_1⟩

/-- The head at (n, e) computed from three blocks that are the slabs g of three arrays is `heads` of the arrays at (g, n, e). -/
theorem head_of_slabs (A0 A1 A2 : Cert.Spec.Sh3.Idx → EReal) (g : Fin 64) (x0 x1 x2 : Vec Ideal S1x16384x64 .bf16)
    (h0 : ∀ (n : Fin 16384) (k : Fin 64), x0 (ix3 (0 : Fin 1) n k) = A0 (ix3 g n k))
    (h1 : ∀ (n : Fin 16384) (k : Fin 64), x1 (ix3 (0 : Fin 1) n k) = A1 (ix3 g n k))
    (h2 : ∀ (n : Fin 16384) (k : Fin 64), x2 (ix3 (0 : Fin 1) n k) = A2 (ix3 g n k))
    (n : Fin 16384) (e : Fin 64) :
    k1_pay1 (k1_pay2 (F := Ideal) x0 x1 x2) (ix3 (0 : Fin 1) n e) = Cert.Spec.heads A0 A1 A2 (ix3 g n e) := by
  refine (pay_apply x0 x1 x2 n e).trans ?_
  have e0 : (fun (n : Fin 16384) (k : Fin 64) => x0 (ix3 (0 : Fin 1) n k)) = fun n k => A0 (ix3 g n k) :=
    funext fun n => funext fun k => h0 n k
  have e1 : (fun (n : Fin 16384) (k : Fin 64) => x1 (ix3 (0 : Fin 1) n k)) = fun n k => A1 (ix3 g n k) :=
    funext fun n => funext fun k => h1 n k
  have e2 : (fun (n : Fin 16384) (k : Fin 64) => x2 (ix3 (0 : Fin 1) n k)) = fun n k => A2 (ix3 g n k) :=
    funext fun n => funext fun k => h2 n k
  rw [e0, e1, e2]
  rfl

/-- Input window 0's block at point t is the slab `lead t` of its array. -/
theorem iblk_0 (c : Dev nD) (t : Fin cfg1.N) (n : Fin 16384) (k : Fin 64) :
    (iblk1 V c 0 t : Vec Ideal S1x16384x64 .bf16) (ix3 (0 : Fin 1) n k)
      = (V c main_v3 : Cert.Spec.Sh3.Idx → EReal) (ix3 (lead t) n k) := by
  obtain ⟨⟨a0, a1, a2⟩, -, -, -⟩ := idx_facts t
  unfold iblk1
  rw [View.read_apply]
  show V c main_v3 _ = V c main_v3 _
  congr 1
  funext a
  apply Fin.ext
  match a with
  | ⟨0, _⟩ => show win1_0.index t (0 : Fin 3) * 1 + 1 * 0 = t.val; rw [a0]; omega
  | ⟨1, _⟩ => show win1_0.index t (1 : Fin 3) * 16384 + 1 * n.val = n.val; rw [a1]; omega
  | ⟨2, _⟩ => show win1_0.index t (2 : Fin 3) * 64 + 1 * k.val = k.val; rw [a2]; omega

/-- Input window 1's block at point t is the slab `lead t` of its array. -/
theorem iblk_1 (c : Dev nD) (t : Fin cfg1.N) (n : Fin 16384) (k : Fin 64) :
    (iblk1 V c 1 t : Vec Ideal S1x16384x64 .bf16) (ix3 (0 : Fin 1) n k)
      = (V c main_v5 : Cert.Spec.Sh3.Idx → EReal) (ix3 (lead t) n k) := by
  obtain ⟨-, ⟨a0, a1, a2⟩, -, -⟩ := idx_facts t
  unfold iblk1
  rw [View.read_apply]
  show V c main_v5 _ = V c main_v5 _
  congr 1
  funext a
  apply Fin.ext
  match a with
  | ⟨0, _⟩ => show win1_1.index t (0 : Fin 3) * 1 + 1 * 0 = t.val; rw [a0]; omega
  | ⟨1, _⟩ => show win1_1.index t (1 : Fin 3) * 16384 + 1 * n.val = n.val; rw [a1]; omega
  | ⟨2, _⟩ => show win1_1.index t (2 : Fin 3) * 64 + 1 * k.val = k.val; rw [a2]; omega

/-- Input window 2's block at point t is the slab `lead t` of its array. -/
theorem iblk_2 (c : Dev nD) (t : Fin cfg1.N) (n : Fin 16384) (k : Fin 64) :
    (iblk1 V c 2 t : Vec Ideal S1x16384x64 .bf16) (ix3 (0 : Fin 1) n k)
      = (V c main_v7 : Cert.Spec.Sh3.Idx → EReal) (ix3 (lead t) n k) := by
  obtain ⟨-, -, ⟨a0, a1, a2⟩, -⟩ := idx_facts t
  unfold iblk1
  rw [View.read_apply]
  show V c main_v7 _ = V c main_v7 _
  congr 1
  funext a
  apply Fin.ext
  match a with
  | ⟨0, _⟩ => show win1_2.index t (0 : Fin 3) * 1 + 1 * 0 = t.val; rw [a0]; omega
  | ⟨1, _⟩ => show win1_2.index t (1 : Fin 3) * 16384 + 1 * n.val = n.val; rw [a1]; omega
  | ⟨2, _⟩ => show win1_2.index t (2 : Fin 3) * 64 + 1 * k.val = k.val; rw [a2]; omega

/-- What point t writes back is the slab t of `heads` of the three input arrays as the region finds them. -/
theorem flushed_eq (c : Dev nD) (t : Fin cfg1.N) :
    (dat1 (F := Ideal) V c).flushed 3 t
      = ((cfg1.win 3).blk t).view.read (Elt Ideal) (Cert.Spec.heads (V c main_v3) (V c main_v5) (V c main_v7)) := by
  show (cfg1.win 3).cut (grid1.coords t) ((dat1 V c).after 3 t) = _
  rw [after1_3]
  unfold out1_3
  rw [View.canon_unit_zero hz]
  simp only [View.ld_unit_zero (S := S1x16384x64) hz]
  obtain ⟨-, -, -, b0, b1, b2⟩ := idx_facts t
  funext j
  obtain ⟨u, n, e, rfl⟩ : ∃ (u : Fin 1) (n : Fin 16384) (e : Fin 64), j = ix3 u n e := ⟨j 0, j 1, j 2, eq_ix3 j⟩
  obtain rfl : u = 0 := Subsingleton.elim _ _
  rw [View.read_apply]
  have hemb : ((cfg1.win 3).blk t).view.emb (ix3 (0 : Fin 1) n e) = ix3 (lead t) n e := funext fun a => Fin.ext (by
    match a with
    | ⟨0, _⟩ => show win1_3.index t (0 : Fin 3) * 1 + 1 * 0 = t.val; rw [b0]; omega
    | ⟨1, _⟩ => show win1_3.index t (1 : Fin 3) * 16384 + 1 * n.val = n.val; rw [b1]; omega
    | ⟨2, _⟩ => show win1_3.index t (2 : Fin 3) * 64 + 1 * e.val = e.val; rw [b2]; omega)
  rw [hemb]
  exact head_of_slabs (V c main_v3) (V c main_v5) (V c main_v7) (lead t) (iblk1 V c 0 t) (iblk1 V c 1 t) (iblk1 V c 2 t)
    (iblk_0 V c t) (iblk_1 V c t) (iblk_2 V c t) n e

/-- Every entry of the output array lies in the slab of the point whose number is its leading coordinate. -/
theorem covered (i : S64x16384x64.Idx) :
    ∃ t : Fin cfg1.N, (cfg1.win 3).flush t = true ∧ i ∈ ((cfg1.win 3).blk t).view.set := by
  have h0 : (i 0).val < 64 := (i 0).isLt
  have h1 : (i 1).val < 16384 := (i 1).isLt
  have h2 : (i 2).val < 64 := (i 2).isLt
  have ht : (i 0).val < cfg1.N := Nat.lt_of_lt_of_eq h0 N_1.symm
  obtain ⟨-, -, -, b0, b1, b2⟩ := idx_facts ⟨(i 0).val, ht⟩
  have b0' : win1_3.index ⟨(i 0).val, ht⟩ (0 : Fin 3) = (i 0).val := b0
  refine ⟨⟨(i 0).val, ht⟩, flush1_3 _, ?_⟩
  show i ∈ ((View.whole main_v8).slice (win1_3.rect ⟨(i 0).val, ht⟩)).set
  rw [View.set_slice_whole, Rect.mem_set_unit]
  intro a
  match a with
  | ⟨0, _⟩ =>
    show win1_3.index ⟨(i 0).val, ht⟩ (0 : Fin 3) * 1 ≤ (i 0).val ∧ (i 0).val < win1_3.index ⟨(i 0).val, ht⟩ (0 : Fin 3) * 1 + 1
    rw [b0']; omega
  | ⟨1, _⟩ =>
    show win1_3.index ⟨(i 0).val, ht⟩ (1 : Fin 3) * 16384 ≤ (i 1).val ∧ (i 1).val < win1_3.index ⟨(i 0).val, ht⟩ (1 : Fin 3) * 16384 + 16384
    rw [b1]; omega
  | ⟨2, _⟩ =>
    show win1_3.index ⟨(i 0).val, ht⟩ (2 : Fin 3) * 64 ≤ (i 2).val ∧ (i 2).val < win1_3.index ⟨(i 0).val, ht⟩ (2 : Fin 3) * 64 + 64
    rw [b2]; omega

/-- The output array after the region: `heads` of the queries, keys and values as the region finds them. -/
theorem final_heads (c : Dev nD) :
    (dat1 (F := Ideal) V c).arrAt 3 cfg1.N = Cert.Spec.heads (V c main_v3) (V c main_v5) (V c main_v7) :=
  (dat1 (F := Ideal) V c).arrAt_eq_of_cover 3 (Cert.Spec.heads (V c main_v3) (V c main_v5) (V c main_v7))
    (fun t _ => flushed_eq V c t) fun i => covered i

end Cert.KernelIdeal.Heads

end
-- ==== Proof.NormedLayout.lean ====
/-
  Layout operations of a row-wise reduction with the reduced axis kept, read at an entry: a length-a vector viewed as
  an a × 1 column, an a × 1 column repeated along b lanes, and the sum along the lanes of a 4096 × 128 block.
-/
import proofs.«133711_j26079041421695_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Normed

open Idealize.ShloMosaic Idealize.ShloMosaic.ValueIdx
open Cert.KernelIdeal Cert.KernelIdeal.Gen

variable {α : Type}

/-- A length-a vector viewed as an a × 1 column reads, at (p, u), the vector at p: both sit at row-major place p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column repeated along b lanes reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the 128 lanes of a 4096 × 128 block, read at row p. -/
theorem laneSum_apply (src : FVec Ideal S4096x128 .f32) (p : Fin 4096) :
    multiReduction (F := Ideal) .add [1] S4096 src 0x00000000#32 reduces_S4096x128_S4096 (.inl rfl) rfl (ix1 p)
      = ∑ f : Fin 128, src (ix2 p f) := by
  refine (Ideal.multiReduction_add_single src 0x00000000#32 reduces_S4096x128_S4096 (.inl rfl) rfl (ix1 p)).trans ?_
  show ∑ f : Fin 128, src (reduces_S4096x128_S4096.lift (ix1 p) f) = _
  refine Finset.sum_congr rfl fun f _ => congrArg src ?_
  funext ax
  apply Fin.ext
  match ax with
  | ⟨0, _⟩ => rfl
  | ⟨1, _⟩ => rfl

end Cert.KernelIdeal.Normed

end
-- ==== Proof.NormedPay.lean ====
/-
  Region 2's arithmetic at one entry. The body multiplies a 4096 × 512 block of rows by the 512 × 128 matrix into a
  zero accumulator and adds the bias row: entry (p, f) of that is the sum over the 512 shared coordinates of
  block(p, k) · matrix(k, f), plus bias(f). Then, row by row: the mean is the sum along the 128 lanes over 128; the
  variance is the sum along the lanes of the squared deviations over 128; the result is
  gamma(f) · (y(p, f) − mean(p)) · rsqrt(variance(p) + 1e-3) + beta(f). Over the extended reals a change of float
  format is the identity, and the three literals stay as their words.
-/
import proofs.«133711_j26079041421695_2_alg».proof.Proof.Gen.KernelIdeal.Skeleton
import proofs.«133711_j26079041421695_2_alg».proof.Proof.Spec
import proofs.«133711_j26079041421695_2_alg».proof.Proof.NormedLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Normed

open Idealize.ShloMosaic Idealize.ShloMosaic.ValueIdx
open Cert.KernelIdeal Cert.KernelIdeal.Gen

/-- The product's dimension numbers: rows × shared times shared × columns. -/
abbrev D2 : DotDims S4096x512 S512x128 S4096x128 := dot_S4096x512_S512x128_S4096x128_1_0_0_1_n_n

/-- The left operand's index at output entry (p, f) and shared coordinate k is (p, k). -/
theorem lhs_at (p : Fin 4096) (f : Fin 128) (k : Fin 512) :
    D2.lhsIdx (ix2 p f) ((contrEquiv1 D2 512 rfl rfl).symm k) = ix2 p k := by
  have c2 := contrEquiv1_symm_val D2 512 rfl rfl k
  funext ax; apply Fin.ext
  match ax with
  | ⟨0, _⟩ => simp [DotDims.lhsIdx, D2, dot_S4096x512_S512x128_S4096x128_1_0_0_1_n_n]; rfl
  | ⟨1, _⟩ => simp [DotDims.lhsIdx, D2, dot_S4096x512_S512x128_S4096x128_1_0_0_1_n_n]; exact c2

/-- The right operand's index at output entry (p, f) and shared coordinate k is (k, f). -/
theorem rhs_at (p : Fin 4096) (f : Fin 128) (k : Fin 512) :
    D2.rhsIdx (ix2 p f) ((contrEquiv1 D2 512 rfl rfl).symm k) = ix2 k f := by
  have c2 := contrEquiv1_symm_val D2 512 rfl rfl k
  funext ax; apply Fin.ext
  match ax with
  | ⟨0, _⟩ => simp [DotDims.rhsIdx, D2, dot_S4096x512_S512x128_S4096x128_1_0_0_1_n_n]; exact c2
  | ⟨1, _⟩ => simp [DotDims.rhsIdx, D2, dot_S4096x512_S512x128_S4096x128_1_0_0_1_n_n]; rfl

/-- The projected block with the bias added, as the body forms it. -/
def proj (x0 : Vec Ideal S4096x512 .bf16) (x1 : Vec Ideal S512x128 .f32) (x2 : Vec Ideal S1x128 .f32) :
    FVec Ideal S4096x128 .f32 :=
  addf (matmul D2 none (shapeCast S4096x512 x0 shapeCasts_S4096x512_S4096x512 : FVec Ideal S4096x512 .bf16)
      (truncf .bf16 (x1 : FVec Ideal S512x128 .f32) bitsLt_bf16_f32 : FVec Ideal S512x128 .bf16)
      (constant S4096x128 .f32 0x00000000#32))
    (broadcastTo S4096x128 (shapeCast S1x128 x2 shapeCasts_S1x128_S1x128) broadcasts_S1x128_S4096x128)

/-- Its entry (p, f): the sum over the shared coordinate, plus the bias at f. -/
theorem proj_apply (x0 : Vec Ideal S4096x512 .bf16) (x1 : Vec Ideal S512x128 .f32) (x2 : Vec Ideal S1x128 .f32)
    (p : Fin 4096) (f : Fin 128) :
    proj x0 x1 x2 (ix2 p f) = (∑ k : Fin 512, x0 (ix2 p k) * x1 (ix2 k f)) + x2 (ix2 0 f) := by
  unfold proj
  rw [addf_apply]
  refine congrArg₂ (· + ·) ?_ ?_
  · refine (Ideal.matmul_constant_zero_apply D2 none _ _ (ix2 p f)).trans ?_
    rw [← Equiv.sum_comp (contrEquiv1 D2 512 rfl rfl).symm]
    refine Finset.sum_congr rfl fun k _ => ?_
    rw [lhs_at, rhs_at, truncf_apply, shapeCast_self]
  · rw [broadcastTo_1b_ab_apply, shapeCast_self]

/-- The column of row means of a block: the sum along the lanes over 128. -/
def meanCol (y : FVec Ideal S4096x128 .f32) : FVec Ideal S4096x1 .f32 :=
  divf (shapeCast S4096x1
      (multiReduction .add [1] S4096 y 0x00000000#32 reduces_S4096x128_S4096 (.inl rfl) rfl) shapeCasts_S4096_S4096x1)
    (broadcast S4096x1 (Scalar.ofBits .f32 0x43000000#32))

/-- The block's deviations from its row means. -/
def dev (y : FVec Ideal S4096x128 .f32) : FVec Ideal S4096x128 .f32 :=
  subf y (broadcastTo S4096x128 (meanCol y) broadcasts_S4096x1_S4096x128)

/-- The column of row variances: the sum along the lanes of the squared deviations, over 128. -/
def varCol (y : FVec Ideal S4096x128 .f32) : FVec Ideal S4096x1 .f32 :=
  divf (shapeCast S4096x1
      (multiReduction .add [1] S4096 (mulf (dev y) (dev y)) 0x00000000#32 reduces_S4096x128_S4096 (.inl rfl) rfl)
      shapeCasts_S4096_S4096x1)
    (broadcast S4096x1 (Scalar.ofBits .f32 0x43000000#32))

/-- A block of rows normalised as the body does it, from the projected block y and the rows gamma and beta. -/
def normalise (y : FVec Ideal S4096x128 .f32) (g b : Vec Ideal S1x128 .f32) : FVec Ideal S4096x128 .f32 :=
  addf
    (mulf
      (mulf (broadcastTo S4096x128 (shapeCast S1x128 g shapeCasts_S1x128_S1x128) broadcasts_S1x128_S4096x128) (dev y))
      (broadcastTo S4096x128 (rsqrt (addf (varCol y) (broadcast S4096x1 (Scalar.ofBits .f32 0x3A83126F#32))))
        broadcasts_S4096x1_S4096x128))
    (broadcastTo S4096x128 (shapeCast S1x128 b shapeCasts_S1x128_S1x128) broadcasts_S1x128_S4096x128)

/-- The body's stored value is the normalisation of the projected block. -/
theorem pay_eq (x0 : Vec Ideal S4096x512 .bf16) (x1 : Vec Ideal S512x128 .f32) (x2 x3 x4 : Vec Ideal S1x128 .f32) :
    k2_pay1 (F := Ideal) x0 x1 x2 x3 x4 = normalise (proj x0 x1 x2) x3 x4 := by
  unfold k2_pay1 normalise varCol dev meanCol proj
  rfl

/-- The mean column at row p is the mean of the row. -/
theorem meanCol_apply (y : FVec Ideal S4096x128 .f32) (p : Fin 4096) (u : Fin 1) :
    meanCol y (ix2 p u) = Cert.Spec.mean (fun f => y (ix2 p f)) := by
  unfold meanCol
  rw [divf_apply, broadcast_apply, shapeCast_a_a1_apply, laneSum_apply]
  rfl

/-- The deviation at (p, f): the entry less its row's mean. -/
theorem dev_apply (y : FVec Ideal S4096x128 .f32) (p : Fin 4096) (f : Fin 128) :
    dev y (ix2 p f) = y (ix2 p f) - Cert.Spec.mean (fun f' => y (ix2 p f')) := by
  unfold dev
  rw [subf_apply, broadcastTo_a1_ab_apply, meanCol_apply]

/-- The variance column at row p is the biased variance of the row. -/
theorem varCol_apply (y : FVec Ideal S4096x128 .f32) (p : Fin 4096) (u : Fin 1) :
    varCol y (ix2 p u) = Cert.Spec.variance (fun f => y (ix2 p f)) := by
  unfold varCol
  rw [divf_apply, broadcast_apply, shapeCast_a_a1_apply, laneSum_apply]
  simp only [mulf_apply, dev_apply]
  rfl

/-- The normalised block at entry (p, f): the row's layer normalisation at lane f. -/
theorem normalise_apply (y : FVec Ideal S4096x128 .f32) (g b : Vec Ideal S1x128 .f32) (p : Fin 4096) (f : Fin 128) :
    normalise y g b (ix2 p f)
      = Cert.Spec.layerNorm (fun f' => y (ix2 p f')) (fun f' => g (ix2 0 f')) (fun f' => b (ix2 0 f')) f := by
  unfold normalise
  rw [addf_apply, mulf_apply, mulf_apply, broadcastTo_1b_ab_apply, broadcastTo_1b_ab_apply, shapeCast_self,
    shapeCast_self, broadcastTo_a1_ab_apply, dev_apply]
  show _ * _ * FloatOps.rsqrt (varCol y (ix2 p (0 : Fin 1)) + Ideal.ofBits .f32 0x3A83126F#32) + _ = _
  rw [varCol_apply]
  rfl

/-- What the body stores, at entry (p, f): the layer normalisation of the projected row. -/
theorem pay_apply (x0 : Vec Ideal S4096x512 .bf16) (x1 : Vec Ideal S512x128 .f32) (x2 x3 x4 : Vec Ideal S1x128 .f32)
    (p : Fin 4096) (f : Fin 128) :
    k2_pay1 (F := Ideal) x0 x1 x2 x3 x4 (ix2 p f)
      = Cert.Spec.layerNorm (fun f' => (∑ k : Fin 512, x0 (ix2 p k) * x1 (ix2 k f')) + x2 (ix2 0 f'))
          (fun f' => x3 (ix2 0 f')) (fun f' => x4 (ix2 0 f')) f := by
  rw [pay_eq, normalise_apply]
  refine congrArg (fun z => Cert.Spec.layerNorm z (fun f' => x3 (ix2 0 f')) (fun f' => x4 (ix2 0 f')) f) ?_
  funext f'
  exact proj_apply x0 x1 x2 p f'

end Cert.KernelIdeal.Normed

end
-- ==== Proof.NormedBlocks.lean ====
/-
  Region 2's windows at a grid point. The region has 32 points. At point t the row window's block is rows
  4096·t … 4096·t + 4095 of the 131072 × 512 array (all 512 columns); the 512 × 128 matrix and the three 1 × 128 rows
  (bias, gamma, beta) are whole at every point; the output window's block is rows 4096·t … of the 131072 × 128 array.
  An element of a block sits at block index × block extent + its coordinate inside the block, axis by axis.
-/
import proofs.«133711_j26079041421695_2_alg».proof.Proof.Gen.KernelIdeal.Frame
import Idealize.ShloMosaic.Lib.Pipeline.Value
import Idealize.ShloMosaic.Lib.ValueIdx

noncomputable section

namespace Cert.KernelIdeal.Normed

open Idealize.ShloMosaic Idealize.ShloMosaic.TcCoe Idealize.SL.Sem Idealize.ShloMosaic.Pipeline
open Idealize.ShloMosaic.ValueIdx
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The six windows' block indices at every point: the row window and the output move down one block per point and
    stay in column block 0; the matrix and the three rows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row window's block at point t, entry x, is the array at row 4096·t + x₀, column x₁. -/
theorem rows_apply (c : Dev nD) (t : Fin cfg2.N) (x : S4096x512.Idx) (k : S131072x512.Idx)
    (hk0 : (k 0).val = 4096 * t.val + (x 0).val) (hk1 : (k 1).val = (x 1).val) :
    (iblk2 (F := Ideal) V c 0 t : Vec Ideal S4096x512 .bf16) x = (V c main_v11 : S131072x512.Idx → Elt Ideal .bf16) k := by
  obtain ⟨e00, e01, -⟩ := idx_facts t
  unfold iblk2
  rw [View.read_apply]
  show (V c main_v11 : S131072x512.Idx → Elt Ideal .bf16) _ = V c main_v11 _
  refine congrArg _ ?_
  funext a
  apply Fin.ext
  match a with
  | ⟨0, _⟩ => show win2_0.index t (0 : Fin 2) * 4096 + 1 * (x 0).val = (k 0).val; rw [e00, hk0]; omega
  | ⟨1, _⟩ => show win2_0.index t (1 : Fin 2) * 512 + 1 * (x 1).val = (k 1).val; rw [e01, hk1]; omega

/-- The matrix window's block at any point is the whole matrix. -/
theorem matrix_apply (c : Dev nD) (t : Fin cfg2.N) (x : S512x128.Idx) (k : S512x128.Idx)
    (hk0 : (k 0).val = (x 0).val) (hk1 : (k 1).val = (x 1).val) :
    (iblk2 (F := Ideal) V c 1 t : Vec Ideal S512x128 .f32) x = (V c main_arg2 : S512x128.Idx → Elt Ideal .f32) k := by
  obtain ⟨-, -, e10, e11, -⟩ := idx_facts t
  unfold iblk2
  rw [View.read_apply]
  show (V c main_arg2 : S512x128.Idx → Elt Ideal .f32) _ = V c main_arg2 _
  refine congrArg _ ?_
  funext a
  apply Fin.ext
  match a with
  | ⟨0, _⟩ => show win2_1.index t (0 : Fin 2) * 512 + 1 * (x 0).val = (k 0).val; rw [e10, hk0]; omega
  | ⟨1, _⟩ => show win2_1.index t (1 : Fin 2) * 128 + 1 * (x 1).val = (k 1).val; rw [e11, hk1]; omega

/-- The bias window's block at any point is the whole row. -/
theorem bias_apply (c : Dev nD) (t : Fin cfg2.N) (x : S1x128.Idx) (k : S1x128.Idx)
    (hk0 : (k 0).val = (x 0).val) (hk1 : (k 1).val = (x 1).val) :
    (iblk2 (F := Ideal) V c 2 t : Vec Ideal S1x128 .f32) x = (V c main_v12 : S1x128.Idx → Elt Ideal .f32) k := by
  obtain ⟨-, -, -, -, e20, e21, -⟩ := idx_facts t
  unfold iblk2
  rw [View.read_apply]
  show (V c main_v12 : S1x128.Idx → Elt Ideal .f32) _ = V c main_v12 _
  refine congrArg _ ?_
  funext a
  apply Fin.ext
  match a with
  | ⟨0, _⟩ => show win2_2.index t (0 : Fin 2) * 1 + 1 * (x 0).val = (k 0).val; rw [e20, hk0]; omega
  | ⟨1, _⟩ => show win2_2.index t (1 : Fin 2) * 128 + 1 * (x 1).val = (k 1).val; rw [e21, hk1]; omega

/-- The gamma window's block at any point is the whole row. -/
theorem gamma_apply (c : Dev nD) (t : Fin cfg2.N) (x : S1x128.Idx) (k : S1x128.Idx)
    (hk0 : (k 0).val = (x 0).val) (hk1 : (k 1).val = (x 1).val) :
    (iblk2 (F := Ideal) V c 3 t : Vec Ideal S1x128 .f32) x = (V c main_v13 : S1x128.Idx → Elt Ideal .f32) k := by
  obtain ⟨-, -, -, -, -, -, e30, e31, -⟩ := idx_facts t
  unfold iblk2
  rw [View.read_apply]
  show (V c main_v13 : S1x128.Idx → Elt Ideal .f32) _ = V c main_v13 _
  refine congrArg _ ?_
  funext a
  apply Fin.ext
  match a with
  | ⟨0, _⟩ => show win2_3.index t (0 : Fin 2) * 1 + 1 * (x 0).val = (k 0).val; rw [e30, hk0]; omega
  | ⟨1, _⟩ => show win2_3.index t (1 : Fin 2) * 128 + 1 * (x 1).val = (k 1).val; rw [e31, hk1]; omega

/-- The beta window's block at any point is the whole row. -/
theorem beta_apply (c : Dev nD) (t : Fin cfg2.N) (x : S1x128.Idx) (k : S1x128.Idx)
    (hk0 : (k 0).val = (x 0).val) (hk1 : (k 1).val = (x 1).val) :
    (iblk2 (F := Ideal) V c 4 t : Vec Ideal S1x128 .f32) x = (V c main_v14 : S1x128.Idx → Elt Ideal .f32) k := by
  obtain ⟨-, -, -, -, -, -, -, -, e40, e41, -⟩ := idx_facts t
  unfold iblk2
  rw [View.read_apply]
  show (V c main_v14 : S1x128.Idx → Elt Ideal .f32) _ = V c main_v14 _
  refine congrArg _ ?_
  funext a
  apply Fin.ext
  match a with
  | ⟨0, _⟩ => show win2_4.index t (0 : Fin 2) * 1 + 1 * (x 0).val = (k 0).val; rw [e40, hk0]; omega
  | ⟨1, _⟩ => show win2_4.index t (1 : Fin 2) * 128 + 1 * (x 1).val = (k 1).val; rw [e41, hk1]; omega

end Cert.KernelIdeal.Normed

end
-- ==== Proof.NormedValue.lean ====
/-
  What region 2 leaves in its output array, for any contents of the arrays it reads. Row r of the 131072 × 128 output
  lies in the block of point r / 4096; there the body stored the layer normalisation of the projected rows of its
  input block, whose row p is the input's row 4096·t + p; the matrix, the bias, gamma and beta are read whole. So the
  array is the projection plus bias, normalised row by row, entry by entry.
-/
import proofs.«133711_j26079041421695_2_alg».proof.Proof.Gen.KernelIdeal.Frame
import proofs.«133711_j26079041421695_2_alg».proof.Proof.Spec
import proofs.«133711_j26079041421695_2_alg».proof.Proof.NormedPay
import proofs.«133711_j26079041421695_2_alg».proof.Proof.NormedBlocks
import Idealize.ShloMosaic.Lib.Pipeline.Value
import Idealize.ShloMosaic.Lib.ValueIdx

noncomputable section

namespace Cert.KernelIdeal.Normed

open Idealize.ShloMosaic Idealize.ShloMosaic.TcCoe Idealize.SL.Sem Idealize.ShloMosaic.Pipeline
open Idealize.ShloMosaic.ValueIdx
open Cert.KernelIdeal Cert.KernelIdeal.Gen

variable (V : (c : Dev nD) → (b : Ref sig .tc) → Buf (Elt Ideal) ((c : Thread nD τ).loc b))

/-- The layer normalisation of a row depends only on the row's, gamma's and beta's entries and on the lane. -/
theorem layerNorm_congr {z z' g g' b b' : Fin 128 → EReal} {f f' : Fin 128} (hz : ∀ x, z x = z' x)
    (hg : ∀ x, g x = g' x) (hb : ∀ x, b x = b' x) (hf : f = f') :
    Cert.Spec.layerNorm z g b f = Cert.Spec.layerNorm z' g' b' f' := by
  rw [funext hz, funext hg, funext hb, hf]

/-- What point t writes back through the output window is block t of the normalised projection. -/
theorem flushed_normed (c : Dev nD) (t : Fin cfg2.N) :
    (dat2 (F := Ideal) V c).flushed 5 t
      = ((cfg2.win 5).blk t).view.read (Elt Ideal)
          (Cert.Spec.normed (V c main_v11) (V c main_arg2) (V c main_v12) (V c main_v13) (V c main_v14)) := by
  show (cfg2.win 5).cut (grid2.coords t) ((dat2 (F := Ideal) V c).after 5 t) = _
  rw [after2_5]
  unfold out2_5
  rw [View.canon_unit_zero hz]
  simp only [View.ld_unit_zero (S := S4096x512) hz, View.ld_unit_zero (S := S512x128) hz,
    View.ld_unit_zero (S := S1x128) hz]
  obtain ⟨-, -, -, -, -, -, -, -, -, -, e50, e51⟩ := idx_facts t
  funext j
  obtain ⟨p, f, rfl⟩ : ∃ (p : Fin 4096) (f : Fin 128), j = ix2 p f := ⟨j 0, j 1, eq_ix2 j⟩
  have h0 : ((((cfg2.win 5).blk t).view.emb (ix2 p f)) 0).val = 4096 * t.val + p.val := by
    show win2_5.index t (0 : Fin 2) * 4096 + 1 * p.val = _; rw [e50]; omega
  have h1 : ((((cfg2.win 5).blk t).view.emb (ix2 p f)) 1).val = f.val := by
    show win2_5.index t (1 : Fin 2) * 128 + 1 * f.val = _; rw [e51]; omega
  show k2_pay1 (F := Ideal) (iblk2 V c 0 t) (iblk2 V c 1 t) (iblk2 V c 2 t) (iblk2 V c 3 t) (iblk2 V c 4 t) (ix2 p f)
    = Cert.Spec.normed (V c main_v11) (V c main_arg2) (V c main_v12) (V c main_v13) (V c main_v14)
        (((cfg2.win 5).blk t).view.emb (ix2 p f))
  refine (pay_apply (iblk2 V c 0 t) (iblk2 V c 1 t) (iblk2 V c 2 t) (iblk2 V c 3 t) (iblk2 V c 4 t) p f).trans ?_
  unfold Cert.Spec.normed
  refine layerNorm_congr (fun f' => ?_) (fun f' => gamma_apply V c t (ix2 0 f') _ rfl rfl)
    (fun f' => beta_apply V c t (ix2 0 f') _ rfl rfl) (Fin.ext h1.symm)
  unfold Cert.Spec.project
  refine congrArg₂ (fun a b : EReal => a + b) (Finset.sum_congr rfl fun k _ => ?_)
    (bias_apply V c t (ix2 0 f') _ rfl rfl)
  exact congrArg₂ (fun a b : EReal => a * b) (rows_apply V c t (ix2 p k) _ h0 rfl)
    (matrix_apply V c t (ix2 k f') _ rfl rfl)

/-- An index of the array lies in point t's block iff each coordinate lies in the block's range on its axis. -/
theorem mem_blk_normed (t : Fin cfg2.N) (i : S131072x128.Idx) :
    i ∈ ((cfg2.win 5).blk t).view.set ↔ ∀ a : Fin 2, win2_5.index t a * S4096x128.size a ≤ (i a).val
      ∧ (i a).val < win2_5.index t a * S4096x128.size a + S4096x128.size a := by
  show i ∈ ((View.whole main_v15).slice (win2_5.rect t)).set ↔ _
  rw [View.set_slice_whole, Rect.mem_set_unit]
  exact Iff.rfl

/-- Row r of the array lies in the block of point r / 4096. -/
theorem cover_normed (i : S131072x128.Idx) :
    ∃ t : Fin cfg2.N, (cfg2.win 5).flush t = true ∧ i ∈ ((cfg2.win 5).blk t).view.set := by
  have hi0 : (i 0).val < 131072 := idx2_lt0 i
  have hi1 : (i 1).val < 128 := idx2_lt1 i
  have hN : cfg2.N = 32 := N_2
  have ht : (i 0).val / 4096 < cfg2.N := by rw [hN]; omega
  obtain ⟨-, -, -, -, -, -, -, -, -, -, e50, e51⟩ := idx_facts ⟨(i 0).val / 4096, ht⟩
  refine ⟨⟨(i 0).val / 4096, ht⟩, flush2_5 _, ?_⟩
  rw [mem_blk_normed]
  intro a
  match a with
  | ⟨0, _⟩ =>
    show win2_5.index ⟨(i 0).val / 4096, ht⟩ (0 : Fin 2) * 4096 ≤ (i 0).val
      ∧ (i 0).val < win2_5.index ⟨(i 0).val / 4096, ht⟩ (0 : Fin 2) * 4096 + 4096
    rw [e50]; show (i 0).val / 4096 * 4096 ≤ (i 0).val ∧ (i 0).val < (i 0).val / 4096 * 4096 + 4096; omega
  | ⟨1, _⟩ =>
    show win2_5.index ⟨(i 0).val / 4096, ht⟩ (1 : Fin 2) * 128 ≤ (i 1).val
      ∧ (i 1).val < win2_5.index ⟨(i 0).val / 4096, ht⟩ (1 : Fin 2) * 128 + 128
    rw [e51]; omega

/-- The array region 2 writes ends holding the projection plus bias of every row, normalised. -/
theorem final_normed (c : Dev nD) :
    (dat2 (F := Ideal) V c).arrAt 5 cfg2.N
      = Cert.Spec.normed (V c main_v11) (V c main_arg2) (V c main_v12) (V c main_v13) (V c main_v14) :=
  (dat2 (F := Ideal) V c).arrAt_eq_of_cover 5
    (Cert.Spec.normed (V c main_v11) (V c main_arg2) (V c main_v12) (V c main_v13) (V c main_v14))
    (fun t _ => flushed_normed V c t) cover_normed

end Cert.KernelIdeal.Normed

end
-- ==== Proof.RefRunList.lean ====
/- A table and nothing else: the 89 host operations of the reference's @main in program order, each copied from its line of the
   printed program, the call of the variance helper replaced by that helper's 20 operations over the call's buffer record and
   the select helper's 3 over the nested record; and the same list cut in three consecutive stretches of 7, 38 and 44.
   What is proved about these lists is in the modules that import this one. -/
import proofs.«133711_j26079041421695_2_alg».proof.Proof.RefOps
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The operations of @main in program order, both helper calls replaced by the helpers' operations. -/
abbrev ops : List (HloOp τ sig (Elt F)) :=
  [ binary main_arg0 main_arg1 main_v0 ((fun l r => Host.dotGeneral dot_S8x16x32x32x128_S128x1536_S8x16x32x32x1536_4_0_0123_1_n_n none l r) : (⟨S8x16x32x32x128, .f32⟩ : BufTy).Contents (Elt F) → (⟨S128x1536, .f32⟩ : BufTy).Contents (Elt F) → (⟨S8x16x32x32x1536, .f32⟩ : BufTy).Contents (Elt F)),
    unary main_v0 main_v1 ((extractStridedSlice S8x16x32x32x512 ![0, 0, 0, 0, 0] · slices_S8x16x32x32x1536_S8x16x32x32x512_0_0_0_0_0) : (⟨S8x16x32x32x1536, .f32⟩ : BufTy).Contents (Elt F) → (⟨S8x16x32x32x512, .f32⟩ : BufTy).Contents (Elt F)),
    unary main_v0 main_v2 ((extractStridedSlice S8x16x32x32x512 ![0, 0, 0, 0, 512] · slices_S8x16x32x32x1536_S8x16x32x32x512_0_0_0_0_512) : (⟨S8x16x32x32x1536, .f32⟩ : BufTy).Contents (Elt F) → (⟨S8x16x32x32x512, .f32⟩ : BufTy).Contents (Elt F)),
    unary main_v0 main_v3 ((extractStridedSlice S8x16x32x32x512 ![0, 0, 0, 0, 1024] · slices_S8x16x32x32x1536_S8x16x32x32x512_0_0_0_0_1024) : (⟨S8x16x32x32x1536, .f32⟩ : BufTy).Contents (Elt F) → (⟨S8x16x32x32x512, .f32⟩ : BufTy).Contents (Elt F)),
    reshape main_v1 main_v4 rfl shapeCasts_S8x16x32x32x512_S8x8x16384x64,
    reshape main_v2 main_v5 rfl shapeCasts_S8x16x32x32x512_S8x8x16384x64,
    reshape main_v3 main_v6 rfl shapeCasts_S8x16x32x32x512_S8x8x16384x64,
    nullary main_cst (constant S_ .f32 0xFF800000#32),
    binary main_v4 main_cst main_v7 ((fun x v => Host.reduce FloatOps.maximumf x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    nullary main_cst_0 (constant S_ .f32 0xFF800000#32),
    unary main_cst_0 main_v8 (broadcastInDim S8x8x16384 ![] bcast_S_S8x8x16384 : (⟨S_, .f32⟩ : BufTy).Contents (Elt F) → (⟨S8x8x16384, .f32⟩ : BufTy).Contents (Elt F)),
    binary main_v8 main_v7 main_v9 (maximumf : (⟨S8x8x16384, .f32⟩ : BufTy).Contents (Elt F) → (⟨S8x8x16384, .f32⟩ : BufTy).Contents (Elt F) → (⟨S8x8x16384, .f32⟩ : BufTy).Contents (Elt F)),
    unary main_v9 main_v10 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v10 main_v11 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v4 main_v11 main_v12 (subf : (⟨S8x8x16384x64, .f32⟩ : BufTy).Contents (Elt F) → (⟨S8x8x16384x64, .f32⟩ : BufTy).Contents (Elt F) → (⟨S8x8x16384x64, .f32⟩ : BufTy).Contents (Elt F)),
    unary main_v12 main_v13 (Host.exp : (⟨S8x8x16384x64, .f32⟩ : BufTy).Contents (Elt F) → (⟨S8x8x16384x64, .f32⟩ : BufTy).Contents (Elt F)),
    nullary main_cst_1 (constant S_ .f32 0x00000000#32),
    binary main_v13 main_cst_1 main_v14 ((fun x v => Host.reduceAdd x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    unary main_v14 main_v15 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v15 main_v16 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v13 main_v16 main_v17 (Host.divf : (⟨S8x8x16384x64, .f32⟩ : BufTy).Contents (Elt F) → (⟨S8x8x16384x64, .f32⟩ : BufTy).Contents (Elt F) → (⟨S8x8x16384x64, .f32⟩ : BufTy).Contents (Elt F)),
    nullary main_cst_2 (constant S_ .f32 0x3E000000#32),
    unary main_cst_2 main_v18 (broadcastInDim S8x8x16384x64 ![] bcast_S_S8x8x16384x64 : (⟨S_, .f32⟩ : BufTy).Contents (Elt F) → (⟨S8x8x16384x64, .f32⟩ : BufTy).Contents (Elt F)),
    binary main_v17 main_v18 main_v19 (mulf : (⟨S8x8x16384x64, .f32⟩ : BufTy).Contents (Elt F) → (⟨S8x8x16384x64, .f32⟩ : BufTy).Contents (Elt F) → (⟨S8x8x16384x64, .f32⟩ : BufTy).Contents (Elt F)),
    nullary main_cst_3 (constant S_ .f32 0xFF800000#32),
    binary main_v5 main_cst_3 main_v20 ((fun x v => Host.reduce FloatOps.maximumf x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    nullary main_cst_4 (constant S_ .f32 0xFF800000#32),
    unary main_cst_4 main_v21 (broadcastInDim S8x8x16384 ![] bcast_S_S8x8x16384 : (⟨S_, .f32⟩ : BufTy).Contents (Elt F) → (⟨S8x8x16384, .f32⟩ : BufTy).Contents (Elt F)),
    binary main_v21 main_v20 main_v22 (maximumf : (⟨S8x8x16384, .f32⟩ : BufTy).Contents (Elt F) → (⟨S8x8x16384, .f32⟩ : BufTy).Contents (Elt F) → (⟨S8x8x16384, .f32⟩ : BufTy).Contents (Elt F)),
    unary main_v22 main_v23 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v23 main_v24 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v5 main_v24 main_v25 (subf : (⟨S8x8x16384x64, .f32⟩ : BufTy).Contents (Elt F) → (⟨S8x8x16384x64, .f32⟩ : BufTy).Contents (Elt F) → (⟨S8x8x16384x64, .f32⟩ : BufTy).Contents (Elt F)),
    unary main_v25 main_v26 (Host.exp : (⟨S8x8x16384x64, .f32⟩ : BufTy).Contents (Elt F) → (⟨S8x8x16384x64, .f32⟩ : BufTy).Contents (Elt F)),
    nullary main_cst_5 (constant S_ .f32 0x00000000#32),
    binary main_v26 main_cst_5 main_v27 ((fun x v => Host.reduceAdd x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    unary main_v27 main_v28 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v28 main_v29 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v26 main_v29 main_v30 (Host.divf : (⟨S8x8x16384x64, .f32⟩ : BufTy).Contents (Elt F) → (⟨S8x8x16384x64, .f32⟩ : BufTy).Contents (Elt F) → (⟨S8x8x16384x64, .f32⟩ : BufTy).Contents (Elt F)),
    binary main_v30 main_v6 main_v31 ((fun l r => Host.dotGeneral dot_S8x8x16384x64_S8x8x16384x64_S8x8x64x64_2_2_3_3_01_01 none l r) : (⟨S8x8x16384x64, .f32⟩ : BufTy).Contents (Elt F) → (⟨S8x8x16384x64, .f32⟩ : BufTy).Contents (Elt F) → (⟨S8x8x64x64, .f32⟩ : BufTy).Contents (Elt F)),
    binary main_v19 main_v31 main_v32 ((fun l r => Host.dotGeneral dot_S8x8x16384x64_S8x8x64x64_S8x8x16384x64_3_2_2_3_01_01 none l r) : (⟨S8x8x16384x64, .f32⟩ : BufTy).Contents (Elt F) → (⟨S8x8x64x64, .f32⟩ : BufTy).Contents (Elt F) → (⟨S8x8x16384x64, .f32⟩ : BufTy).Contents (Elt F)),
    reshape main_v32 main_v33 rfl shapeCasts_S8x8x16384x64_S8x16x32x32x512,
    binary main_v33 main_arg2 main_v34 ((fun l r => Host.dotGeneral dot_S8x16x32x32x512_S512x128_S8x16x32x32x128_4_0_0123_1_n_n none l r) : (⟨S8x16x32x32x512, .f32⟩ : BufTy).Contents (Elt F) → (⟨S512x128, .f32⟩ : BufTy).Contents (Elt F) → (⟨S8x16x32x32x128, .f32⟩ : BufTy).Contents (Elt F)),
    unary main_arg3 main_v35 (broadcastInDim S1x1x1x1x128 ![4] bcast_S128_S1x1x1x1x128_4 : (⟨S128, .f32⟩ : BufTy).Contents (Elt F) → (⟨S1x1x1x1x128, .f32⟩ : BufTy).Contents (Elt F)),
    unary main_v35 main_v36 (broadcastInDim S8x16x32x32x128 ![0, 1, 2, 3, 4] bcast_S1x1x1x1x128_S8x16x32x32x128_0_1_2_3_4 : (⟨S1x1x1x1x128, .f32⟩ : BufTy).Contents (Elt F) → (⟨S8x16x32x32x128, .f32⟩ : BufTy).Contents (Elt F)),
    binary main_v34 main_v36 main_v37 (addf : (⟨S8x16x32x32x128, .f32⟩ : BufTy).Contents (Elt F) → (⟨S8x16x32x32x128, .f32⟩ : BufTy).Contents (Elt F) → (⟨S8x16x32x32x128, .f32⟩ : BufTy).Contents (Elt F)),
    nullary main_cst_6 (constant S_ .f32 0x00000000#32),
    binary main_v37 main_cst_6 main_v38 ((fun x v => Host.reduceAdd x v reducesTo_S8x16x32x32x128_S8x16x32x32_d4 h_S_) : (⟨S8x16x32x32x128, .f32⟩ : BufTy).Contents (Elt F) → (⟨S_, .f32⟩ : BufTy).Contents (Elt F) → (⟨S8x16x32x32, .f32⟩ : BufTy).Contents (Elt F)),
    unary main_v38 main_v39 (broadcastInDim S8x16x32x32x1 ![0, 1, 2, 3] bcast_S8x16x32x32_S8x16x32x32x1_0_1_2_3 : (⟨S8x16x32x32, .f32⟩ : BufTy).Contents (Elt F) → (⟨S8x16x32x32x1, .f32⟩ : BufTy).Contents (Elt F)),
    nullary main_cst_7 (constant S_ .f32 0x43000000#32),
    unary main_cst_7 main_v40 (broadcastInDim S8x16x32x32x1 ![] bcast_S_S8x16x32x32x1 : (⟨S_, .f32⟩ : BufTy).Contents (Elt F) → (⟨S8x16x32x32x1, .f32⟩ : BufTy).Contents (Elt F)),
    binary main_v39 main_v40 main_v41 (Host.divf : (⟨S8x16x32x32x1, .f32⟩ : BufTy).Contents (Elt F) → (⟨S8x16x32x32x1, .f32⟩ : BufTy).Contents (Elt F) → (⟨S8x16x32x32x1, .f32⟩ : BufTy).Contents (Elt F)),
    nullary main_c (constantI S_ 32 0#32),
    TRef.nullary main_call0.cst (constant S_ .f32 0x00000000#32),
    TRef.binary (.of main_v37 : TRef sig ⟨S8x16x32x32x128, .f32⟩) main_call0.cst main_call0.v0 (fun x v => Host.reduceAdd x v reducesTo_S8x16x32x32x128_S8x16x32x32_d4 h_S_),
    TRef.unary main_call0.v0 main_call0.v1 (broadcastInDim S8x16x32x32x1 ![0, 1, 2, 3] bcast_S8x16x32x32_S8x16x32x32x1_0_1_2_3),
    TRef.nullary main_call0.cst_0 (constant S_ .f32 0x43000000#32),
    TRef.unary main_call0.cst_0 main_call0.v2 (broadcastInDim S8x16x32x32x1 ![] bcast_S_S8x16x32x32x1),
    TRef.binary main_call0.v1 main_call0.v2 main_call0.v3 Host.divf,
    TRef.unary main_call0.v3 main_call0.v4 (broadcastInDim S8x16x32x32x128 ![0, 1, 2, 3, 4] bcast_S8x16x32x32x1_S8x16x32x32x128_0_1_2_3_4),
    TRef.binary (.of main_v37 : TRef sig ⟨S8x16x32x32x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x16x32x32x128_S8x16x32x32_d4 h_S_),
    TRef.unary main_call0.v9 main_call0.v10 (broadcastInDim S8x16x32x32x1 ![0, 1, 2, 3] bcast_S8x16x32x32_S8x16x32x32x1_0_1_2_3),
    TRef.unary main_call0.v8 main_call0.v11 (broadcastInDim S8x16x32x32x1 ![] bcast_S_S8x16x32x32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x16x32x32x1 ![] bcast_S_S8x16x32x32x1),
    TRef.ternary main_call0.v13 main_call0.v12 main_call0.call0.v1 main_call0.call0.v2 (fun p a b => select (broadcastInDim S8x16x32x32x1 ![] bcast_S_S8x16x32x32x1 p) a b),
    unary main_v41 main_v43 (broadcastInDim S8x16x32x32x128 ![0, 1, 2, 3, 4] bcast_S8x16x32x32x1_S8x16x32x32x128_0_1_2_3_4 : (⟨S8x16x32x32x1, .f32⟩ : BufTy).Contents (Elt F) → (⟨S8x16x32x32x128, .f32⟩ : BufTy).Contents (Elt F)),
    binary main_v37 main_v43 main_v44 (subf : (⟨S8x16x32x32x128, .f32⟩ : BufTy).Contents (Elt F) → (⟨S8x16x32x32x128, .f32⟩ : BufTy).Contents (Elt F) → (⟨S8x16x32x32x128, .f32⟩ : BufTy).Contents (Elt F)),
    unary main_arg4 main_v45 (broadcastInDim S1x1x1x1x128 ![4] bcast_S128_S1x1x1x1x128_4 : (⟨S128, .f32⟩ : BufTy).Contents (Elt F) → (⟨S1x1x1x1x128, .f32⟩ : BufTy).Contents (Elt F)),
    unary main_v45 main_v46 (broadcastInDim S8x16x32x32x128 ![0, 1, 2, 3, 4] bcast_S1x1x1x1x128_S8x16x32x32x128_0_1_2_3_4 : (⟨S1x1x1x1x128, .f32⟩ : BufTy).Contents (Elt F) → (⟨S8x16x32x32x128, .f32⟩ : BufTy).Contents (Elt F)),
    binary main_v46 main_v44 main_v47 (mulf : (⟨S8x16x32x32x128, .f32⟩ : BufTy).Contents (Elt F) → (⟨S8x16x32x32x128, .f32⟩ : BufTy).Contents (Elt F) → (⟨S8x16x32x32x128, .f32⟩ : BufTy).Contents (Elt F)),
    nullary main_cst_8 (constant S_ .f32 0x3A83126F#32),
    unary main_cst_8 main_v48 (broadcastInDim S8x16x32x32x1 ![] bcast_S_S8x16x32x32x1 : (⟨S_, .f32⟩ : BufTy).Contents (Elt F) → (⟨S8x16x32x32x1, .f32⟩ : BufTy).Contents (Elt F)),
    binary main_v42 main_v48 main_v49 (addf : (⟨S8x16x32x32x1, .f32⟩ : BufTy).Contents (Elt F) → (⟨S8x16x32x32x1, .f32⟩ : BufTy).Contents (Elt F) → (⟨S8x16x32x32x1, .f32⟩ : BufTy).Contents (Elt F)),
    unary main_v49 main_v50 (Host.rsqrt : (⟨S8x16x32x32x1, .f32⟩ : BufTy).Contents (Elt F) → (⟨S8x16x32x32x1, .f32⟩ : BufTy).Contents (Elt F)),
    unary main_v50 main_v51 (broadcastInDim S8x16x32x32x128 ![0, 1, 2, 3, 4] bcast_S8x16x32x32x1_S8x16x32x32x128_0_1_2_3_4 : (⟨S8x16x32x32x1, .f32⟩ : BufTy).Contents (Elt F) → (⟨S8x16x32x32x128, .f32⟩ : BufTy).Contents (Elt F)),
    binary main_v47 main_v51 main_v52 (mulf : (⟨S8x16x32x32x128, .f32⟩ : BufTy).Contents (Elt F) → (⟨S8x16x32x32x128, .f32⟩ : BufTy).Contents (Elt F) → (⟨S8x16x32x32x128, .f32⟩ : BufTy).Contents (Elt F)),
    unary main_arg5 main_v53 (broadcastInDim S1x1x1x1x128 ![4] bcast_S128_S1x1x1x1x128_4 : (⟨S128, .f32⟩ : BufTy).Contents (Elt F) → (⟨S1x1x1x1x128, .f32⟩ : BufTy).Contents (Elt F)),
    unary main_v53 main_v54 (broadcastInDim S8x16x32x32x128 ![0, 1, 2, 3, 4] bcast_S1x1x1x1x128_S8x16x32x32x128_0_1_2_3_4 : (⟨S1x1x1x1x128, .f32⟩ : BufTy).Contents (Elt F) → (⟨S8x16x32x32x128, .f32⟩ : BufTy).Contents (Elt F)),
    binary main_v52 main_v54 main_v55 (addf : (⟨S8x16x32x32x128, .f32⟩ : BufTy).Contents (Elt F) → (⟨S8x16x32x32x128, .f32⟩ : BufTy).Contents (Elt F) → (⟨S8x16x32x32x128, .f32⟩ : BufTy).Contents (Elt F)) ]

/-- The first 7: the projection, its three column bands, each re-read as heads. -/
abbrev opsA : List (HloOp τ sig (Elt F)) :=
  [ binary main_arg0 main_arg1 main_v0 ((fun l r => Host.dotGeneral dot_S8x16x32x32x128_S128x1536_S8x16x32x32x1536_4_0_0123_1_n_n none l r) : (⟨S8x16x32x32x128, .f32⟩ : BufTy).Contents (Elt F) → (⟨S128x1536, .f32⟩ : BufTy).Contents (Elt F) → (⟨S8x16x32x32x1536, .f32⟩ : BufTy).Contents (Elt F)),
    unary main_v0 main_v1 ((extractStridedSlice S8x16x32x32x512 ![0, 0, 0, 0, 0] · slices_S8x16x32x32x1536_S8x16x32x32x512_0_0_0_0_0) : (⟨S8x16x32x32x1536, .f32⟩ : BufTy).Contents (Elt F) → (⟨S8x16x32x32x512, .f32⟩ : BufTy).Contents (Elt F)),
    unary main_v0 main_v2 ((extractStridedSlice S8x16x32x32x512 ![0, 0, 0, 0, 512] · slices_S8x16x32x32x1536_S8x16x32x32x512_0_0_0_0_512) : (⟨S8x16x32x32x1536, .f32⟩ : BufTy).Contents (Elt F) → (⟨S8x16x32x32x512, .f32⟩ : BufTy).Contents (Elt F)),
    unary main_v0 main_v3 ((extractStridedSlice S8x16x32x32x512 ![0, 0, 0, 0, 1024] · slices_S8x16x32x32x1536_S8x16x32x32x512_0_0_0_0_1024) : (⟨S8x16x32x32x1536, .f32⟩ : BufTy).Contents (Elt F) → (⟨S8x16x32x32x512, .f32⟩ : BufTy).Contents (Elt F)),
    reshape main_v1 main_v4 rfl shapeCasts_S8x16x32x32x512_S8x8x16384x64,
    reshape main_v2 main_v5 rfl shapeCasts_S8x16x32x32x512_S8x8x16384x64,
    reshape main_v3 main_v6 rfl shapeCasts_S8x16x32x32x512_S8x8x16384x64 ]

/-- The next 38: the two softmaxes, the two attention products, the output projection plus bias. -/
abbrev opsB : List (HloOp τ sig (Elt F)) :=
  [ nullary main_cst (constant S_ .f32 0xFF800000#32),
    binary main_v4 main_cst main_v7 ((fun x v => Host.reduce FloatOps.maximumf x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    nullary main_cst_0 (constant S_ .f32 0xFF800000#32),
    unary main_cst_0 main_v8 (broadcastInDim S8x8x16384 ![] bcast_S_S8x8x16384 : (⟨S_, .f32⟩ : BufTy).Contents (Elt F) → (⟨S8x8x16384, .f32⟩ : BufTy).Contents (Elt F)),
    binary main_v8 main_v7 main_v9 (maximumf : (⟨S8x8x16384, .f32⟩ : BufTy).Contents (Elt F) → (⟨S8x8x16384, .f32⟩ : BufTy).Contents (Elt F) → (⟨S8x8x16384, .f32⟩ : BufTy).Contents (Elt F)),
    unary main_v9 main_v10 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v10 main_v11 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v4 main_v11 main_v12 (subf : (⟨S8x8x16384x64, .f32⟩ : BufTy).Contents (Elt F) → (⟨S8x8x16384x64, .f32⟩ : BufTy).Contents (Elt F) → (⟨S8x8x16384x64, .f32⟩ : BufTy).Contents (Elt F)),
    unary main_v12 main_v13 (Host.exp : (⟨S8x8x16384x64, .f32⟩ : BufTy).Contents (Elt F) → (⟨S8x8x16384x64, .f32⟩ : BufTy).Contents (Elt F)),
    nullary main_cst_1 (constant S_ .f32 0x00000000#32),
    binary main_v13 main_cst_1 main_v14 ((fun x v => Host.reduceAdd x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    unary main_v14 main_v15 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v15 main_v16 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v13 main_v16 main_v17 (Host.divf : (⟨S8x8x16384x64, .f32⟩ : BufTy).Contents (Elt F) → (⟨S8x8x16384x64, .f32⟩ : BufTy).Contents (Elt F) → (⟨S8x8x16384x64, .f32⟩ : BufTy).Contents (Elt F)),
    nullary main_cst_2 (constant S_ .f32 0x3E000000#32),
    unary main_cst_2 main_v18 (broadcastInDim S8x8x16384x64 ![] bcast_S_S8x8x16384x64 : (⟨S_, .f32⟩ : BufTy).Contents (Elt F) → (⟨S8x8x16384x64, .f32⟩ : BufTy).Contents (Elt F)),
    binary main_v17 main_v18 main_v19 (mulf : (⟨S8x8x16384x64, .f32⟩ : BufTy).Contents (Elt F) → (⟨S8x8x16384x64, .f32⟩ : BufTy).Contents (Elt F) → (⟨S8x8x16384x64, .f32⟩ : BufTy).Contents (Elt F)),
    nullary main_cst_3 (constant S_ .f32 0xFF800000#32),
    binary main_v5 main_cst_3 main_v20 ((fun x v => Host.reduce FloatOps.maximumf x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    nullary main_cst_4 (constant S_ .f32 0xFF800000#32),
    unary main_cst_4 main_v21 (broadcastInDim S8x8x16384 ![] bcast_S_S8x8x16384 : (⟨S_, .f32⟩ : BufTy).Contents (Elt F) → (⟨S8x8x16384, .f32⟩ : BufTy).Contents (Elt F)),
    binary main_v21 main_v20 main_v22 (maximumf : (⟨S8x8x16384, .f32⟩ : BufTy).Contents (Elt F) → (⟨S8x8x16384, .f32⟩ : BufTy).Contents (Elt F) → (⟨S8x8x16384, .f32⟩ : BufTy).Contents (Elt F)),
    unary main_v22 main_v23 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v23 main_v24 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v5 main_v24 main_v25 (subf : (⟨S8x8x16384x64, .f32⟩ : BufTy).Contents (Elt F) → (⟨S8x8x16384x64, .f32⟩ : BufTy).Contents (Elt F) → (⟨S8x8x16384x64, .f32⟩ : BufTy).Contents (Elt F)),
    unary main_v25 main_v26 (Host.exp : (⟨S8x8x16384x64, .f32⟩ : BufTy).Contents (Elt F) → (⟨S8x8x16384x64, .f32⟩ : BufTy).Contents (Elt F)),
    nullary main_cst_5 (constant S_ .f32 0x00000000#32),
    binary main_v26 main_cst_5 main_v27 ((fun x v => Host.reduceAdd x v reducesTo_S8x8x16384x64_S8x8x16384_d3 h_S_) : (⟨S8x8x16384x64, .f32⟩ : BufTy).Contents (Elt F) → (⟨S_, .f32⟩ : BufTy).Contents (Elt F) → (⟨S8x8x16384, .f32⟩ : BufTy).Contents (Elt F)),
    unary main_v27 main_v28 (broadcastInDim S8x8x16384x1 ![0, 1, 2] bcast_S8x8x16384_S8x8x16384x1_0_1_2 : (⟨S8x8x16384, .f32⟩ : BufTy).Contents (Elt F) → (⟨S8x8x16384x1, .f32⟩ : BufTy).Contents (Elt F)),
    unary main_v28 main_v29 (broadcastInDim S8x8x16384x64 ![0, 1, 2, 3] bcast_S8x8x16384x1_S8x8x16384x64_0_1_2_3 : (⟨S8x8x16384x1, .f32⟩ : BufTy).Contents (Elt F) → (⟨S8x8x16384x64, .f32⟩ : BufTy).Contents (Elt F)),
    binary main_v26 main_v29 main_v30 (Host.divf : (⟨S8x8x16384x64, .f32⟩ : BufTy).Contents (Elt F) → (⟨S8x8x16384x64, .f32⟩ : BufTy).Contents (Elt F) → (⟨S8x8x16384x64, .f32⟩ : BufTy).Contents (Elt F)),
    binary main_v30 main_v6 main_v31 ((fun l r => Host.dotGeneral dot_S8x8x16384x64_S8x8x16384x64_S8x8x64x64_2_2_3_3_01_01 none l r) : (⟨S8x8x16384x64, .f32⟩ : BufTy).Contents (Elt F) → (⟨S8x8x16384x64, .f32⟩ : BufTy).Contents (Elt F) → (⟨S8x8x64x64, .f32⟩ : BufTy).Contents (Elt F)),
    binary main_v19 main_v31 main_v32 ((fun l r => Host.dotGeneral dot_S8x8x16384x64_S8x8x64x64_S8x8x16384x64_3_2_2_3_01_01 none l r) : (⟨S8x8x16384x64, .f32⟩ : BufTy).Contents (Elt F) → (⟨S8x8x64x64, .f32⟩ : BufTy).Contents (Elt F) → (⟨S8x8x16384x64, .f32⟩ : BufTy).Contents (Elt F)),
    reshape main_v32 main_v33 rfl shapeCasts_S8x8x16384x64_S8x16x32x32x512,
    binary main_v33 main_arg2 main_v34 ((fun l r => Host.dotGeneral dot_S8x16x32x32x512_S512x128_S8x16x32x32x128_4_0_0123_1_n_n none l r) : (⟨S8x16x32x32x512, .f32⟩ : BufTy).Contents (Elt F) → (⟨S512x128, .f32⟩ : BufTy).Contents (Elt F) → (⟨S8x16x32x32x128, .f32⟩ : BufTy).Contents (Elt F)),
    unary main_arg3 main_v35 (broadcastInDim S1x1x1x1x128 ![4] bcast_S128_S1x1x1x1x128_4 : (⟨S128, .f32⟩ : BufTy).Contents (Elt F) → (⟨S1x1x1x1x128, .f32⟩ : BufTy).Contents (Elt F)),
    unary main_v35 main_v36 (broadcastInDim S8x16x32x32x128 ![0, 1, 2, 3, 4] bcast_S1x1x1x1x128_S8x16x32x32x128_0_1_2_3_4 : (⟨S1x1x1x1x128, .f32⟩ : BufTy).Contents (Elt F) → (⟨S8x16x32x32x128, .f32⟩ : BufTy).Contents (Elt F)),
    binary main_v34 main_v36 main_v37 (addf : (⟨S8x16x32x32x128, .f32⟩ : BufTy).Contents (Elt F) → (⟨S8x16x32x32x128, .f32⟩ : BufTy).Contents (Elt F) → (⟨S8x16x32x32x128, .f32⟩ : BufTy).Contents (Elt F)) ]

/-- The last 44: the row mean, the variance helper's 23, the normalisation. -/
abbrev opsC : List (HloOp τ sig (Elt F)) :=
  [ nullary main_cst_6 (constant S_ .f32 0x00000000#32),
    binary main_v37 main_cst_6 main_v38 ((fun x v => Host.reduceAdd x v reducesTo_S8x16x32x32x128_S8x16x32x32_d4 h_S_) : (⟨S8x16x32x32x128, .f32⟩ : BufTy).Contents (Elt F) → (⟨S_, .f32⟩ : BufTy).Contents (Elt F) → (⟨S8x16x32x32, .f32⟩ : BufTy).Contents (Elt F)),
    unary main_v38 main_v39 (broadcastInDim S8x16x32x32x1 ![0, 1, 2, 3] bcast_S8x16x32x32_S8x16x32x32x1_0_1_2_3 : (⟨S8x16x32x32, .f32⟩ : BufTy).Contents (Elt F) → (⟨S8x16x32x32x1, .f32⟩ : BufTy).Contents (Elt F)),
    nullary main_cst_7 (constant S_ .f32 0x43000000#32),
    unary main_cst_7 main_v40 (broadcastInDim S8x16x32x32x1 ![] bcast_S_S8x16x32x32x1 : (⟨S_, .f32⟩ : BufTy).Contents (Elt F) → (⟨S8x16x32x32x1, .f32⟩ : BufTy).Contents (Elt F)),
    binary main_v39 main_v40 main_v41 (Host.divf : (⟨S8x16x32x32x1, .f32⟩ : BufTy).Contents (Elt F) → (⟨S8x16x32x32x1, .f32⟩ : BufTy).Contents (Elt F) → (⟨S8x16x32x32x1, .f32⟩ : BufTy).Contents (Elt F)),
    nullary main_c (constantI S_ 32 0#32),
    TRef.nullary main_call0.cst (constant S_ .f32 0x00000000#32),
    TRef.binary (.of main_v37 : TRef sig ⟨S8x16x32x32x128, .f32⟩) main_call0.cst main_call0.v0 (fun x v => Host.reduceAdd x v reducesTo_S8x16x32x32x128_S8x16x32x32_d4 h_S_),
    TRef.unary main_call0.v0 main_call0.v1 (broadcastInDim S8x16x32x32x1 ![0, 1, 2, 3] bcast_S8x16x32x32_S8x16x32x32x1_0_1_2_3),
    TRef.nullary main_call0.cst_0 (constant S_ .f32 0x43000000#32),
    TRef.unary main_call0.cst_0 main_call0.v2 (broadcastInDim S8x16x32x32x1 ![] bcast_S_S8x16x32x32x1),
    TRef.binary main_call0.v1 main_call0.v2 main_call0.v3 Host.divf,
    TRef.unary main_call0.v3 main_call0.v4 (broadcastInDim S8x16x32x32x128 ![0, 1, 2, 3, 4] bcast_S8x16x32x32x1_S8x16x32x32x128_0_1_2_3_4),
    TRef.binary (.of main_v37 : TRef sig ⟨S8x16x32x32x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x16x32x32x128_S8x16x32x32_d4 h_S_),
    TRef.unary main_call0.v9 main_call0.v10 (broadcastInDim S8x16x32x32x1 ![0, 1, 2, 3] bcast_S8x16x32x32_S8x16x32x32x1_0_1_2_3),
    TRef.unary main_call0.v8 main_call0.v11 (broadcastInDim S8x16x32x32x1 ![] bcast_S_S8x16x32x32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x16x32x32x1 ![] bcast_S_S8x16x32x32x1),
    TRef.ternary main_call0.v13 main_call0.v12 main_call0.call0.v1 main_call0.call0.v2 (fun p a b => select (broadcastInDim S8x16x32x32x1 ![] bcast_S_S8x16x32x32x1 p) a b),
    unary main_v41 main_v43 (broadcastInDim S8x16x32x32x128 ![0, 1, 2, 3, 4] bcast_S8x16x32x32x1_S8x16x32x32x128_0_1_2_3_4 : (⟨S8x16x32x32x1, .f32⟩ : BufTy).Contents (Elt F) → (⟨S8x16x32x32x128, .f32⟩ : BufTy).Contents (Elt F)),
    binary main_v37 main_v43 main_v44 (subf : (⟨S8x16x32x32x128, .f32⟩ : BufTy).Contents (Elt F) → (⟨S8x16x32x32x128, .f32⟩ : BufTy).Contents (Elt F) → (⟨S8x16x32x32x128, .f32⟩ : BufTy).Contents (Elt F)),
    unary main_arg4 main_v45 (broadcastInDim S1x1x1x1x128 ![4] bcast_S128_S1x1x1x1x128_4 : (⟨S128, .f32⟩ : BufTy).Contents (Elt F) → (⟨S1x1x1x1x128, .f32⟩ : BufTy).Contents (Elt F)),
    unary main_v45 main_v46 (broadcastInDim S8x16x32x32x128 ![0, 1, 2, 3, 4] bcast_S1x1x1x1x128_S8x16x32x32x128_0_1_2_3_4 : (⟨S1x1x1x1x128, .f32⟩ : BufTy).Contents (Elt F) → (⟨S8x16x32x32x128, .f32⟩ : BufTy).Contents (Elt F)),
    binary main_v46 main_v44 main_v47 (mulf : (⟨S8x16x32x32x128, .f32⟩ : BufTy).Contents (Elt F) → (⟨S8x16x32x32x128, .f32⟩ : BufTy).Contents (Elt F) → (⟨S8x16x32x32x128, .f32⟩ : BufTy).Contents (Elt F)),
    nullary main_cst_8 (constant S_ .f32 0x3A83126F#32),
    unary main_cst_8 main_v48 (broadcastInDim S8x16x32x32x1 ![] bcast_S_S8x16x32x32x1 : (⟨S_, .f32⟩ : BufTy).Contents (Elt F) → (⟨S8x16x32x32x1, .f32⟩ : BufTy).Contents (Elt F)),
    binary main_v42 main_v48 main_v49 (addf : (⟨S8x16x32x32x1, .f32⟩ : BufTy).Contents (Elt F) → (⟨S8x16x32x32x1, .f32⟩ : BufTy).Contents (Elt F) → (⟨S8x16x32x32x1, .f32⟩ : BufTy).Contents (Elt F)),
    unary main_v49 main_v50 (Host.rsqrt : (⟨S8x16x32x32x1, .f32⟩ : BufTy).Contents (Elt F) → (⟨S8x16x32x32x1, .f32⟩ : BufTy).Contents (Elt F)),
    unary main_v50 main_v51 (broadcastInDim S8x16x32x32x128 ![0, 1, 2, 3, 4] bcast_S8x16x32x32x1_S8x16x32x32x128_0_1_2_3_4 : (⟨S8x16x32x32x1, .f32⟩ : BufTy).Contents (Elt F) → (⟨S8x16x32x32x128, .f32⟩ : BufTy).Contents (Elt F)),
    binary main_v47 main_v51 main_v52 (mulf : (⟨S8x16x32x32x128, .f32⟩ : BufTy).Contents (Elt F) → (⟨S8x16x32x32x128, .f32⟩ : BufTy).Contents (Elt F) → (⟨S8x16x32x32x128, .f32⟩ : BufTy).Contents (Elt F)),
    unary main_arg5 main_v53 (broadcastInDim S1x1x1x1x128 ![4] bcast_S128_S1x1x1x1x128_4 : (⟨S128, .f32⟩ : BufTy).Contents (Elt F) → (⟨S1x1x1x1x128, .f32⟩ : BufTy).Contents (Elt F)),
    unary main_v53 main_v54 (broadcastInDim S8x16x32x32x128 ![0, 1, 2, 3, 4] bcast_S1x1x1x1x128_S8x16x32x32x128_0_1_2_3_4 : (⟨S1x1x1x1x128, .f32⟩ : BufTy).Contents (Elt F) → (⟨S8x16x32x32x128, .f32⟩ : BufTy).Contents (Elt F)),
    binary main_v52 main_v54 main_v55 (addf : (⟨S8x16x32x32x128, .f32⟩ : BufTy).Contents (Elt F) → (⟨S8x16x32x32x128, .f32⟩ : BufTy).Contents (Elt F) → (⟨S8x16x32x32x128, .f32⟩ : BufTy).Contents (Elt F)) ]

end Cert.ReferenceIdeal.RefRun

end
-- ==== Proof.RefRunOps.lean ====
/-
  The reference's @main is a straight line, and the run of a straight line.

  @main runs two windows in order; the first calls the outlined variance helper, whose body ends by calling the
  outlined select helper. Sequencing in the program monad is grafting a continuation onto every leaf, so it computes:
  with both helpers' definitions unfolded at their buffer records, @main and the line of the 89 listed operations are
  the same tree of steps. The signature scopes no buffer and no semaphore, so the run of a straight line applies: every
  weakly fair execution terminates, and each buffer ends at the fold of the 89 results over the launch contents.
-/
import proofs.«133711_j26079041421695_2_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

-- one unfolding per statement on either side: 89 nested continuations
set_option maxRecDepth 16384 in
set_option maxHeartbeats 4000000 in
/-- @main is the line of the 89 operations: both sides unfold to the same chain of steps. -/
theorem main_eq (c : Dev nD) : main (F := F) c = seq ops := rfl

/-- No TensorCore buffer is scoped. -/
theorem scopedRefs_eq : (Finset.univ.filter fun b : Ref sig .tc => b.isScoped) = ∅ := by decide
/-- No semaphore is scoped (there is none). -/
theorem scopedSems_eq : (Finset.univ.filter fun sm : SemLoc sig => sm.isScoped .tc) = ∅ := by decide

set_option maxRecDepth 16384 in
set_option maxHeartbeats 4000000 in
/-- Every operation touches TensorCore references only: each is one of the library's builders (the helpers' typed
    builders unfold to the same), and every builder's buffers are TensorCore references. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

/-- Every weakly fair execution of @main terminates, each buffer ending at the fold of the operations' results over
    what the launch dealt the device. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRunWin.lean ====
/-
  What the line of 89 operations leaves in the result buffer and in the six argument buffers, as pure terms.

  The line is read in three consecutive stretches, each from an ARBITRARY valuation of the buffers, so that every term
  stays small: the first 7 operations leave the three bands of the projection (functions of arguments 0 and 1) and
  touch no other argument; the next 38 leave the projected attention as a function of the three bands and of
  arguments 2 and 3, and touch neither argument 4 nor 5; the last 44 leave the normalised rows as a function of the
  projected attention and of arguments 4 and 5. Within a stretch each operation's result is read at its own buffer
  and passed over at every other; the helpers' typed references transport a value along an equation between a
  buffer's declared type and itself, which is the identity. Composing the three gives the specification-shaped term of
  the whole program; no operation writes an argument buffer.
-/
import proofs.«133711_j26079041421695_2_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Running two stretches in turn is running their concatenation. -/
theorem after_split : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_split l₁ l₂]

/-- The whole line is the three stretches in order. -/
theorem ops_split : (ops : List (HloOp τ sig (Elt F))) = opsA ++ (opsB ++ opsC) := rfl

/-- The whole line from `V` is the third stretch from what the second leaves of what the first leaves of `V`. -/
theorem after_ops (V : Valuation τ sig (Elt F)) : after ops V = after opsC (after opsB (after opsA V)) := by
  rw [ops_split, after_split, after_split]

-- a maximum-reduction is a fold over the reduced axis: the closing comparisons below never need to look inside one
attribute [local irreducible] Host.reduce

/-! ## The first stretch: the three bands -/

/-- The queries' band: the projection, its columns 0 … 511, re-read as heads. -/
theorem winA_q (W : Valuation τ sig (Elt F)) :
    after opsA W (Proc.devRef .tc main_v4) = Ops.bandQ (W (Proc.devRef .tc main_arg0)) (W (Proc.devRef .tc main_arg1)) := by
  after_results_simp
  rfl

/-- The keys' band: columns 512 … 1023. -/
theorem winA_k (W : Valuation τ sig (Elt F)) :
    after opsA W (Proc.devRef .tc main_v5) = Ops.bandK (W (Proc.devRef .tc main_arg0)) (W (Proc.devRef .tc main_arg1)) := by
  after_results_simp
  rfl

/-- The values' band: columns 1024 … 1535. -/
theorem winA_v (W : Valuation τ sig (Elt F)) :
    after opsA W (Proc.devRef .tc main_v6) = Ops.bandV (W (Proc.devRef .tc main_arg0)) (W (Proc.devRef .tc main_arg1)) := by
  after_results_simp
  rfl

/-- The first stretch writes none of arguments 2 … 5. -/
theorem keepA_arg2 (W : Valuation τ sig (Elt F)) : after opsA W (Proc.devRef .tc main_arg2) = W (Proc.devRef .tc main_arg2) := by
  after_results_simp
theorem keepA_arg3 (W : Valuation τ sig (Elt F)) : after opsA W (Proc.devRef .tc main_arg3) = W (Proc.devRef .tc main_arg3) := by
  after_results_simp
theorem keepA_arg4 (W : Valuation τ sig (Elt F)) : after opsA W (Proc.devRef .tc main_arg4) = W (Proc.devRef .tc main_arg4) := by
  after_results_simp
theorem keepA_arg5 (W : Valuation τ sig (Elt F)) : after opsA W (Proc.devRef .tc main_arg5) = W (Proc.devRef .tc main_arg5) := by
  after_results_simp

/-! ## The second stretch: attention and the output projection -/

set_option maxRecDepth 16384 in
set_option maxHeartbeats 4000000 in
/-- The projected attention of the three bands: both softmaxes, the contexts, the weighted contexts, re-read as rows
    of 512, times the 512 × 128 matrix, plus the bias. -/
theorem winB (W : Valuation τ sig (Elt F)) :
    after opsB W (Proc.devRef .tc main_v37)
      = Ops.projectOut (Ops.attend (W (Proc.devRef .tc main_v4)) (W (Proc.devRef .tc main_v5)) (W (Proc.devRef .tc main_v6)))
          (W (Proc.devRef .tc main_arg2)) (W (Proc.devRef .tc main_arg3)) := by
  after_results_simp
  rfl

set_option maxRecDepth 16384 in
set_option maxHeartbeats 4000000 in
/-- The second stretch writes neither argument 4 nor argument 5. -/
theorem keepB_arg4 (W : Valuation τ sig (Elt F)) : after opsB W (Proc.devRef .tc main_arg4) = W (Proc.devRef .tc main_arg4) := by
  after_results_simp
set_option maxRecDepth 16384 in
set_option maxHeartbeats 4000000 in
theorem keepB_arg5 (W : Valuation τ sig (Elt F)) : after opsB W (Proc.devRef .tc main_arg5) = W (Proc.devRef .tc main_arg5) := by
  after_results_simp

/-! ## The third stretch: the row normalisation -/

set_option maxRecDepth 16384 in
set_option maxHeartbeats 4000000 in
/-- The rows normalised: the mean, the variance helper's value (its select helper's result), and
    gamma · (y − mean) · rsqrt (variance + 1e-3) + beta. -/
theorem winC (W : Valuation τ sig (Elt F)) :
    after opsC W (Proc.devRef .tc main_v55)
      = Ops.normaliseRows (W (Proc.devRef .tc main_v37)) (W (Proc.devRef .tc main_arg4)) (W (Proc.devRef .tc main_arg5)) := by
  after_results_simp
  rfl

/-! ## The whole line -/

/-- The result buffer after the line holds the program's composed term of the six arguments. -/
theorem result_eq (V : Valuation τ sig (Elt F)) :
    after ops V (Proc.devRef .tc main_v55)
      = Ops.whole (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, winC, winB, winA_q, winA_k, winA_v, keepB_arg4, keepB_arg5, keepA_arg2, keepA_arg3, keepA_arg4, keepA_arg5]
  rfl

set_option maxRecDepth 16384 in
set_option maxHeartbeats 4000000 in
/-- No operation of the line writes argument 0 … -/
theorem arg0_eq (V : Valuation τ sig (Elt F)) : after ops V (Proc.devRef .tc main_arg0) = V (Proc.devRef .tc main_arg0) := by
  after_results_simp
set_option maxRecDepth 16384 in
set_option maxHeartbeats 4000000 in
/-- … nor argument 1 … -/
theorem arg1_eq (V : Valuation τ sig (Elt F)) : after ops V (Proc.devRef .tc main_arg1) = V (Proc.devRef .tc main_arg1) := by
  after_results_simp
set_option maxRecDepth 16384 in
set_option maxHeartbeats 4000000 in
/-- … nor argument 2 … -/
theorem arg2_eq (V : Valuation τ sig (Elt F)) : after ops V (Proc.devRef .tc main_arg2) = V (Proc.devRef .tc main_arg2) := by
  after_results_simp
set_option maxRecDepth 16384 in
set_option maxHeartbeats 4000000 in
/-- … nor argument 3 … -/
theorem arg3_eq (V : Valuation τ sig (Elt F)) : after ops V (Proc.devRef .tc main_arg3) = V (Proc.devRef .tc main_arg3) := by
  after_results_simp
set_option maxRecDepth 16384 in
set_option maxHeartbeats 4000000 in
/-- … nor argument 4 … -/
theorem arg4_eq (V : Valuation τ sig (Elt F)) : after ops V (Proc.devRef .tc main_arg4) = V (Proc.devRef .tc main_arg4) := by
  after_results_simp
set_option maxRecDepth 16384 in
set_option maxHeartbeats 4000000 in
/-- … nor argument 5. -/
theorem arg5_eq (V : Valuation τ sig (Elt F)) : after ops V (Proc.devRef .tc main_arg5) = V (Proc.devRef .tc main_arg5) := by
  after_results_simp

end Cert.ReferenceIdeal.RefRun

end
-- ==== Proof.RefRun.lean ====
/-
  The run of the reference program: every weakly fair execution of @main terminates; the result buffer then holds the
  program's composed term of the six argument arrays as the launch dealt them, and the six argument arrays are as
  they were. It is the run of the straight line of 89 operations, read at the result buffer and at each argument
  buffer.
-/
import proofs.«133711_j26079041421695_2_alg».proof.Proof.RefRunOps
import proofs.«133711_j26079041421695_2_alg».proof.Proof.RefRunWin

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- On every device, for any float values, from any memory with zero counters: every weakly fair execution of @main
    terminates with the result at the composed term of the arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v55)
        = Ops.whole (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v55).trans (result_eq (launchContents m c)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c))⟩)
    (run_main m ρ)

end Cert.ReferenceIdeal.RefRun

end
-- ==== Proof.RefBandsDot.lean ====
/-
  The reference's projection read at one entry: at voxel (a, d, i, j) and column f of the 1536 it is the sum over
  the 128 channels c of the voxel's entry c times the matrix entry (c, f). The contraction's one axis is re-indexed
  by its coordinate; the operand indices are read off the dimension numbers (left: the voxel's coordinates and c;
  right: c and f).
-/
import proofs.«133711_j26079041421695_2_alg».proof.Proof.RefOps
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RefBands

open Idealize.ShloMosaic Idealize.ShloMosaic.ValueIdx Cert.ReferenceIdeal Cert.ReferenceIdeal.Facts₀

/-- The left operand's index at output (a, d, i, j, f) and contraction coordinate c is (a, d, i, j, c). -/
theorem inDot_lhsIdx (a : Fin 8) (d : Fin 16) (i j : Fin 32) (f : Fin 1536) (c : Fin 128) :
    dot_S8x16x32x32x128_S128x1536_S8x16x32x32x1536_4_0_0123_1_n_n.lhsIdx (ix5 a d i j f)
      ((contrEquiv1 dot_S8x16x32x32x128_S128x1536_S8x16x32x32x1536_4_0_0123_1_n_n 128 rfl rfl).symm c) = ix5 a d i j c := by
  have cc := contrEquiv1_symm_val dot_S8x16x32x32x128_S128x1536_S8x16x32x32x1536_4_0_0123_1_n_n 128 rfl rfl c
  funext ax; apply Fin.ext
  match ax with
  | ⟨0, _⟩ => simp [DotDims.lhsIdx, dot_S8x16x32x32x128_S128x1536_S8x16x32x32x1536_4_0_0123_1_n_n]; rfl
  | ⟨1, _⟩ => simp [DotDims.lhsIdx, dot_S8x16x32x32x128_S128x1536_S8x16x32x32x1536_4_0_0123_1_n_n]; rfl
  | ⟨2, _⟩ => simp [DotDims.lhsIdx, dot_S8x16x32x32x128_S128x1536_S8x16x32x32x1536_4_0_0123_1_n_n]; rfl
  | ⟨3, _⟩ => simp [DotDims.lhsIdx, dot_S8x16x32x32x128_S128x1536_S8x16x32x32x1536_4_0_0123_1_n_n]; rfl
  | ⟨4, _⟩ => simp [DotDims.lhsIdx, dot_S8x16x32x32x128_S128x1536_S8x16x32x32x1536_4_0_0123_1_n_n]; exact cc

/-- The right operand's index there is (c, f). -/
theorem inDot_rhsIdx (a : Fin 8) (d : Fin 16) (i j : Fin 32) (f : Fin 1536) (c : Fin 128) :
    dot_S8x16x32x32x128_S128x1536_S8x16x32x32x1536_4_0_0123_1_n_n.rhsIdx (ix5 a d i j f)
      ((contrEquiv1 dot_S8x16x32x32x128_S128x1536_S8x16x32x32x1536_4_0_0123_1_n_n 128 rfl rfl).symm c) = ix2 c f := by
  have cc := contrEquiv1_symm_val dot_S8x16x32x32x128_S128x1536_S8x16x32x32x1536_4_0_0123_1_n_n 128 rfl rfl c
  funext ax; apply Fin.ext
  match ax with
  | ⟨0, _⟩ => simp [DotDims.rhsIdx, dot_S8x16x32x32x128_S128x1536_S8x16x32x32x1536_4_0_0123_1_n_n]; exact cc
  | ⟨1, _⟩ => simp [DotDims.rhsIdx, dot_S8x16x32x32x128_S128x1536_S8x16x32x32x1536_4_0_0123_1_n_n]; rfl

/-- The projection at (a, d, i, j, f): the sum over the channels of voxel entry times matrix entry. -/
theorem projectAll_apply (x : FVec Ideal S8x16x32x32x128 .f32) (w : FVec Ideal S128x1536 .f32)
    (a : Fin 8) (d : Fin 16) (i j : Fin 32) (f : Fin 1536) :
    Ops.projectAll x w (ix5 a d i j f) = ∑ c : Fin 128, x (ix5 a d i j c) * w (ix2 c f) := by
  unfold Ops.projectAll
  show FloatOps.dotGeneral _ none _ x w (ix5 a d i j f) = _
  rw [Ideal.dotGeneral_apply,
    ← Equiv.sum_comp (contrEquiv1 dot_S8x16x32x32x128_S128x1536_S8x16x32x32x1536_4_0_0123_1_n_n 128 rfl rfl).symm]
  refine Finset.sum_congr rfl fun c _ => ?_
  rw [inDot_lhsIdx, inDot_rhsIdx]

end Cert.ReferenceIdeal.RefBands

end
-- ==== Proof.RefBands.lean ====
/-
  The first stage of the reference read entry by entry. Entry (a, h, n, e) of the 8 × 8 × 16384 × 64 arrangement
  has row-major position p = ((a·8 + h)·16384 + n)·64 + e. In the 8 × 16 × 32 × 32 × 512 slice the same position is
  column k = p % 512 of the voxel at row r = p / 512, whose coordinates are r / 16384, r / 1024 % 16, r / 32 % 32 and
  r % 32; the slice shifts the column by the band's offset o, and the projection there is the sum over the 128
  channels c of x(voxel, c) · w(c, o + k). In the 131072 × 512 band of the rows re-read as 131072 × 128 the same
  position is entry (r, k), the same sum.
-/
import proofs.«133711_j26079041421695_2_alg».proof.Proof.RefOps
import proofs.«133711_j26079041421695_2_alg».proof.Proof.Spec
import proofs.«133711_j26079041421695_2_alg».proof.Proof.RefBandsDot
import Idealize.ShloMosaic.Lib.Pipeline.Value
import Idealize.ShloMosaic.Lib.ValueIdx
import Idealize.ShloMosaic.Lib.ValueLayout

noncomputable section

namespace Cert.ReferenceIdeal.RefBands

open Idealize.ShloMosaic Idealize.ShloMosaic.ValueIdx Cert.ReferenceIdeal Cert.ReferenceIdeal.Facts₀

/-- The band starting at column o of the reference's projection, re-read as heads, is at every entry the
    specification's band of the rows, re-read the same way. -/
theorem band_apply (o : Nat) (ho : o + 512 ≤ 1536) (x : FVec Ideal S8x16x32x32x128 .f32) (w : FVec Ideal S128x1536 .f32)
    (sl : S8x16x32x32x1536.Slices ![0, 0, 0, 0, o] S8x16x32x32x512)
    (hX : S8x16x32x32x128.ShapeCasts Cert.Spec.Sx2) (h4 : Cert.Spec.Sh2.ShapeCasts Cert.Spec.Sh4)
    (a h : Fin 8) (n : Fin 16384) (e : Fin 64) :
    shapeCast S8x8x16384x64 (extractStridedSlice S8x16x32x32x512 ![0, 0, 0, 0, o] (Ops.projectAll x w) sl)
        shapeCasts_S8x16x32x32x512_S8x8x16384x64 (ix4 a h n e)
      = shapeCast Cert.Spec.Sh4 (Cert.Spec.band o ho (shapeCast Cert.Spec.Sx2 x hX) w) h4 (ix4 a h n e) := by
  have ha := a.isLt; have hh := h.isLt; have hn := n.isLt; have he := e.isLt
  obtain ⟨p, hp⟩ : ∃ p : Nat, p = ((a.val * 8 + h.val) * 16384 + n.val) * 64 + e.val := ⟨_, rfl⟩
  have hplt : p < 67108864 := by omega
  -- the left side: the same position in the 5-axis slice, the slice's shift, the projection's sum
  refine (shapeCast_apply _ shapeCasts_S8x16x32x32x512_S8x8x16384x64 (ix4 a h n e)
    (ix5 (⟨p / 512 / 16384, by omega⟩ : Fin 8) (⟨p / 512 / 1024 % 16, by omega⟩ : Fin 16)
      (⟨p / 512 / 32 % 32, by omega⟩ : Fin 32) (⟨p / 512 % 32, by omega⟩ : Fin 32) (⟨p % 512, by omega⟩ : Fin 512)) ?_).trans ?_
  · rw [Shape.rowMajor_val_five, Shape.rowMajor_val_four]
    show (((p / 512 / 16384 * 16 + p / 512 / 1024 % 16) * 32 + p / 512 / 32 % 32) * 32 + p / 512 % 32) * 512 + p % 512
      = ((a.val * 8 + h.val) * 16384 + n.val) * 64 + e.val
    omega
  refine (slice5_axis4_apply o _ sl _ _ _ _ _ (⟨o + p % 512, by omega⟩ : Fin 1536) rfl).trans ?_
  refine (projectAll_apply x w _ _ _ _ _).trans ?_
  -- the right side: the same position in the 131072 × 512 band, then the rows re-read from the voxels
  refine Eq.symm ((shapeCast_apply _ h4 (ix4 a h n e)
    (ix2 (⟨p / 512, by omega⟩ : Fin 131072) (⟨p % 512, by omega⟩ : Fin 512)) ?_).trans ?_)
  · rw [Shape.rowMajor_val_two, Shape.rowMajor_val_four]
    show p / 512 * 512 + p % 512 = ((a.val * 8 + h.val) * 16384 + n.val) * 64 + e.val
    omega
  unfold Cert.Spec.band
  refine Finset.sum_congr rfl fun c _ => ?_
  refine congrArg₂ (fun u v : EReal => u * v) ?_ rfl
  refine shapeCast_apply x hX _ (ix5 (⟨p / 512 / 16384, by omega⟩ : Fin 8) (⟨p / 512 / 1024 % 16, by omega⟩ : Fin 16)
      (⟨p / 512 / 32 % 32, by omega⟩ : Fin 32) (⟨p / 512 % 32, by omega⟩ : Fin 32) c) ?_
  rw [Shape.rowMajor_val_five, Shape.rowMajor_val_two]
  show (((p / 512 / 16384 * 16 + p / 512 / 1024 % 16) * 32 + p / 512 / 32 % 32) * 32 + p / 512 % 32) * 128 + c.val
    = p / 512 * 128 + c.val
  omega

/-- The queries of the reference are the first band of the specification, re-read as heads. -/
theorem bandQ_eq (x : FVec Ideal S8x16x32x32x128 .f32) (w : FVec Ideal S128x1536 .f32) :
    Ops.bandQ x w
      = shapeCast Cert.Spec.Sh4 (Cert.Spec.band 0 (by decide) (shapeCast Cert.Spec.Sx2 x (by decide)) w) (by decide) := by
  funext q
  obtain ⟨a, h, n, e, rfl⟩ : ∃ (a h : Fin 8) (n : Fin 16384) (e : Fin 64), q = ix4 a h n e :=
    ⟨q 0, q 1, q 2, q 3, eq_ix4 q⟩
  exact band_apply 0 _ x w _ _ _ a h n e

/-- The keys of the reference are the second band. -/
theorem bandK_eq (x : FVec Ideal S8x16x32x32x128 .f32) (w : FVec Ideal S128x1536 .f32) :
    Ops.bandK x w
      = shapeCast Cert.Spec.Sh4 (Cert.Spec.band 512 (by decide) (shapeCast Cert.Spec.Sx2 x (by decide)) w) (by decide) := by
  funext q
  obtain ⟨a, h, n, e, rfl⟩ : ∃ (a h : Fin 8) (n : Fin 16384) (e : Fin 64), q = ix4 a h n e :=
    ⟨q 0, q 1, q 2, q 3, eq_ix4 q⟩
  exact band_apply 512 _ x w _ _ _ a h n e

/-- The values of the reference are the third band. -/
theorem bandV_eq (x : FVec Ideal S8x16x32x32x128 .f32) (w : FVec Ideal S128x1536 .f32) :
    Ops.bandV x w
      = shapeCast Cert.Spec.Sh4 (Cert.Spec.band 1024 (by decide) (shapeCast Cert.Spec.Sx2 x (by decide)) w) (by decide) := by
  funext q
  obtain ⟨a, h, n, e, rfl⟩ : ∃ (a h : Fin 8) (n : Fin 16384) (e : Fin 64), q = ix4 a h n e :=
    ⟨q 0, q 1, q 2, q 3, eq_ix4 q⟩
  exact band_apply 1024 _ x w _ _ _ a h n e

end Cert.ReferenceIdeal.RefBands

end
-- ==== Proof.RefAttendRows.lean ====
/-
  The reference's softmax along the last axis of the 8 × 8 × 16384 × 64 arrangement, read at one entry. A row is
  the 64 entries (a, h, n, ·). Its maximum is the reduction with max from −∞ (a fold over the row's 64
  coordinates), taken once more against −∞, which changes nothing (max ⊥ x = x); the shifted exponentials are
  summed from the zero word, which adds nothing (0 + s = s); the quotient is the specification's softmax of the row.
-/
import proofs.«133711_j26079041421695_2_alg».proof.Proof.RefOps
import proofs.«133711_j26079041421695_2_alg».proof.Proof.Spec
import Idealize.ShloMosaic.Lib.IdealHost
import Idealize.ShloMosaic.Lib.Pipeline.Value

noncomputable section

namespace Cert.ReferenceIdeal.RefAttend

open Idealize.ShloMosaic Idealize.ShloMosaic.ValueIdx Cert.ReferenceIdeal Cert.ReferenceIdeal.Facts₀

/-- Dropping the last axis of the heads' arrangement leaves the rows. -/
theorem hRed : S8x8x16384x64.Reduces [3] S8x8x16384 := by decide

/-- The row (a, h, n) with entry c put back on the last axis is (a, h, n, c). -/
theorem lift_row (a h : Fin 8) (n : Fin 16384) (c : Fin 64) : hRed.lift (ix3 a h n) c = ix4 a h n c := by
  funext ax; apply Fin.ext
  match ax with
  | ⟨0, _⟩ => rfl
  | ⟨1, _⟩ => rfl
  | ⟨2, _⟩ => rfl
  | ⟨3, _⟩ => rfl

/-- A row statistic spread back over its row reads the statistic. -/
theorem spread_apply (r : FVec Ideal S8x8x16384 .f32) (a h : Fin 8) (n : Fin 16384) (c : Fin 64) :
    Ops.spread (F := Ideal) r (ix4 a h n c) = r (ix3 a h n) := by
  unfold Ops.spread
  refine (broadcastInDim_apply _ _ _ (ix4 a h n c) (ix4 a h n (0 : Fin 1)) fun ax => ?_).trans
    (broadcastInDim_apply _ _ _ (ix4 a h n (0 : Fin 1)) (ix3 a h n) fun ax => ?_)
  · match ax with
    | ⟨0, _⟩ => rfl
    | ⟨1, _⟩ => rfl
    | ⟨2, _⟩ => rfl
    | ⟨3, _⟩ => rfl
  · match ax with
    | ⟨0, _⟩ => rfl
    | ⟨1, _⟩ => rfl
    | ⟨2, _⟩ => rfl

/-- The word of −∞ denotes the bottom of the extended reals. -/
theorem ofBits_neg_inf : Ideal.ofBits .f32 0xFF800000#32 = (⊥ : EReal) := by
  simp [Ideal.ofBits, Ideal.ieee]

/-- The host's exponential at an entry is the extended reals'. -/
theorem hostExp_apply {s : Shape} {φ : FTy} (x : FVec Ideal s φ) (i : s.Idx) : Host.exp x i = Ideal.exp (x i) := rfl

/-- The reduction with max from −∞ over the last axis, at row (a, h, n): the specification's row maximum. -/
theorem rowMax_apply (x : FVec Ideal S8x8x16384x64 .f32) (a h : Fin 8) (n : Fin 16384) :
    Host.reduce FloatOps.maximumf x (constant (F := Ideal) S_ .f32 0xFF800000#32)
        reducesTo_S8x8x16384x64_S8x8x16384_d3 h_S_ (ix3 a h n)
      = Cert.Spec.rowMax (fun c => x (ix4 a h n c)) := by
  refine (Host.reduce_eq_fold_single _ x _ _ hRed _ (ix3 a h n)).trans ?_
  show (Finset.univ : Finset (Fin 64)).fold max (Ideal.ofBits .f32 0xFF800000#32) (x ∘ hRed.lift (ix3 a h n))
    = (Finset.univ : Finset (Fin 64)).fold max ⊥ fun c => x (ix4 a h n c)
  rw [ofBits_neg_inf]
  exact congrArg ((Finset.univ : Finset (Fin 64)).fold max ⊥) (funext fun c => congrArg x (lift_row a h n c))

/-- The shifted exponential at (a, h, n, c): exp of the entry minus its row's maximum. -/
theorem expShifted_apply (x : FVec Ideal S8x8x16384x64 .f32) (a h : Fin 8) (n : Fin 16384) (c : Fin 64) :
    Ops.expShifted (F := Ideal) x (ix4 a h n c)
      = Ideal.exp (x (ix4 a h n c) - Cert.Spec.rowMax (fun c => x (ix4 a h n c))) := by
  unfold Ops.expShifted
  refine (hostExp_apply _ _).trans ?_
  refine congrArg Ideal.exp ?_
  refine (subf_apply _ _ _).trans ?_
  refine congrArg (x (ix4 a h n c) - ·) ?_
  refine (spread_apply _ a h n c).trans ?_
  refine (maximumf_apply _ _ _).trans ?_
  have hb : broadcastInDim S8x8x16384 ![] bcast_S_S8x8x16384 (constant (F := Ideal) S_ .f32 0xFF800000#32) (ix3 a h n)
      = (⊥ : EReal) :=
    (broadcastInDim_scalar_apply _ _ _).trans ((constant_apply _ _).trans ofBits_neg_inf)
  exact (congrArg₂ max hb (rowMax_apply x a h n)).trans (max_bot_left _)

/-- The reference's softmax at (a, h, n, c) is the specification's softmax of the row (a, h, n, ·) at c. -/
theorem softmaxRows_apply (x : FVec Ideal S8x8x16384x64 .f32) (a h : Fin 8) (n : Fin 16384) (c : Fin 64) :
    Ops.softmaxRows (F := Ideal) x (ix4 a h n c) = Cert.Spec.softmax (fun c => x (ix4 a h n c)) c := by
  unfold Ops.softmaxRows Cert.Spec.softmax
  refine (hostDivf_apply _ _ _).trans ?_
  refine congrArg₂ Ideal.div (expShifted_apply x a h n c) ?_
  refine (spread_apply _ a h n c).trans ?_
  refine (hostReduceAdd_apply _ _ _ _ (ix3 a h n)).trans ?_
  refine (Ideal.hostReduceAdd_single _ hRed _ _ (ix3 a h n)).trans ?_
  show Ideal.ofBits .f32 0x00000000#32 + ∑ k : Fin 64, Ops.expShifted (F := Ideal) x (hRed.lift (ix3 a h n) k) = _
  rw [Ideal.ofBits_zero_f32, zero_add]
  refine Finset.sum_congr rfl fun k _ => ?_
  exact (congrArg (Ops.expShifted (F := Ideal) x) (lift_row a h n k)).trans (expShifted_apply x a h n k)

end Cert.ReferenceIdeal.RefAttend

end
-- ==== Proof.RefAttendDots.lean ====
/-
  The two batched products of the attention read at one entry. Both keep the two leading axes (a, h) as batch
  axes. The first contracts the 16384 rows: at (a, h, c, e) it is the sum over n of left (a, h, n, c) times
  right (a, h, n, e). The second contracts the 64 columns of the left operand against the rows of the right: at
  (a, h, n, e) it is the sum over c of left (a, h, n, c) times right (a, h, c, e). In each the contraction's one
  axis is re-indexed by its coordinate and the operand indices are read off the dimension numbers.
-/
import proofs.«133711_j26079041421695_2_alg».proof.Proof.RefOps
import Idealize.ShloMosaic.Lib.IdealHost

noncomputable section

namespace Cert.ReferenceIdeal.RefAttend

open Idealize.ShloMosaic Idealize.ShloMosaic.ValueIdx Cert.ReferenceIdeal Cert.ReferenceIdeal.Facts₀

/-! ## Contracting the rows -/

theorem ctx_lhsIdx (a h : Fin 8) (c e : Fin 64) (n : Fin 16384) :
    dot_S8x8x16384x64_S8x8x16384x64_S8x8x64x64_2_2_3_3_01_01.lhsIdx (ix4 a h c e) ((contrEquiv1 dot_S8x8x16384x64_S8x8x16384x64_S8x8x64x64_2_2_3_3_01_01 16384 rfl rfl).symm n) = ix4 a h n c := by
  have cn := contrEquiv1_symm_val dot_S8x8x16384x64_S8x8x16384x64_S8x8x64x64_2_2_3_3_01_01 16384 rfl rfl n
  funext ax; apply Fin.ext
  match ax with
  | ⟨0, _⟩ => simp [DotDims.lhsIdx, dot_S8x8x16384x64_S8x8x16384x64_S8x8x64x64_2_2_3_3_01_01]; rfl
  | ⟨1, _⟩ => simp [DotDims.lhsIdx, dot_S8x8x16384x64_S8x8x16384x64_S8x8x64x64_2_2_3_3_01_01]; rfl
  | ⟨2, _⟩ => simp [DotDims.lhsIdx, dot_S8x8x16384x64_S8x8x16384x64_S8x8x64x64_2_2_3_3_01_01]; exact cn
  | ⟨3, _⟩ => simp [DotDims.lhsIdx, dot_S8x8x16384x64_S8x8x16384x64_S8x8x64x64_2_2_3_3_01_01]; rfl

theorem ctx_rhsIdx (a h : Fin 8) (c e : Fin 64) (n : Fin 16384) :
    dot_S8x8x16384x64_S8x8x16384x64_S8x8x64x64_2_2_3_3_01_01.rhsIdx (ix4 a h c e) ((contrEquiv1 dot_S8x8x16384x64_S8x8x16384x64_S8x8x64x64_2_2_3_3_01_01 16384 rfl rfl).symm n) = ix4 a h n e := by
  have cn := contrEquiv1_symm_val dot_S8x8x16384x64_S8x8x16384x64_S8x8x64x64_2_2_3_3_01_01 16384 rfl rfl n
  funext ax; apply Fin.ext
  match ax with
  | ⟨0, _⟩ => simp [DotDims.rhsIdx, dot_S8x8x16384x64_S8x8x16384x64_S8x8x64x64_2_2_3_3_01_01]; rfl
  | ⟨1, _⟩ => simp [DotDims.rhsIdx, dot_S8x8x16384x64_S8x8x16384x64_S8x8x64x64_2_2_3_3_01_01]; rfl
  | ⟨2, _⟩ => simp [DotDims.rhsIdx, dot_S8x8x16384x64_S8x8x16384x64_S8x8x64x64_2_2_3_3_01_01]; exact cn
  | ⟨3, _⟩ => simp [DotDims.rhsIdx, dot_S8x8x16384x64_S8x8x16384x64_S8x8x64x64_2_2_3_3_01_01]; rfl

/-- The product contracting the rows, at (a, h, c, e). -/
theorem ctxDot_apply (l r : FVec Ideal S8x8x16384x64 .f32) (a h : Fin 8) (c e : Fin 64) :
    Host.dotGeneral dot_S8x8x16384x64_S8x8x16384x64_S8x8x64x64_2_2_3_3_01_01 none l r (ix4 a h c e) = ∑ n : Fin 16384, l (ix4 a h n c) * r (ix4 a h n e) := by
  show FloatOps.dotGeneral _ none _ l r (ix4 a h c e) = _
  rw [Ideal.dotGeneral_apply, ← Equiv.sum_comp (contrEquiv1 dot_S8x8x16384x64_S8x8x16384x64_S8x8x64x64_2_2_3_3_01_01 16384 rfl rfl).symm]
  refine Finset.sum_congr rfl fun n _ => ?_
  rw [ctx_lhsIdx, ctx_rhsIdx]

/-! ## Contracting the columns -/

theorem out_lhsIdx (a h : Fin 8) (n : Fin 16384) (e c : Fin 64) :
    dot_S8x8x16384x64_S8x8x64x64_S8x8x16384x64_3_2_2_3_01_01.lhsIdx (ix4 a h n e) ((contrEquiv1 dot_S8x8x16384x64_S8x8x64x64_S8x8x16384x64_3_2_2_3_01_01 64 rfl rfl).symm c) = ix4 a h n c := by
  have cc := contrEquiv1_symm_val dot_S8x8x16384x64_S8x8x64x64_S8x8x16384x64_3_2_2_3_01_01 64 rfl rfl c
  funext ax; apply Fin.ext
  match ax with
  | ⟨0, _⟩ => simp [DotDims.lhsIdx, dot_S8x8x16384x64_S8x8x64x64_S8x8x16384x64_3_2_2_3_01_01]; rfl
  | ⟨1, _⟩ => simp [DotDims.lhsIdx, dot_S8x8x16384x64_S8x8x64x64_S8x8x16384x64_3_2_2_3_01_01]; rfl
  | ⟨2, _⟩ => simp [DotDims.lhsIdx, dot_S8x8x16384x64_S8x8x64x64_S8x8x16384x64_3_2_2_3_01_01]; rfl
  | ⟨3, _⟩ => simp [DotDims.lhsIdx, dot_S8x8x16384x64_S8x8x64x64_S8x8x16384x64_3_2_2_3_01_01]; exact cc

theorem out_rhsIdx (a h : Fin 8) (n : Fin 16384) (e c : Fin 64) :
    dot_S8x8x16384x64_S8x8x64x64_S8x8x16384x64_3_2_2_3_01_01.rhsIdx (ix4 a h n e) ((contrEquiv1 dot_S8x8x16384x64_S8x8x64x64_S8x8x16384x64_3_2_2_3_01_01 64 rfl rfl).symm c) = ix4 a h c e := by
  have cc := contrEquiv1_symm_val dot_S8x8x16384x64_S8x8x64x64_S8x8x16384x64_3_2_2_3_01_01 64 rfl rfl c
  funext ax; apply Fin.ext
  match ax with
  | ⟨0, _⟩ => simp [DotDims.rhsIdx, dot_S8x8x16384x64_S8x8x64x64_S8x8x16384x64_3_2_2_3_01_01]; rfl
  | ⟨1, _⟩ => simp [DotDims.rhsIdx, dot_S8x8x16384x64_S8x8x64x64_S8x8x16384x64_3_2_2_3_01_01]; rfl
  | ⟨2, _⟩ => simp [DotDims.rhsIdx, dot_S8x8x16384x64_S8x8x64x64_S8x8x16384x64_3_2_2_3_01_01]; exact cc
  | ⟨3, _⟩ => simp [DotDims.rhsIdx, dot_S8x8x16384x64_S8x8x64x64_S8x8x16384x64_3_2_2_3_01_01]; rfl

/-- The product contracting the columns, at (a, h, n, e). -/
theorem outDot_apply (l : FVec Ideal S8x8x16384x64 .f32) (r : FVec Ideal S8x8x64x64 .f32) (a h : Fin 8) (n : Fin 16384)
    (e : Fin 64) :
    Host.dotGeneral dot_S8x8x16384x64_S8x8x64x64_S8x8x16384x64_3_2_2_3_01_01 none l r (ix4 a h n e) = ∑ c : Fin 64, l (ix4 a h n c) * r (ix4 a h c e) := by
  show FloatOps.dotGeneral _ none _ l r (ix4 a h n e) = _
  rw [Ideal.dotGeneral_apply, ← Equiv.sum_comp (contrEquiv1 dot_S8x8x16384x64_S8x8x64x64_S8x8x16384x64_3_2_2_3_01_01 64 rfl rfl).symm]
  refine Finset.sum_congr rfl fun c _ => ?_
  rw [out_lhsIdx, out_rhsIdx]

end Cert.ReferenceIdeal.RefAttend

end
-- ==== Proof.RefAttend.lean ====
/-
  The attention of all heads in the reference is the specification's. Entry (a, h, n, e) of the
  8 × 8 × 16384 × 64 arrangement is entry (a·8 + h, n, e) of the 64 × 16384 × 64 one (same row-major position),
  so head a·8 + h of the specification reads the rows (a, h, ·, ·). At that entry the reference sums, over the 64
  columns c, the queries' softmax weight at c times one eighth times the context at (c, e); the context sums, over
  the 16384 rows m, the keys' softmax weight of row m at c times the value at (m, e).
-/
import proofs.«133711_j26079041421695_2_alg».proof.Proof.RefAttendRows
import proofs.«133711_j26079041421695_2_alg».proof.Proof.RefAttendDots

noncomputable section

namespace Cert.ReferenceIdeal.RefAttend

open Idealize.ShloMosaic Idealize.ShloMosaic.ValueIdx Cert.ReferenceIdeal Cert.ReferenceIdeal.Facts₀

/-- The head that the pair (a, h) of leading coordinates names: a·8 + h of 64. -/
def headOf (a h : Fin 8) : Fin 64 := ⟨a.val * 8 + h.val, by have := a.isLt; have := h.isLt; omega⟩

/-- The 4-axis arrangement re-read as 64 heads: entry (a·8 + h, n, c) is entry (a, h, n, c). -/
theorem toHeads_apply (x : FVec Ideal S8x8x16384x64 .f32) (hx : S8x8x16384x64.ShapeCasts Cert.Spec.Sh3)
    (a h : Fin 8) (n : Fin 16384) (c : Fin 64) :
    shapeCast Cert.Spec.Sh3 x hx (ix3 (headOf a h) n c) = x (ix4 a h n c) := by
  refine shapeCast_apply x hx (ix3 (headOf a h) n c) (ix4 a h n c) ?_
  rw [Shape.rowMajor_val_four, Shape.rowMajor_val_three]
  rfl

/-- The 64 heads re-read as the 4-axis arrangement: entry (a, h, n, e) is entry (a·8 + h, n, e). -/
theorem fromHeads_apply (z : Cert.Spec.Sh3.Idx → EReal) (hz : Cert.Spec.Sh3.ShapeCasts Cert.Spec.Sh4)
    (a h : Fin 8) (n : Fin 16384) (e : Fin 64) :
    shapeCast Cert.Spec.Sh4 z hz (ix4 a h n e) = z (ix3 (headOf a h) n e) := by
  refine shapeCast_apply z hz (ix4 a h n e) (ix3 (headOf a h) n e) ?_
  rw [Shape.rowMajor_val_four, Shape.rowMajor_val_three]
  rfl

/-- The reference's attention at (a, h, n, e) is the specification's head over the rows (a, h, ·, ·). -/
theorem attend_apply (q k v : FVec Ideal S8x8x16384x64 .f32) (a h : Fin 8) (n : Fin 16384) (e : Fin 64) :
    Ops.attend q k v (ix4 a h n e)
      = Cert.Spec.head (fun n c => q (ix4 a h n c)) (fun n c => k (ix4 a h n c)) (fun n c => v (ix4 a h n c)) n e := by
  unfold Ops.attend Cert.Spec.head
  refine (outDot_apply _ _ a h n e).trans ?_
  refine Finset.sum_congr rfl fun c _ => ?_
  refine congrArg₂ (· * ·) ?_ ?_
  · refine (mulf_apply _ _ _).trans ?_
    refine congrArg₂ (· * ·) (softmaxRows_apply q a h n c) ?_
    exact (broadcastInDim_scalar_apply _ _ _).trans (constant_apply _ _)
  · unfold Cert.Spec.context
    refine (ctxDot_apply _ v a h c e).trans ?_
    refine Finset.sum_congr rfl fun m _ => ?_
    exact congrArg (· * v (ix4 a h m e)) (softmaxRows_apply k a h m c)

/-- The reference's attention is the specification's heads, as whole arrays. -/
theorem attend_eq (q k v : FVec Ideal S8x8x16384x64 .f32) :
    Ops.attend q k v = shapeCast Cert.Spec.Sh4 (Cert.Spec.heads (shapeCast Cert.Spec.Sh3 q (by decide))
      (shapeCast Cert.Spec.Sh3 k (by decide)) (shapeCast Cert.Spec.Sh3 v (by decide))) (by decide) := by
  funext idx
  obtain ⟨a, h, n, e, rfl⟩ : ∃ (a h : Fin 8) (n : Fin 16384) (e : Fin 64), idx = ix4 a h n e :=
    ⟨idx 0, idx 1, idx 2, idx 3, eq_ix4 idx⟩
  refine (attend_apply q k v a h n e).trans ?_
  refine Eq.trans ?_ (fromHeads_apply _ _ a h n e).symm
  have eq : (fun (n : Fin 16384) (c : Fin 64) => q (ix4 a h n c))
      = fun n c => shapeCast Cert.Spec.Sh3 q (by decide) (ix3 (headOf a h) n c) :=
    funext fun n => funext fun c => (toHeads_apply q _ a h n c).symm
  have ek : (fun (n : Fin 16384) (c : Fin 64) => k (ix4 a h n c))
      = fun n c => shapeCast Cert.Spec.Sh3 k (by decide) (ix3 (headOf a h) n c) :=
    funext fun n => funext fun c => (toHeads_apply k _ a h n c).symm
  have ev : (fun (n : Fin 16384) (c : Fin 64) => v (ix4 a h n c))
      = fun n c => shapeCast Cert.Spec.Sh3 v (by decide) (ix3 (headOf a h) n c) :=
    funext fun n => funext fun c => (toHeads_apply v _ a h n c).symm
  rw [eq, ek, ev]
  rfl

end Cert.ReferenceIdeal.RefAttend

end
-- ==== Proof.RefNormedLayout.lean ====
/-
  Index bookkeeping for the last stage of the reference: a voxel (a, d, i, j) of the 8 × 16 × 32 × 32 grid sits at
  row ((a·16 + d)·32 + i)·32 + j of the 131072 rows; a vector of 128 spread over the voxels reads its own entry; a
  column with a unit last axis spread over a row reads the row's one entry; and the row-major re-readings between
  the 5-axis and the 2-axis arrangements keep the entry at the same position.
-/
import proofs.«133711_j26079041421695_2_alg».proof.Proof.RefOps
import proofs.«133711_j26079041421695_2_alg».proof.Proof.Spec
import Idealize.ShloMosaic.Lib.IdealHost
import Idealize.ShloMosaic.Lib.Pipeline.Value

noncomputable section

namespace Cert.ReferenceIdeal.RefNormed

open Idealize.ShloMosaic Idealize.ShloMosaic.ValueIdx Cert.ReferenceIdeal Cert.ReferenceIdeal.Facts₀

/-- The row-major position of voxel (a, d, i, j) among the 131072 voxel rows. -/
def row (a : Fin 8) (d : Fin 16) (i j : Fin 32) : Fin 131072 :=
  ⟨((a.val * 16 + d.val) * 32 + i.val) * 32 + j.val, by
    have := a.isLt; have := d.isLt; have := i.isLt; have := j.isLt; omega⟩

theorem row_val (a : Fin 8) (d : Fin 16) (i j : Fin 32) :
    (row a d i j).val = ((a.val * 16 + d.val) * 32 + i.val) * 32 + j.val := rfl

/-- A vector of 128 spread over every voxel row reads, at channel f of any voxel, its entry f. -/
theorem spreadVec_apply (v : FVec Ideal S128 .f32) (a : Fin 8) (d : Fin 16) (i j : Fin 32) (f : Fin 128) :
    Ops.spreadVec v (ix5 a d i j f) = v (ix1 f) := by
  unfold Ops.spreadVec
  refine (broadcastInDim_apply _ _ _ (ix5 a d i j f)
    (ix5 (0 : Fin 1) (0 : Fin 1) (0 : Fin 1) (0 : Fin 1) f) ?_).trans ?_
  · intro ax
    match ax with
    | ⟨0, _⟩ => rfl
    | ⟨1, _⟩ => rfl
    | ⟨2, _⟩ => rfl
    | ⟨3, _⟩ => rfl
    | ⟨4, _⟩ => rfl
  · refine broadcastInDim_apply _ _ v _ (ix1 f) ?_
    intro ax
    match ax with
    | ⟨0, _⟩ => rfl

/-- A unit-last-axis column spread over the 128 channels reads, at any channel, the row's one entry. -/
theorem spreadCol_apply (m : FVec Ideal S8x16x32x32x1 .f32) (a : Fin 8) (d : Fin 16) (i j : Fin 32) (f : Fin 128) :
    Ops.spreadCol m (ix5 a d i j f) = m (ix5 a d i j (0 : Fin 1)) := by
  unfold Ops.spreadCol
  refine broadcastInDim_apply _ _ m _ (ix5 a d i j (0 : Fin 1)) ?_
  intro ax
  match ax with
  | ⟨0, _⟩ => rfl
  | ⟨1, _⟩ => rfl
  | ⟨2, _⟩ => rfl
  | ⟨3, _⟩ => rfl
  | ⟨4, _⟩ => rfl

/-- A per-voxel value given a unit last axis reads the voxel's value. -/
theorem keepCol_apply (r : FVec Ideal S8x16x32x32 .f32) (a : Fin 8) (d : Fin 16) (i j : Fin 32) :
    broadcastInDim S8x16x32x32x1 ![0, 1, 2, 3] bcast_S8x16x32x32_S8x16x32x32x1_0_1_2_3 r (ix5 a d i j (0 : Fin 1))
      = r (ix4 a d i j) := by
  refine broadcastInDim_apply _ _ r _ (ix4 a d i j) ?_
  intro ax
  match ax with
  | ⟨0, _⟩ => rfl
  | ⟨1, _⟩ => rfl
  | ⟨2, _⟩ => rfl
  | ⟨3, _⟩ => rfl

/-- The heads re-read as voxel rows of 512: entry k of row (a, d, i, j) in the 2-axis arrangement is entry
    (a, d, i, j, k) of the 5-axis one (same row-major position). -/
theorem rows_apply (h : FVec Ideal S8x8x16384x64 .f32) (hc : S8x8x16384x64.ShapeCasts S8x16x32x32x512)
    (h5 : S8x8x16384x64.ShapeCasts Cert.Spec.Sh5) (h2 : Cert.Spec.Sh5.ShapeCasts Cert.Spec.Sh2)
    (a : Fin 8) (d : Fin 16) (i j : Fin 32) (k : Fin 512) :
    shapeCast Cert.Spec.Sh2 (shapeCast Cert.Spec.Sh5 h h5) h2 (ix2 (row a d i j) k)
      = shapeCast S8x16x32x32x512 h hc (ix5 a d i j k) := by
  refine shapeCast_apply _ h2 (ix2 (row a d i j) k) (ix5 a d i j k) ?_
  rw [Shape.rowMajor_val_five, Shape.rowMajor_val_two]
  rfl

/-- A vector of 128 re-read as a 1 × 128 array keeps its entries. -/
theorem vec2_apply (v : FVec Ideal S128 .f32) (hv : S128.ShapeCasts Cert.Spec.Sv2) (f : Fin 128) :
    shapeCast Cert.Spec.Sv2 v hv (ix2 (0 : Fin 1) f) = v (ix1 f) := by
  refine shapeCast_apply v hv (ix2 (0 : Fin 1) f) (ix1 f) ?_
  rw [Shape.rowMajor_val_one, Shape.rowMajor_val_two]
  show f.val = 0 * 128 + f.val
  omega

/-- The 131072 × 128 result re-read as the 5-axis voxel arrangement: entry (a, d, i, j, f) is entry f of the
    voxel's row. -/
theorem voxels_apply (z : Cert.Spec.Sx2.Idx → EReal) (hz : Cert.Spec.Sx2.ShapeCasts Cert.Spec.Sx5)
    (a : Fin 8) (d : Fin 16) (i j : Fin 32) (f : Fin 128) :
    shapeCast Cert.Spec.Sx5 z hz (ix5 a d i j f) = z (ix2 (row a d i j) f) := by
  refine shapeCast_apply z hz (ix5 a d i j f) (ix2 (row a d i j) f) ?_
  rw [Shape.rowMajor_val_five, Shape.rowMajor_val_two]
  rfl

end Cert.ReferenceIdeal.RefNormed

end
-- ==== Proof.RefNormedProj.lean ====
/-
  The output projection of the reference read at one entry: at voxel (a, d, i, j) and channel f it is the sum over
  the 512 entries of the voxel's row of heads times the matching column entry of the 512 × 128 matrix, plus the
  bias at f. The contraction's one axis is re-indexed by its coordinate; the operand indices are read off the
  dimension numbers (left: the voxel's coordinates and k; right: k and f).
-/
import proofs.«133711_j26079041421695_2_alg».proof.Proof.RefNormedLayout

noncomputable section

namespace Cert.ReferenceIdeal.RefNormed

open Idealize.ShloMosaic Idealize.ShloMosaic.ValueIdx Cert.ReferenceIdeal Cert.ReferenceIdeal.Facts₀

/-- The dot's left operand index at output (a, d, i, j, f) and contraction coordinate k is (a, d, i, j, k). -/
theorem outDot_lhsIdx (a : Fin 8) (d : Fin 16) (i j : Fin 32) (f : Fin 128) (k : Fin 512) :
    dot_S8x16x32x32x512_S512x128_S8x16x32x32x128_4_0_0123_1_n_n.lhsIdx (ix5 a d i j f)
      ((contrEquiv1 dot_S8x16x32x32x512_S512x128_S8x16x32x32x128_4_0_0123_1_n_n 512 rfl rfl).symm k) = ix5 a d i j k := by
  have ck := contrEquiv1_symm_val dot_S8x16x32x32x512_S512x128_S8x16x32x32x128_4_0_0123_1_n_n 512 rfl rfl k
  funext ax; apply Fin.ext
  match ax with
  | ⟨0, _⟩ => simp [DotDims.lhsIdx, dot_S8x16x32x32x512_S512x128_S8x16x32x32x128_4_0_0123_1_n_n]; rfl
  | ⟨1, _⟩ => simp [DotDims.lhsIdx, dot_S8x16x32x32x512_S512x128_S8x16x32x32x128_4_0_0123_1_n_n]; rfl
  | ⟨2, _⟩ => simp [DotDims.lhsIdx, dot_S8x16x32x32x512_S512x128_S8x16x32x32x128_4_0_0123_1_n_n]; rfl
  | ⟨3, _⟩ => simp [DotDims.lhsIdx, dot_S8x16x32x32x512_S512x128_S8x16x32x32x128_4_0_0123_1_n_n]; rfl
  | ⟨4, _⟩ => simp [DotDims.lhsIdx, dot_S8x16x32x32x512_S512x128_S8x16x32x32x128_4_0_0123_1_n_n]; exact ck

/-- The dot's right operand index there is (k, f). -/
theorem outDot_rhsIdx (a : Fin 8) (d : Fin 16) (i j : Fin 32) (f : Fin 128) (k : Fin 512) :
    dot_S8x16x32x32x512_S512x128_S8x16x32x32x128_4_0_0123_1_n_n.rhsIdx (ix5 a d i j f)
      ((contrEquiv1 dot_S8x16x32x32x512_S512x128_S8x16x32x32x128_4_0_0123_1_n_n 512 rfl rfl).symm k) = ix2 k f := by
  have ck := contrEquiv1_symm_val dot_S8x16x32x32x512_S512x128_S8x16x32x32x128_4_0_0123_1_n_n 512 rfl rfl k
  funext ax; apply Fin.ext
  match ax with
  | ⟨0, _⟩ => simp [DotDims.rhsIdx, dot_S8x16x32x32x512_S512x128_S8x16x32x32x128_4_0_0123_1_n_n]; exact ck
  | ⟨1, _⟩ => simp [DotDims.rhsIdx, dot_S8x16x32x32x512_S512x128_S8x16x32x32x128_4_0_0123_1_n_n]; rfl

/-- The product of the 5-axis rows with the 512 × 128 matrix at (a, d, i, j, f): the sum over k of row entry k
    times matrix entry (k, f). -/
theorem outDot_apply (l : FVec Ideal S8x16x32x32x512 .f32) (wo : FVec Ideal S512x128 .f32)
    (a : Fin 8) (d : Fin 16) (i j : Fin 32) (f : Fin 128) :
    Host.dotGeneral dot_S8x16x32x32x512_S512x128_S8x16x32x32x128_4_0_0123_1_n_n none l wo (ix5 a d i j f)
      = ∑ k : Fin 512, l (ix5 a d i j k) * wo (ix2 k f) := by
  show FloatOps.dotGeneral _ none _ l wo (ix5 a d i j f) = _
  rw [Ideal.dotGeneral_apply,
    ← Equiv.sum_comp (contrEquiv1 dot_S8x16x32x32x512_S512x128_S8x16x32x32x128_4_0_0123_1_n_n 512 rfl rfl).symm]
  refine Finset.sum_congr rfl fun k _ => ?_
  rw [outDot_lhsIdx, outDot_rhsIdx]

/-- The projected row of the reference at (voxel, f) is the specification's projection of the voxel's row. -/
theorem projectOut_apply (h : FVec Ideal S8x8x16384x64 .f32) (wo : FVec Ideal S512x128 .f32) (b : FVec Ideal S128 .f32)
    (h5 : S8x8x16384x64.ShapeCasts Cert.Spec.Sh5) (h2 : Cert.Spec.Sh5.ShapeCasts Cert.Spec.Sh2)
    (hv : S128.ShapeCasts Cert.Spec.Sv2) (a : Fin 8) (d : Fin 16) (i j : Fin 32) (f : Fin 128) :
    Ops.projectOut h wo b (ix5 a d i j f)
      = Cert.Spec.project (shapeCast Cert.Spec.Sh2 (shapeCast Cert.Spec.Sh5 h h5) h2) wo
          (shapeCast Cert.Spec.Sv2 b hv) (row a d i j) f := by
  unfold Ops.projectOut Cert.Spec.project
  refine (addf_apply _ _ _).trans ?_
  refine congrArg₂ (· + ·) ?_ ?_
  · refine (outDot_apply _ wo a d i j f).trans ?_
    refine Finset.sum_congr rfl fun k _ => ?_
    exact congrArg (· * wo (ix2 k f)) (rows_apply h _ h5 h2 a d i j k).symm
  · exact (spreadVec_apply b a d i j f).trans (vec2_apply b hv f).symm

end Cert.ReferenceIdeal.RefNormed

end
-- ==== Proof.RefNormedLen.lean ====
/-
  The one float word this stage has to evaluate: the pattern 0x43000000 denotes 128, which is above zero. (The
  divisor itself is never evaluated anywhere else: both sides carry the same word.)
-/
import Idealize.ShloMosaic.PureOps.Ideal

noncomputable section

namespace Cert.ReferenceIdeal.RefNormed

open Idealize.ShloMosaic

/-- The f32 pattern 0x43000000 is the real 128. -/
theorem len_eq : Ideal.ofBits .f32 0x43000000#32 = ((128 : ℝ) : EReal) := by
  simp [Ideal.ofBits, Ideal.ieee, -EReal.coe_mul]; norm_num

/-- So the row length is above zero. -/
theorem len_pos : (0 : EReal) < Ideal.ofBits .f32 0x43000000#32 := by
  rw [len_eq]
  exact EReal.coe_pos.mpr (by norm_num)

/-- The comparison "row length > 0" is the bit 1. -/
theorem len_gt_zero : Ideal.cmp .ogt (Ideal.ofBits .f32 0x43000000#32) 0 = 1#1 := by
  show BitVec.ofBool (decide ((0 : EReal) < Ideal.ofBits .f32 0x43000000#32)) = 1#1
  rw [decide_eq_true len_pos]
  rfl

end Cert.ReferenceIdeal.RefNormed

end
-- ==== Proof.RefNormedStats.lean ====
/-
  The row statistics of the reference read at one voxel: the mean of the 128 channels is (0 + their sum) over the
  row length, and the helper's variance is the sum of squared deviations over (row length − 0), taken by a select
  whose condition (row length − 0 > 0) holds. Both are the specification's mean and variance of the voxel's row.
  The only algebra: 0 + s = s and x − 0 = x.
-/
import proofs.«133711_j26079041421695_2_alg».proof.Proof.RefNormedLayout
import proofs.«133711_j26079041421695_2_alg».proof.Proof.RefNormedLen

noncomputable section

namespace Cert.ReferenceIdeal.RefNormed

open Idealize.ShloMosaic Idealize.ShloMosaic.ValueIdx Cert.ReferenceIdeal Cert.ReferenceIdeal.Facts₀

/-- The channel axis dropped from the 5-axis arrangement leaves the 4-axis voxel grid. -/
theorem reducesChan : S8x16x32x32x128.Reduces [4] S8x16x32x32 := by decide

/-- The voxel (a, d, i, j) with channel k inserted is (a, d, i, j, k). -/
theorem lift_chan (a : Fin 8) (d : Fin 16) (i j : Fin 32) (k : Fin 128) :
    reducesChan.lift (ix4 a d i j) k = ix5 a d i j k := by
  funext c; apply Fin.ext
  match c with
  | ⟨0, _⟩ => rfl
  | ⟨1, _⟩ => rfl
  | ⟨2, _⟩ => rfl
  | ⟨3, _⟩ => rfl
  | ⟨4, _⟩ => rfl

/-- The sum over the channel axis from the zero word, at a voxel: the sum of the voxel's 128 entries. -/
theorem rowSum_apply (y : FVec Ideal S8x16x32x32x128 .f32) (a : Fin 8) (d : Fin 16) (i j : Fin 32) :
    Host.reduceAdd y (constant (F := Ideal) S_ .f32 0x00000000#32) reducesTo_S8x16x32x32x128_S8x16x32x32_d4 h_S_
        (ix4 a d i j)
      = ∑ f : Fin 128, y (ix5 a d i j f) := by
  refine (hostReduceAdd_apply y _ _ _ (ix4 a d i j)).trans ?_
  refine (Ideal.hostReduceAdd_single _ reducesChan y _ (ix4 a d i j)).trans ?_
  show Ideal.ofBits .f32 0x00000000#32 + ∑ k : Fin 128, y (reducesChan.lift (ix4 a d i j) k) = _
  rw [Ideal.ofBits_zero_f32, zero_add]
  exact Finset.sum_congr rfl fun k _ => congrArg y (lift_chan a d i j k)

/-- The reference's row mean at a voxel is the specification's mean of the voxel's row. -/
theorem rowMean_apply (y : FVec Ideal S8x16x32x32x128 .f32) (a : Fin 8) (d : Fin 16) (i j : Fin 32) :
    Ops.rowMean (F := Ideal) y (ix5 a d i j (0 : Fin 1)) = Cert.Spec.mean (fun f => y (ix5 a d i j f)) := by
  unfold Ops.rowMean Cert.Spec.mean
  refine (hostDivf_apply _ _ _).trans ?_
  refine congrArg₂ Ideal.div ?_ ?_
  · exact (keepCol_apply _ a d i j).trans (rowSum_apply y a d i j)
  · exact (broadcastInDim_scalar_apply _ _ _).trans (constant_apply _ _)

/-- The integer 0 converted is the real 0. -/
theorem sitofp_zero : FloatOps.sitofp (F := Ideal) .f32 (0#32 : BitVec 32) = (0 : EReal) := by
  show (((0#32 : BitVec 32).toInt : ℝ) : EReal) = 0
  simp

/-- The variance's divisor, row length minus the converted integer 0, is the row length. -/
theorem varDivisor_apply : Ops.varDivisor (F := Ideal) ix0 = Cert.Spec.len := by
  unfold Ops.varDivisor
  refine (subf_apply _ _ _).trans ?_
  show Ideal.ofBits .f32 0x43000000#32 - FloatOps.sitofp (F := Ideal) .f32 (0#32 : BitVec 32) = _
  rw [sitofp_zero, sub_zero]

/-- The helper's guard, "divisor > 0" spread over the voxels, is the bit 1 everywhere. -/
theorem guard_apply (a : Fin 8) (d : Fin 16) (i j : Fin 32) :
    broadcastInDim S8x16x32x32x1 ![] bcast_S_S8x16x32x32x1
        (cmpf .ogt (Ops.varDivisor (F := Ideal)) (constant (F := Ideal) S_ .f32 0x00000000#32))
        (ix5 a d i j (0 : Fin 1)) = 1#1 := by
  refine (broadcastInDim_scalar_apply _ _ _).trans ?_
  refine (cmpf_apply _ _ _ _).trans ?_
  rw [varDivisor_apply]
  show Ideal.cmp .ogt (Ideal.ofBits .f32 0x43000000#32) (Ideal.ofBits .f32 0x00000000#32) = 1#1
  rw [Ideal.ofBits_zero_f32]
  exact len_gt_zero

/-- The reference's row variance at a voxel is the specification's variance of the voxel's row. -/
theorem rowVariance_apply (y : FVec Ideal S8x16x32x32x128 .f32) (a : Fin 8) (d : Fin 16) (i j : Fin 32) :
    Ops.rowVariance (F := Ideal) y (ix5 a d i j (0 : Fin 1)) = Cert.Spec.variance (fun f => y (ix5 a d i j f)) := by
  unfold Ops.rowVariance
  refine (select_apply _ _ _ _).trans ?_
  rw [guard_apply a d i j, select_one]
  unfold Cert.Spec.variance
  refine (hostDivf_apply _ _ _).trans ?_
  refine congrArg₂ Ideal.div ?_ ?_
  · refine (keepCol_apply _ a d i j).trans ?_
    refine (rowSum_apply _ a d i j).trans ?_
    refine Finset.sum_congr rfl fun f _ => ?_
    have hm : Ops.spreadCol (Ops.rowMean (F := Ideal) y) (ix5 a d i j f)
        = Cert.Spec.mean (fun f => y (ix5 a d i j f)) :=
      (spreadCol_apply _ a d i j f).trans (rowMean_apply y a d i j)
    show (y (ix5 a d i j f) - Ops.spreadCol (Ops.rowMean (F := Ideal) y) (ix5 a d i j f))
        * (y (ix5 a d i j f) - Ops.spreadCol (Ops.rowMean (F := Ideal) y) (ix5 a d i j f)) = _
    rw [hm]
  · exact (broadcastInDim_scalar_apply _ _ _).trans varDivisor_apply

end Cert.ReferenceIdeal.RefNormed

end
-- ==== Proof.RefNormed.lean ====
/-
  The last stage of the reference is the specification's: every voxel row projected (512 → 128, plus the bias) and
  normalised (centred at its mean, scaled by the reciprocal square root of its variance plus the guard, then by
  gamma, shifted by beta). Read entry by entry: the normalisation at (voxel, f) is the specification's row
  normalisation of the voxel's projected row; the projected row is the specification's projection of row
  ((a·16 + d)·32 + i)·32 + j; and the 131072 × 128 result re-read as voxels keeps each entry in place.
-/
import proofs.«133711_j26079041421695_2_alg».proof.Proof.RefNormedProj
import proofs.«133711_j26079041421695_2_alg».proof.Proof.RefNormedStats

noncomputable section

namespace Cert.ReferenceIdeal.RefNormed

open Idealize.ShloMosaic Idealize.ShloMosaic.ValueIdx Cert.ReferenceIdeal Cert.ReferenceIdeal.Facts₀

/-- The host's reciprocal square root at an entry is the extended reals'. -/
theorem hostRsqrt_apply {s : Shape} {φ : FTy} (x : FVec Ideal s φ) (i : s.Idx) : Host.rsqrt x i = Ideal.rsqrt (x i) := rfl

/-- The reference's normalisation at (voxel, f) is the specification's normalisation of the voxel's row. -/
theorem normaliseRows_apply (y : FVec Ideal S8x16x32x32x128 .f32) (g be : FVec Ideal S128 .f32)
    (a : Fin 8) (d : Fin 16) (i j : Fin 32) (f : Fin 128) :
    Ops.normaliseRows y g be (ix5 a d i j f)
      = Cert.Spec.layerNorm (fun f => y (ix5 a d i j f)) (fun f => g (ix1 f)) (fun f => be (ix1 f)) f := by
  unfold Ops.normaliseRows Cert.Spec.layerNorm
  refine (addf_apply _ _ _).trans ?_
  refine congrArg₂ (· + ·) ?_ (spreadVec_apply be a d i j f)
  refine (mulf_apply _ _ _).trans ?_
  refine congrArg₂ (· * ·) ?_ ?_
  · refine (mulf_apply _ _ _).trans ?_
    refine congrArg₂ (· * ·) (spreadVec_apply g a d i j f) ?_
    refine (subf_apply _ _ _).trans ?_
    exact congrArg (y (ix5 a d i j f) - ·) ((spreadCol_apply _ a d i j f).trans (rowMean_apply y a d i j))
  · refine (spreadCol_apply _ a d i j f).trans ?_
    refine (hostRsqrt_apply _ _).trans ?_
    refine congrArg Ideal.rsqrt ?_
    refine (addf_apply _ _ _).trans ?_
    refine congrArg₂ (· + ·) (rowVariance_apply y a d i j) ?_
    exact (broadcastInDim_scalar_apply _ _ _).trans (constant_apply _ _)

/-- The reference's last stage is the specification's, as whole arrays. -/
theorem normalise_eq (h : FVec Ideal S8x8x16384x64 .f32) (wo : FVec Ideal S512x128 .f32) (b g be : FVec Ideal S128 .f32) :
    Ops.normaliseRows (Ops.projectOut h wo b) g be
      = shapeCast Cert.Spec.Sx5 (Cert.Spec.normed (shapeCast Cert.Spec.Sh2 (shapeCast Cert.Spec.Sh5 h (by decide)) (by decide)) wo
          (shapeCast Cert.Spec.Sv2 b (by decide)) (shapeCast Cert.Spec.Sv2 g (by decide)) (shapeCast Cert.Spec.Sv2 be (by decide))) (by decide) := by
  funext idx
  obtain ⟨a, d, i, j, f, rfl⟩ : ∃ (a : Fin 8) (d : Fin 16) (i j : Fin 32) (f : Fin 128), idx = ix5 a d i j f :=
    ⟨idx 0, idx 1, idx 2, idx 3, idx 4, eq_ix5 idx⟩
  refine (normaliseRows_apply _ g be a d i j f).trans ?_
  refine Eq.trans ?_ (voxels_apply _ _ a d i j f).symm
  have e1 : (fun f => Ops.projectOut h wo b (ix5 a d i j f))
      = Cert.Spec.project (shapeCast Cert.Spec.Sh2 (shapeCast Cert.Spec.Sh5 h (by decide)) (by decide)) wo
          (shapeCast Cert.Spec.Sv2 b (by decide)) (row a d i j) :=
    funext fun f => projectOut_apply h wo b _ _ _ a d i j f
  have e2 : (fun f => g (ix1 f)) = fun f => shapeCast Cert.Spec.Sv2 g (by decide) (ix2 (0 : Fin 1) f) :=
    funext fun f => (vec2_apply g _ f).symm
  have e3 : (fun f => be (ix1 f)) = fun f => shapeCast Cert.Spec.Sv2 be (by decide) (ix2 (0 : Fin 1) f) :=
    funext fun f => (vec2_apply be _ f).symm
  rw [e1, e2, e3]
  rfl

end Cert.ReferenceIdeal.RefNormed

end
-- ==== Proof.lean ====
/-
  The certificate's five claims, assembled.

  The kernel is three grid-pipelined regions among host reshapes: a projection of the 131072 voxel rows by a
  128 × 1536 matrix whose three 512-wide column bands are the queries, keys and values; a linear attention over the
  64 heads the bands become when re-read row-major as 64 × 16384 × 64 (softmax along each row of 64 for keys and
  queries, the queries scaled by one eighth, a 64 × 64 context per head, the query weights applied to it); and an
  output projection by a 512 × 128 matrix plus bias followed by a normalisation of each row of 128 (mean, biased
  variance, reciprocal square root of variance + 1e-3, gamma, beta). The reference computes the same with whole-array
  host operations on the 5-axis voxel arrangement and the 8 × 8 × 16384 × 64 arrangement of the heads.

  Both are shown to end with ONE function of the six argument arrays, `Cert.Spec.result` (Proof/Spec.lean), over the
  extended reals. No algebraic law joins the two sides beyond re-indexing: every sum runs over the same terms, the
  three float words (1/8, 128, 1e-3) are the same words on both sides and are never evaluated, a change of float
  format is the identity, and the reference's extra steps (a second maximum against −∞, sums started from the zero
  word, the variance's divisor 128 − 0 and its guard 128 − 0 > 0) change nothing. So the precondition (finite
  inputs) is never opened.

  Kernel side: each region's output array, for any contents it is entered with, is the matching specification stage
  of its input arrays (Proof/BandsValue.lean, HeadsValue.lean, NormedValue.lean: the body's arithmetic at one entry,
  then blocks to the whole array by a cover of the grid); folding these through @main's segments gives the result
  buffer (Proof/KValue.lean) in the run (Proof/KRun.lean). Reference side: its run ends with the composition of its
  operations (Proof/RefRun.lean over Proof/RefOps.lean), and each of the three stages of that composition is the
  specification's stage up to the row-major re-readings (Proof/RefBands.lean, RefAttend.lean, RefNormed.lean).
  The frames of the word-level kernel and of the idealized kernel are the generated ones; the reference's frame is
  its run with the result forgotten; the idealization rewrote nothing, so `preserves` is trivial.
-/
import proofs.«133711_j26079041421695_2_alg».proof.Defs
import proofs.«133711_j26079041421695_2_alg».proof.Proof.Gen.Kernel
import proofs.«133711_j26079041421695_2_alg».proof.Proof.Gen.Kernel.Frame
import proofs.«133711_j26079041421695_2_alg».proof.Proof.Gen.KernelIdeal
import proofs.«133711_j26079041421695_2_alg».proof.Proof.Gen.KernelIdeal.Frame
import proofs.«133711_j26079041421695_2_alg».proof.Proof.Gen.ReferenceIdeal
import proofs.«133711_j26079041421695_2_alg».proof.Proof.Gen.Pre_finite_inputs
import proofs.«133711_j26079041421695_2_alg».proof.Proof.Spec
import proofs.«133711_j26079041421695_2_alg».proof.Proof.RefOps
import proofs.«133711_j26079041421695_2_alg».proof.Proof.KRun
import proofs.«133711_j26079041421695_2_alg».proof.Proof.KValue
import proofs.«133711_j26079041421695_2_alg».proof.Proof.BandsValue
import proofs.«133711_j26079041421695_2_alg».proof.Proof.HeadsValue
import proofs.«133711_j26079041421695_2_alg».proof.Proof.NormedValue
import proofs.«133711_j26079041421695_2_alg».proof.Proof.RefRun
import proofs.«133711_j26079041421695_2_alg».proof.Proof.RefBands
import proofs.«133711_j26079041421695_2_alg».proof.Proof.RefAttend
import proofs.«133711_j26079041421695_2_alg».proof.Proof.RefNormed
import Idealize.ShloMosaic.Adequacy
import Idealize.ShloMosaic.Init

noncomputable section

namespace Cert.Proof

open Idealize.ShloMosaic Idealize.ShloMosaic.TcCoe Idealize.SL.Sem

/-! ## The idealized kernel's run ends at the specification -/

section
open Cert.KernelIdeal Cert.KernelIdeal.Gen

/-- Every weakly fair execution of the idealized kernel terminates without a fault, the result buffer at the
    specification's function of the launch arguments and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = Cert.Spec.result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun _ h c => ⟨(h c).1.trans (Cert.KernelIdeal.KValue.W7_v16 Cert.KernelIdeal.Bands.final_q Cert.KernelIdeal.Bands.final_k
        Cert.KernelIdeal.Bands.final_v Cert.KernelIdeal.Heads.final_heads Cert.KernelIdeal.Normed.final_normed m ρ c), (h c).2⟩)
    (Cert.KernelIdeal.KRun.run_result m ρ)
end

/-! ## The reference's composed term is the specification -/

section
open Cert.ReferenceIdeal

/-- Stage by stage: the three bands, the attention, the projection with its normalisation; what remains between
    the stages are the same row-major re-readings on both sides. -/
theorem whole_eq (x : FVec Ideal S8x16x32x32x128 .f32) (w : FVec Ideal S128x1536 .f32) (wo : FVec Ideal S512x128 .f32)
    (b g be : FVec Ideal S128 .f32) : Ops.whole x w wo b g be = Cert.Spec.result x w wo b g be := by
  unfold Ops.whole
  rw [Cert.ReferenceIdeal.RefBands.bandQ_eq, Cert.ReferenceIdeal.RefBands.bandK_eq, Cert.ReferenceIdeal.RefBands.bandV_eq,
    Cert.ReferenceIdeal.RefAttend.attend_eq, Cert.ReferenceIdeal.RefNormed.normalise_eq]
  rfl
end

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run (Cert.ReferenceIdeal.defs (F := Ideal)) _ _).mono (fun _ h c => (h c).2) (Cert.ReferenceIdeal.RefRun.run m ρ)

/-- The idealization rewrote no operation. -/
theorem preserves : Cert.preserves_Kernel_KernelIdeal := trivial

/-- From memories agreeing on the arguments both programs end with the specification's function of them. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun _ h c => ⟨(h c).1.trans ?_, (h c).2⟩)
    (Cert.ReferenceIdeal.RefRun.run m' ρ')
  rw [whole_eq, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
